-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part2 {F : FTy → Type} [FloatOps F] (main_v28 : IVec S_ 1) (main_v32 : IVec S_ 1) : IVec S_ 1 :=
  let main_v33 : IVec S_ 1 := andi main_v28 main_v32
  main_v33

def fn_part1 {F : FTy → Type} [FloatOps F] (main_arg1 : FVec F S8192x8192 .f32) (main_arg4 : FVec F S64x2 .f32) (main_arg5 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_cst_10 : FVec F S_ .f32 := constant S_ .f32 0x00000000#32
  let main_v29 : FVec F S8192 .f32 := (fun x v => Host.reduceAdd x v reducesTo_S8192x8192_S8192_d1 h_S_) main_arg1 main_cst_10
  let main_cst_11 : FVec F S_ .f32 := constant S_ .f32 0x00000000#32
  let main_v30 : FVec F S8192 .f32 := broadcastInDim S8192 ![] bcast_S_S8192 main_cst_11
  let main_v31 : IVec S8192 1 := cmpf .oge main_v29 main_v30
  let main_c_12 : IVec S_ 1 := constantI S_ 1 1#1
  let main_v32 : IVec S_ 1 := (fun x v => Host.reduce IntOp.andi x v reducesTo_S8192_S_d0 h_S_) main_v31 main_c_12
  fn_part2 (F := F) main_v28 main_v32

def fn {F : FTy → Type} [FloatOps F] (main_arg0 : FVec F S8192x128 .f32) (main_arg1 : FVec F S8192x8192 .f32) (main_arg2 : FVec F S128x64 .f32) (main_arg3 : FVec F S64 .f32) (main_arg4 : FVec F S64x2 .f32) (main_arg5 : FVec F S2 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg4 main_arg5 main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩
abbrev S1x64 : Shape := ⟨2, ![1, 64]⟩
abbrev S8192x64 : Shape := ⟨2, ![8192, 64]⟩
abbrev S1024x2048 : Shape := ⟨2, ![1024, 2048]⟩
abbrev S1024x1 : Shape := ⟨2, ![1024, 1]⟩
abbrev S1024x64 : Shape := ⟨2, ![1024, 64]⟩
abbrev S1024x128 : Shape := ⟨2, ![1024, 128]⟩
abbrev S2048x128 : Shape := ⟨2, ![2048, 128]⟩
abbrev S1x2 : Shape := ⟨2, ![1, 2]⟩
abbrev S8192x2 : Shape := ⟨2, ![8192, 2]⟩
abbrev S1024x2 : Shape := ⟨2, ![1024, 2]⟩
abbrev S2048x64 : Shape := ⟨2, ![2048, 64]⟩

abbrev nBuf : Space → Nat
  | .hbm => 18
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S8192x1, .f32⟩
  | .hbm, ⟨7, _⟩ => ⟨S8192x8192, .bf16⟩
  | .hbm, ⟨8, _⟩ => ⟨S8192x128, .f32⟩
  | .hbm, ⟨9, _⟩ => ⟨S8192x128, .f32⟩
  | .hbm, ⟨10, _⟩ => ⟨S8192x128, .bf16⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S8192x64, .bf16⟩
  | .hbm, ⟨16, _⟩ => ⟨S1x2, .f32⟩
  | .hbm, ⟨17, _⟩ => ⟨S8192x2, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x2048, .bf16⟩
  | .local _ .vmem, ⟨5, _⟩ => ⟨S512x2048, .bf16⟩
  | .local _ .vmem, ⟨6, _⟩ => ⟨S512x1, .f32⟩
  | .local _ .vmem, ⟨7, _⟩ => ⟨S1024x2048, .bf16⟩
  | .local _ .vmem, ⟨8, _⟩ => ⟨S1024x2048, .bf16⟩
  | .local _ .vmem, ⟨9, _⟩ => ⟨S8192x128, .bf16⟩
  | .local _ .vmem, ⟨10, _⟩ => ⟨S1024x1, .f32⟩
  | .local _ .vmem, ⟨11, _⟩ => ⟨S1024x1, .f32⟩
  | .local _ .vmem, ⟨12, _⟩ => ⟨S128x64, .f32⟩
  | .local _ .vmem, ⟨13, _⟩ => ⟨S1x64, .f32⟩
  | .local _ .vmem, ⟨14, _⟩ => ⟨S1024x64, .f32⟩
  | .local _ .vmem, ⟨15, _⟩ => ⟨S1024x64, .f32⟩
  | .local _ .vmem, ⟨16, _⟩ => ⟨S1024x128, .f32⟩
  | .local _ .vmem, ⟨17, _⟩ => ⟨S1024x2048, .bf16⟩
  | .local _ .vmem, ⟨18, _⟩ => ⟨S1024x2048, .bf16⟩
  | .local _ .vmem, ⟨19, _⟩ => ⟨S8192x64, .bf16⟩
  | .local _ .vmem, ⟨20, _⟩ => ⟨S1024x1, .f32⟩
  | .local _ .vmem, ⟨21, _⟩ => ⟨S1024x1, .f32⟩
  | .local _ .vmem, ⟨22, _⟩ => ⟨S64x2, .f32⟩
  | .local _ .vmem, ⟨23, _⟩ => ⟨S1x2, .f32⟩
  | .local _ .vmem, ⟨24, _⟩ => ⟨S1024x2, .f32⟩
  | .local _ .vmem, ⟨25, _⟩ => ⟨S1024x2, .f32⟩
  | .local _ .vmem, ⟨26, _⟩ => ⟨S1024x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  bcast_S8192x1_S8192x128_0_1 : S8192x1.BroadcastsInDim S8192x128 (![0, 1] : Fin 2 → Fin S8192x128.rank)
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  bcast_S8192x1_S8192x64_0_1 : S8192x1.BroadcastsInDim S8192x64 (![0, 1] : Fin 2 → Fin S8192x64.rank)
  shapeCasts_S2_S1x2 : S2.ShapeCasts S1x2
  shapeCasts_S1024x64_S1024x64 : S1024x64.ShapeCasts S1024x64
  h_S2048x64 : 0 < S2048x64.numel
  shapeCasts_S2048x64_S2048x64 : S2048x64.ShapeCasts S2048x64
  broadcasts_S1024x1_S1024x64 : S1024x1.Broadcasts S1024x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S1024x2048_S2048x128_S1024x128_1_0_0_1_n_n_wf : DotDims.WF S1024x2048 S2048x128 S1024x128 [1] [0] [0] [1] [] []
  dot_S1024x128_S128x64_S1024x64_1_0_0_1_n_n_wf : DotDims.WF S1024x128 S128x64 S1024x64 [1] [0] [0] [1] [] []
  dot_S1024x2048_S2048x64_S1024x64_1_0_0_1_n_n_wf : DotDims.WF S1024x2048 S2048x64 S1024x64 [1] [0] [0] [1] [] []
  dot_S1024x64_S64x2_S1024x2_1_0_0_1_n_n_wf : DotDims.WF S1024x64 S64x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .bf16 = 32 ∨ (Rect.block (s := S8192x8192) S512x2048.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x2.size a ≤ S8192x2.size a
  hwx2_5 : ∀ i : grid2.Coords, EltTy.bits .f32 = 32 ∨ (Rect.block (s := S8192x2) S1024x2.size (cc2_transform_5 i) (hinb2_5 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v0_1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v0_1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1024x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S1x64 : Shape := ⟨2, ![1, 64]⟩
abbrev S8192x2 : Shape := ⟨2, ![8192, 2]⟩
abbrev S1x2 : Shape := ⟨2, ![1, 2]⟩

abbrev nBuf : Space → Nat
  | .hbm => 40
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x128, .f32⟩
  | .hbm, ⟨22, _⟩ => ⟨S8192x64, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x64, .f32⟩
  | .hbm, ⟨36, _⟩ => ⟨S8192x2, .f32⟩
  | .hbm, ⟨37, _⟩ => ⟨S1x2, .f32⟩
  | .hbm, ⟨38, _⟩ => ⟨S8192x2, .f32⟩
  | .hbm, ⟨39, _⟩ => ⟨S8192x2, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x2_S8192x2_1_0_0_1_n_n_wf : DotDims.WF S8192x64 S64x2 S8192x2 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

class Facts : Prop extends Facts₀ where

variable [Facts]
-- ==== Proof.Kernel.DegreeRuns.lean ====
/-
  Region 0 (the degree kernel): what its three cases share.  The grid is 16 row blocks by 4 column blocks; the
  scratch column accumulates the row sums over the column blocks of one row block.  The first conditional (the
  column-block index is 0) resets the accumulator; the second (the index is 3) writes the inverse root degree.
  Case A: index 0, case B: index 1 or 2, case C: index 3.
-/
import proofs.«103316_j15479062135163_2_alg».proof.Proof.Gen.Kernel.Launch
import proofs.«103316_j15479062135163_2_alg».proof.Proof.Gen.Kernel.Skeleton
import proofs.«103316_j15479062135163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition from the grid coordinates: the column-block index is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the column-block index is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 (the input block) is never idle. -/
theorem liveAt0_0 : ∀ t : Fin cfg0.N, cfg0.idle 0 (grid0.coords t) = false := by decide +kernel
/-- Window 2 (the copied block) is never idle. -/
theorem liveAt0_2 : ∀ t : Fin cfg0.N, cfg0.idle 2 (grid0.coords t) = false := by decide +kernel
/-- Window 1 (the degree column) is idle and not written back where the second condition fails. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- It is live where the second condition holds. -/
theorem liveAt0_1 : ∀ t : Fin cfg0.N, cond0_1 (grid0.coords t) → cfg0.idle 1 (grid0.coords t) = false := by decide +kernel

/-! ## The staging memrefs and the scratch -/

/-- One staging buffer of each output window, through which its contents are stated. -/
abbrev VO0_1 : View sig .tc .vmem S512x1 .f32 := (Memref.whole cc0_stg1_0 : Memref sig .tc .vmem S512x1 .f32).view
abbrev VO0_2 : View sig .tc .vmem S512x2048 .bf16 := (Memref.whole cc0_stg2_0 : Memref sig .tc .vmem S512x2048 .bf16).view
/-- Each window's current staging memref at point `t`, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0_0 : Memref sig .tc .vmem S512x1 .f32 := Memref.whole cc0_scratch0
abbrev VS0_0 : View sig .tc .vmem S512x1 .f32 := scM0_0.view

/-- The core's other scoped buffers (those of the other two kernels), kept as one term. -/
abbrev Rest0 (c : Dev nD) : sProp 𝕄 :=
  Pipeline.scopedRestBut (Ix := Unit) (Name := ℕ) (U := UR sig nD τ) (Lvl := ℕ) (Val := Elt F) spec0 c [cc0_scratch0]

/-- The region invariant with the scratch accumulator split off as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.Kernel.Hand

end
-- ==== Proof.Kernel.DegreeRunA.lean ====
/-
  Region 0, case A (column-block index 0): the accumulator is reset, the block's row sums are added to it, the
  block is copied; the degree column is not touched.
-/
import proofs.«103316_j15479062135163_2_alg».proof.Proof.Kernel.DegreeRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the copied block's buffer (`L2`) and in the accumulator (`LS0`) in case A,
    with the body's triple on whole memrefs: the input at its contents, the degree column handed back untouched,
    the copy's buffer and the accumulator at anything. -/
noncomputable def kernelRun0_A (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) :
    Σ' (L2 : List (View.Piece (Elt F) S512x2048 .bf16)), { LS0 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__degree_kernel i arg2 harg2 arg3 harg3 arg4 harg4 arg5 harg5) K } := by
  refine ⟨?_, ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Kernel.DegreeRunB.lean ====
/-
  Region 0, case B (column-block index 1 or 2): the block's row sums are added to the accumulator the point before
  left, the block is copied; the degree column is not touched.
-/
import proofs.«103316_j15479062135163_2_alg».proof.Proof.Kernel.DegreeRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces of case B, with the body's triple: the accumulator now at the contents `xs0` the point before left. -/
noncomputable def kernelRun0_B (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) :
    Σ' (L2 : List (View.Piece (Elt F) S512x2048 .bf16)), { LS0 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__degree_kernel i arg2 harg2 arg3 harg3 arg4 harg4 arg5 harg5) K } := by
  refine ⟨?_, ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Kernel.DegreeRunC.lean ====
/-
  Region 0, case C (column-block index 3): the last block's row sums are added to the accumulator, the block is
  copied, and the degree column is written from the finished sums.
-/
import proofs.«103316_j15479062135163_2_alg».proof.Proof.Kernel.DegreeRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces of case C (`L1`: the degree column's), with the body's triple: the degree column's buffer at anything. -/
noncomputable def kernelRun0_C (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) :
    Σ' (L1 : List (View.Piece (Elt F) S512x1 .f32)) (L2 : List (View.Piece (Elt F) S512x2048 .bf16)), { LS0 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__degree_kernel i arg2 harg2 arg3 harg3 arg4 harg4 arg5 harg5) K } := by
  refine ⟨?_, ?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.Kernel.Hand

end
-- ==== Proof.Kernel.Degree.lean ====
/-
  Region 0 (the degree kernel) at the contents `V` the region is entered with: what the accumulator and the two
  outputs hold after each point, the region's proof data, and the body obligation.
-/
import proofs.«103316_j15479062135163_2_alg».proof.Proof.Kernel.DegreeRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The conditions at a point, from its residue -/

theorem hA0 (t : Fin cfg0.N) (h0 : t.val % 4 = 0) : cond0_0 (grid0.coords t) := (hcond0_0 t).mpr h0
theorem hA1 (t : Fin cfg0.N) (h0 : t.val % 4 = 0) : ¬cond0_1 (grid0.coords t) := fun h => by
  have := (hcond0_1 t).mp h; omega
theorem hN0 (t : Fin cfg0.N) (h0 : ¬t.val % 4 = 0) : ¬cond0_0 (grid0.coords t) := fun h => h0 ((hcond0_0 t).mp h)
theorem hN1 (t : Fin cfg0.N) (h1 : ¬t.val % 4 = 3) : ¬cond0_1 (grid0.coords t) := fun h => h1 ((hcond0_1 t).mp h)
theorem hC1 (t : Fin cfg0.N) (h1 : t.val % 4 = 3) : cond0_1 (grid0.coords t) := (hcond0_1 t).mpr h1

/-! ## What each case leaves -/

/-- Case A's pieces for the accumulator cover it. -/
theorem scover0_A_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) (y : S512x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S512x1.size (by sl_kernel_rfl) y

/-- What case A leaves in the accumulator: its pieces read back. -/
def sout0_A_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) : Vec F S512x1 .f32 :=
  VS0_0.read (Elt F) (VS0_0.writes (Elt F) VS0_0.junk (kernelRun0_A c i arg2 harg2 arg3 harg3 arg4 harg4 arg5 harg5 hc0 hc1 x0).2.1)

/-- Case A's pieces for the copied block cover it. -/
theorem cover0_A_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) (y : S512x2048.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S512x2048.size (by sl_kernel_rfl) y

/-- What case A leaves in the copied block's buffer. -/
def out0_A_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) : Vec F S512x2048 .bf16 :=
  VO0_2.read (Elt F) (VO0_2.writes (Elt F) VO0_2.junk (kernelRun0_A c i arg2 harg2 arg3 harg3 arg4 harg4 arg5 harg5 hc0 hc1 x0).1)

/-- Case B's pieces for the accumulator cover it. -/
theorem scover0_B_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) (y : S512x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S512x1.size (by sl_kernel_rfl) y

/-- What case B leaves in the accumulator: its pieces read back. -/
def sout0_B_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) : Vec F S512x1 .f32 :=
  VS0_0.read (Elt F) (VS0_0.writes (Elt F) VS0_0.junk (kernelRun0_B c i arg2 harg2 arg3 harg3 arg4 harg4 arg5 harg5 hc0 hc1 x0 xs0).2.1)

/-- Case B's pieces for the copied block cover it. -/
theorem cover0_B_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) (y : S512x2048.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S512x2048.size (by sl_kernel_rfl) y

/-- What case B leaves in the copied block's buffer. -/
def out0_B_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) : Vec F S512x2048 .bf16 :=
  VO0_2.read (Elt F) (VO0_2.writes (Elt F) VO0_2.junk (kernelRun0_B c i arg2 harg2 arg3 harg3 arg4 harg4 arg5 harg5 hc0 hc1 x0 xs0).1)

/-- Case C's pieces for the accumulator cover it. -/
theorem scover0_C_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) (y : S512x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S512x1.size (by sl_kernel_rfl) y

/-- What case C leaves in the accumulator: its pieces read back. -/
def sout0_C_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) : Vec F S512x1 .f32 :=
  VS0_0.read (Elt F) (VS0_0.writes (Elt F) VS0_0.junk (kernelRun0_C c i arg2 harg2 arg3 harg3 arg4 harg4 arg5 harg5 hc0 hc1 x0 xs0).2.2.1)

/-- Case C's pieces for the copied block cover it. -/
theorem cover0_C_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) (y : S512x2048.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S512x2048.size (by sl_kernel_rfl) y

/-- What case C leaves in the copied block's buffer. -/
def out0_C_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) : Vec F S512x2048 .bf16 :=
  VO0_2.read (Elt F) (VO0_2.writes (Elt F) VO0_2.junk (kernelRun0_C c i arg2 harg2 arg3 harg3 arg4 harg4 arg5 harg5 hc0 hc1 x0 xs0).2.1)

/-- Case C's pieces for the degree column cover it. -/
theorem cover0_C_1 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) (y : S512x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S512x1.size (by sl_kernel_rfl) y

/-- What case C leaves in the degree column's buffer. -/
def out0_C_1 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) : Vec F S512x1 .f32 :=
  VO0_1.read (Elt F) (VO0_1.writes (Elt F) VO0_1.junk (kernelRun0_C c i arg2 harg2 arg3 harg3 arg4 harg4 arg5 harg5 hc0 hc1 x0 xs0).1)

/-- Where the degree column is idle nothing consults its contents: a placeholder. -/
def idle0_1 : Vec F S512x1 .f32 := VO0_1.read (Elt F) VO0_1.junk

/-! ## What the outputs and the accumulator hold after each point -/

/-- THE ACCUMULATION. After the body at position `n`: (the degree column's buffer, the copied block's buffer, the
    accumulator) — the case the residue of `n` selects, run at the point's memrefs and input block, the accumulator
    at what the point before left. -/
def outsAt0 (c : Dev nD) : (n : ℕ) → n < cfg0.N → Vec F S512x1 .f32 × Vec F S512x2048 .bf16 × Vec F S512x1 .f32
  | 0, hn => (fun (t : Fin cfg0.N) (h0 : t.val % 4 = 0) => (idle0_1, out0_A_2 c (grid0.coords t) (ms0_0 t) (hs0_0 t) (ms0_1 t) (hs0_1 t) (ms0_2 t) (hs0_2 t) scM0_0 (Memref.isWhole_whole _) (hA0 t h0) (hA1 t h0) (iblk0 V c 0 t), sout0_A_0 c (grid0.coords t) (ms0_0 t) (hs0_0 t) (ms0_1 t) (hs0_1 t) (ms0_2 t) (hs0_2 t) scM0_0 (Memref.isWhole_whole _) (hA0 t h0) (hA1 t h0) (iblk0 V c 0 t))) ⟨0, hn⟩ (Nat.zero_mod _)
  | n + 1, hn =>
    if h0 : (n + 1) % 4 = 0 then
      (fun (t : Fin cfg0.N) (h0 : t.val % 4 = 0) => (idle0_1, out0_A_2 c (grid0.coords t) (ms0_0 t) (hs0_0 t) (ms0_1 t) (hs0_1 t) (ms0_2 t) (hs0_2 t) scM0_0 (Memref.isWhole_whole _) (hA0 t h0) (hA1 t h0) (iblk0 V c 0 t), sout0_A_0 c (grid0.coords t) (ms0_0 t) (hs0_0 t) (ms0_1 t) (hs0_1 t) (ms0_2 t) (hs0_2 t) scM0_0 (Memref.isWhole_whole _) (hA0 t h0) (hA1 t h0) (iblk0 V c 0 t))) ⟨n + 1, hn⟩ h0
    else
      if h1 : (n + 1) % 4 = 3 then
        (fun (t : Fin cfg0.N) (h0 : ¬t.val % 4 = 0) (h1 : t.val % 4 = 3) => (out0_C_1 c (grid0.coords t) (ms0_0 t) (hs0_0 t) (ms0_1 t) (hs0_1 t) (ms0_2 t) (hs0_2 t) scM0_0 (Memref.isWhole_whole _) (hN0 t h0) (hC1 t h1) (iblk0 V c 0 t) (outsAt0 c n (Nat.lt_of_succ_lt hn)).2.2, out0_C_2 c (grid0.coords t) (ms0_0 t) (hs0_0 t) (ms0_1 t) (hs0_1 t) (ms0_2 t) (hs0_2 t) scM0_0 (Memref.isWhole_whole _) (hN0 t h0) (hC1 t h1) (iblk0 V c 0 t) (outsAt0 c n (Nat.lt_of_succ_lt hn)).2.2, sout0_C_0 c (grid0.coords t) (ms0_0 t) (hs0_0 t) (ms0_1 t) (hs0_1 t) (ms0_2 t) (hs0_2 t) scM0_0 (Memref.isWhole_whole _) (hN0 t h0) (hC1 t h1) (iblk0 V c 0 t) (outsAt0 c n (Nat.lt_of_succ_lt hn)).2.2)) ⟨n + 1, hn⟩ h0 h1
      else
        (fun (t : Fin cfg0.N) (h0 : ¬t.val % 4 = 0) (h1 : ¬t.val % 4 = 3) => (idle0_1, out0_B_2 c (grid0.coords t) (ms0_0 t) (hs0_0 t) (ms0_1 t) (hs0_1 t) (ms0_2 t) (hs0_2 t) scM0_0 (Memref.isWhole_whole _) (hN0 t h0) (hN1 t h1) (iblk0 V c 0 t) (outsAt0 c n (Nat.lt_of_succ_lt hn)).2.2, sout0_B_0 c (grid0.coords t) (ms0_0 t) (hs0_0 t) (ms0_1 t) (hs0_1 t) (ms0_2 t) (hs0_2 t) scM0_0 (Memref.isWhole_whole _) (hN0 t h0) (hN1 t h1) (iblk0 V c 0 t) (outsAt0 c n (Nat.lt_of_succ_lt hn)).2.2)) ⟨n + 1, hn⟩ h0 h1

/-- `outsAt0` at a point of case A. -/
theorem outsAt0_A (c : Dev nD) (t : Fin cfg0.N) (h0 : t.val % 4 = 0) :
    outsAt0 V c t.val t.isLt = (idle0_1, out0_A_2 c (grid0.coords t) (ms0_0 t) (hs0_0 t) (ms0_1 t) (hs0_1 t) (ms0_2 t) (hs0_2 t) scM0_0 (Memref.isWhole_whole _) (hA0 t h0) (hA1 t h0) (iblk0 V c 0 t), sout0_A_0 c (grid0.coords t) (ms0_0 t) (hs0_0 t) (ms0_1 t) (hs0_1 t) (ms0_2 t) (hs0_2 t) scM0_0 (Memref.isWhole_whole _) (hA0 t h0) (hA1 t h0) (iblk0 V c 0 t)) := by
  obtain ⟨n, hn⟩ := t
  cases n with
  | zero => exact rfl
  | succ n => exact (dif_pos h0).trans rfl

/-- `outsAt0` at a point of case B: over what the point before left. -/
theorem outsAt0_B (c : Dev nD) (t : Fin cfg0.N) (h0 : ¬t.val % 4 = 0) (h1 : ¬t.val % 4 = 3) :
    outsAt0 V c t.val t.isLt = (idle0_1, out0_B_2 c (grid0.coords t) (ms0_0 t) (hs0_0 t) (ms0_1 t) (hs0_1 t) (ms0_2 t) (hs0_2 t) scM0_0 (Memref.isWhole_whole _) (hN0 t h0) (hN1 t h1) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (hN0 t h0) (hN1 t h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the core's other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The region's proof data -/

/-- The proof data of region 0 on core `c`: the arrays as the region finds them; after the body at point `t` the
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's memref holds its block; the residue says which case the point is in; the
    invariant hands the body the accumulator at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · rw [show (dat0 V c).leavesExact 0 t = owns (c : Thread nD τ) (ms0_0 t) fullShare ((dat0 V c).after 0 t) from by
        unfold Dat.leavesExact; rw [liveAt0_0 t], after0_0]
    rw [Dat.leavesExact_idle (dat0 V c) 1 t (idleAt0_1 t (hA1 t h0)) (noFlush0_1 t (hA1 t h0))]
    rw [show (dat0 V c).leavesExact 2 t = owns (c : Thread nD τ) (ms0_2 t) fullShare ((dat0 V c).after 2 t) from by
        unfold Dat.leavesExact; rw [liveAt0_2 t], after0_2]
    rw [outsAt0_A V c t h0]
    unfold sout0_A_0 out0_A_2; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ (hA0 t h0) (hA1 t h0) (iblk0 V c 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ (hA0 t h0) (hA1 t h0) (iblk0 V c 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
  · have hz : t.val ≠ 0 := fun hz => h0 (by rw [hz])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t (hC1 t h1)], after0_1]
      rw [show (dat0 V c).leavesExact 2 t = owns (c : Thread nD τ) (ms0_2 t) fullShare ((dat0 V c).after 2 t) from by
        unfold Dat.leavesExact; rw [liveAt0_2 t], after0_2]
      rw [outsAt0_C V c t h0 h1]
      unfold out0_C_1 out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (hN0 t h0) (hC1 t h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (hN1 t h1)) (noFlush0_1 t (hN1 t h1))]
      rw [show (dat0 V c).leavesExact 2 t = owns (c : Thread nD τ) (ms0_2 t) fullShare ((dat0 V c).after 2 t) from by
        unfold Dat.leavesExact; rw [liveAt0_2 t], after0_2]
      rw [outsAt0_B V c t h0 h1]
      unfold sout0_B_0 out0_B_2; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (hN0 t h0) (hN1 t h1) (iblk0 V c 0 t) _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _)
          iexact HR
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 64 := N_0; omega)

end Regions

end Cert.Kernel.Hand

end
-- ==== Proof.Kernel.Layer1Runs.lean ====
/- Region 1, the first graph-convolution layer's kernel: what the three case runs of its frame half share — the
   windows' blocks read off the contents the region finds, the inputs' staging buffers at their blocks, the body's two
   branch conditions decided over the grid, where the output window is idle, the staging and scratch memrefs, and the
   launch invariant with the region's accumulator split off. -/
import proofs.«103316_j15479062135163_2_alg».proof.Proof.Gen.Kernel.Launch
import proofs.«103316_j15479062135163_2_alg».proof.Proof.Gen.Kernel.Skeleton
import proofs.«103316_j15479062135163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first conditional (the column-block coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the column-block coordinate is 3), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of the first column block the output window is idle: nothing is stored into it. -/
theorem idleAt1_5_A : ∀ t : Fin cfg1.N, cond1_0 (grid1.coords t) → ¬cond1_1 (grid1.coords t) → cfg1.idle 5 (grid1.coords t) = true := by decide +kernel
/-- There the output block is not written back. -/
theorem noFlush1_5_A : ∀ t : Fin cfg1.N, cond1_0 (grid1.coords t) → ¬cond1_1 (grid1.coords t) → (cfg1.win 5).flush t = false := by decide +kernel
/-- At the points of the middle column blocks the output window is idle: nothing is stored into it. -/
theorem idleAt1_5_B : ∀ t : Fin cfg1.N, ¬cond1_0 (grid1.coords t) → ¬cond1_1 (grid1.coords t) → cfg1.idle 5 (grid1.coords t) = true := by decide +kernel
/-- There the output block is not written back. -/
theorem noFlush1_5_B : ∀ t : Fin cfg1.N, ¬cond1_0 (grid1.coords t) → ¬cond1_1 (grid1.coords t) → (cfg1.win 5).flush t = false := by decide +kernel
/-- At the points of the last column block the output window is live: the body stores its block. -/
theorem liveAt1_5_C : ∀ t : Fin cfg1.N, ¬cond1_0 (grid1.coords t) → cond1_1 (grid1.coords t) → cfg1.idle 5 (grid1.coords t) = false := by decide +kernel

/-! ## The kernel body's memrefs -/

/-- One staging buffer of the output window, through which its contents are stated (the choice does not matter). -/
abbrev VO1_5 : View sig .tc .vmem S1024x64 .f32 := (Memref.whole cc1_stg5_0 : Memref sig .tc .vmem S1024x64 .f32).view
/-- Each window's current staging memref at point `t`, as the pipeline passes it, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x64 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, passed beside the windows. -/
abbrev scM1_0 : Memref sig .tc .vmem S1024x128 .f32 := Memref.whole cc1_scratch0
/-- The same as a view: what the accumulator holds between points is stated through it. -/
abbrev VS1_0 : View sig .tc .vmem S1024x128 .f32 := scM1_0.view

/-- The launch invariant with the region's own accumulator split off, owned at some contents; every other scoped buffer
    that is no staging buffer of the region stays one unopened term. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole]; try rfl

end Cert.Kernel.Hand

end
-- ==== Proof.Kernel.Layer1RunA.lean ====
/- Region 1, the first graph-convolution layer's kernel: the whole-body run of the kernel at a point of case A of its two
   conditionals on the column-block coordinate — the body's triple, with the pieces each buffer ends with as its witness. -/
import proofs.«103316_j15479062135163_2_alg».proof.Proof.Kernel.Layer1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), at a point of
    the first column block (the accumulator is reset, then added to; the output is left alone), WITH the proof that on whole memrefs — the inputs' at their
    contents, the output's at contents handed back untouched, the accumulator at anything — the body runs to the continuation holding
    the inputs' as they were, the output's as it was and the accumulator with its pieces written. -/
noncomputable def kernelRun1_A (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) :
    Σ' (L5 : List (View.Piece (Elt F) S1024x64 .f32)), { LS0 : List (View.Piece (Elt F) S1024x128 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Layer1RunB.lean ====
/- Region 1, the first graph-convolution layer's kernel: the whole-body run of the kernel at a point of case B of its two
   conditionals on the column-block coordinate — the body's triple, with the pieces each buffer ends with as its witness. -/
import proofs.«103316_j15479062135163_2_alg».proof.Proof.Kernel.Layer1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), at a point of
    a middle column block (the accumulator is added to; the output is left alone), WITH the proof that on whole memrefs — the inputs' at their
    contents, the output's at contents handed back untouched, the accumulator at what the point before left — the body runs to the continuation holding
    the inputs' as they were, the output's as it was and the accumulator with its pieces written. -/
noncomputable def kernelRun1_B (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) :
    Σ' (L5 : List (View.Piece (Elt F) S1024x64 .f32)), { LS0 : List (View.Piece (Elt F) S1024x128 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Layer1RunC.lean ====
/- Region 1, the first graph-convolution layer's kernel: the whole-body run of the kernel at a point of case C of its two
   conditionals on the column-block coordinate — the body's triple, with the pieces each buffer ends with as its witness. -/
import proofs.«103316_j15479062135163_2_alg».proof.Proof.Kernel.Layer1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), at a point of
    the last column block (the accumulator is added to, and the output block is computed from it and stored), WITH the proof that on whole memrefs — the inputs' at their
    contents, the output's at anything, the accumulator at what the point before left — the body runs to the continuation holding
    the inputs' as they were, the output's buffer with its pieces written and the accumulator with its pieces written. -/
noncomputable def kernelRun1_C (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) :
    Σ' (L5 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.Kernel.Layer1.lean ====
/- Region 1, the first graph-convolution layer's kernel: its frame half at the contents `V` the region finds — what the
   output window and the accumulator hold per case (covers) and point by point (`outsAt1`), the proof data `dat1`, the
   body obligation, and the invariant's two ends. -/
import proofs.«103316_j15479062135163_2_alg».proof.Proof.Kernel.Layer1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point of case A nothing is stored into the output window (idle there and not written back): no pieces — a
    placeholder that nothing consults. -/
def out1_A_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) : Vec F S1024x64 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it: each store writes it whole. -/
theorem scover1_A_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) (y : S1024x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x128.size (by sl_kernel_rfl) y

/-- What case A leaves in the accumulator: its pieces read back. -/
def sout1_A_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a point of case B nothing is stored into the output window (idle there and not written back): no pieces — a
    placeholder that nothing consults. -/
def out1_B_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x64 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it: each store writes it whole. -/
theorem scover1_B_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) (y : S1024x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x128.size (by sl_kernel_rfl) y

/-- What case B leaves in the accumulator: its pieces read back. -/
def sout1_B_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for the output window cover its block: one store of the whole block. -/
theorem cover1_C_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) (y : S1024x64.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x64.size (by sl_kernel_rfl) y

/-- What case C leaves in the output's staging buffer: its pieces read back. -/
def out1_C_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x64 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it: the store writes it whole. -/
theorem scover1_C_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x128.size (by sl_kernel_rfl) y

/-- What case C leaves in the accumulator: its pieces read back. -/
def sout1_C_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section Regions
variable (V : (c : Dev nD) → (b : Ref sig .tc) → Buf (Elt F) ((c : Thread nD τ).loc b))

/-! ## What the output and the accumulator hold after each point -/

/-- THE ACCUMULATION. What the output's staging buffer and the accumulator hold after the body at position `n` (a pair: the
    output, then the accumulator): the case the point is in, run at the point's memrefs and input blocks, the accumulator
    read at what position `n - 1` left. -/
def outsAt1 (c : Dev nD) : (n : ℕ) → n < cfg1.N → Vec F S1024x64 .f32 × Vec F S1024x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch invariant (every scoped buffer at
    anything); afterwards the same with the accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region on core `c`: the arrays as the region finds them (`V`); after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the point's position modulo 4 says which case it is in; so
    that case's run applies; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch invariant back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Regions

end Cert.Kernel.Hand

end
-- ==== Proof.Kernel.Layer2Runs.lean ====
/- The frame half of the second graph-convolution layer's kernel (region 2 of @main), the part its three case runs
   share: the windows' blocks read off the region-entry contents, the inputs' staging buffers at their blocks, the
   body's two branch conditions in closed form over the grid, where the output window is idle, the staging and scratch
   memrefs, and the region invariant with the kernel's own accumulator named. -/
import proofs.«103316_j15479062135163_2_alg».proof.Proof.Gen.Kernel.Launch
import proofs.«103316_j15479062135163_2_alg».proof.Proof.Gen.Kernel.Skeleton
import proofs.«103316_j15479062135163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's branch conditions -/

/-- The condition of the body's first `scf.if` (the accumulator is reset): the column-block coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if` (the output block is computed and stored): the column-block coordinate is 3. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the accumulator is reset (and the output not stored) the output window is idle and not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- The same where neither branch is taken. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- Where the output is stored the window is live. -/
theorem liveAt2_5_C : ∀ t : Fin cfg2.N, ¬cond2_0 (grid2.coords t) → cond2_1 (grid2.coords t) → cfg2.idle 5 (grid2.coords t) = false := by decide +kernel

/-! ## The staging and scratch memrefs -/

/-- One staging buffer of the output window, through which its contents are stated (the choice does not matter). -/
abbrev VO2_5 : View sig .tc .vmem S1024x2 .f32 := (Memref.whole cc2_stg5_0 : Memref sig .tc .vmem S1024x2 .f32).view
/-- Each window's current staging memref at point `t`, spelled as the pipeline passes it, and its wholeness. -/
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x2 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S1024x64 .f32 := Memref.whole cc2_scratch0
/-- The accumulator as a view: what it holds between points is stated through it. -/
abbrev VS2_0 : View sig .tc .vmem S1024x64 .f32 := scM2_0.view

/-! ## The region invariant, the accumulator named -/

/-- A scoped buffer of the core this region does not touch, whole at some contents. -/
abbrev rest2 (c : Dev nD) (b : Ref sig .tc) : sProp 𝕄 :=
  iprop(∃ f : Buf (Elt F) ((c : Thread nD τ).loc b), ((c : Thread nD τ).loc b) ↦{fullShare} f)

/-- The region invariant conjunct by conjunct: the scoped buffers of the other regions at some contents each, this
    kernel's accumulator owned at some contents, the generator register at some state. -/
theorem PhiA2_eq (c : Dev nD) :
    (Pipeline.ΦA spec2 c : sProp 𝕄)
      = iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ (∃ d, owns (c : Thread nD τ) scM2_0 fullShare d)) ∗ (∃ r, prngReg c r)) := by
  unfold Pipeline.ΦA; rw [scopedRest2_eq]; simp only [scM2_0, owns_whole]; try rfl

end Cert.Kernel.Hand

end
-- ==== Proof.Kernel.Layer2RunA.lean ====
/- The second layer's kernel body run in case A of its control: the accumulator is reset and the first column block added; the output window is left untouched. -/
import proofs.«103316_j15479062135163_2_alg».proof.Proof.Kernel.Layer2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), in
    case A, with the proof that on whole staging memrefs — the inputs' at their contents — the body runs to the
    continuation holding the inputs' as they were and each stored buffer with its pieces written. -/
noncomputable def kernelRun2_A (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) :
    Σ' (L5 : List (View.Piece (Elt F) S1024x2 .f32)), { LS0 : List (View.Piece (Elt F) S1024x64 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Layer2RunB.lean ====
/- The second layer's kernel body run in case B of its control: a middle column block is added to the accumulator; the output window is left untouched. -/
import proofs.«103316_j15479062135163_2_alg».proof.Proof.Kernel.Layer2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), in
    case B, with the proof that on whole staging memrefs — the inputs' at their contents — the body runs to the
    continuation holding the inputs' as they were and each stored buffer with its pieces written. -/
noncomputable def kernelRun2_B (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) :
    Σ' (L5 : List (View.Piece (Elt F) S1024x2 .f32)), { LS0 : List (View.Piece (Elt F) S1024x64 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Layer2RunC.lean ====
/- The second layer's kernel body run in case C of its control: the last column block is added to the accumulator and the output block computed from it and stored. -/
import proofs.«103316_j15479062135163_2_alg».proof.Proof.Kernel.Layer2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), in
    case C, with the proof that on whole staging memrefs — the inputs' at their contents — the body runs to the
    continuation holding the inputs' as they were and each stored buffer with its pieces written. -/
noncomputable def kernelRun2_C (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) :
    Σ' (L5 : List (View.Piece (Elt F) S1024x2 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.Kernel.Layer2.lean ====
/- The frame half of the second graph-convolution layer's kernel (region 2 of @main), at a parameter `V` — the core's
   buffer contents when the region is entered: what the output's staging buffer and the accumulator hold after each grid
   point (by recursion on the point, the accumulator carried from one point to the next), the proof data, the body
   obligation, and the invariant's two ends. -/
import proofs.«103316_j15479062135163_2_alg».proof.Proof.Kernel.Layer2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for the accumulator tile it, so they cover it. -/
theorem scover2_A_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) (y : S1024x64.Idx) :
    ∃ pc ∈ (kernelRun2_A c i arg2 harg2 arg3 harg3 arg4 harg4 arg5 harg5 arg6 harg6 arg7 harg7 arg8 harg8 hc0 hc1 x0 x1 x2 x3 x4).2.1, y ∈ pc.1.set :=
  View.cover_of_tiledL (kernelRun2_A c i arg2 harg2 arg3 harg3 arg4 harg4 arg5 harg5 arg6 harg6 arg7 harg7 arg8 harg8 hc0 hc1 x0 x1 x2 x3 x4).2.1 S1024x64.size (by sl_kernel_rfl) y

/-- What case A leaves in the accumulator: its pieces read back. -/
def sout2_A_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) : Vec F S1024x64 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3 x4).2.1)

/-- What case A leaves in the output's staging buffer: its pieces read back (none: a placeholder nothing consults, the window being idle and not written back at the case's points). -/
def out2_A_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) : Vec F S1024x2 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3 x4).1)

/-- Case B's pieces for the accumulator tile it, so they cover it. -/
theorem scover2_B_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) (y : S1024x64.Idx) :
    ∃ pc ∈ (kernelRun2_B c i arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg2 harg2 arg3 harg3 arg4 harg4 arg5 harg5 arg6 harg6 arg7 harg7 arg8 harg8 hc0 hc1 x0 x1 x2 x3 x4 xs0).2.1 S1024x64.size (by sl_kernel_rfl) y

/-- What case B leaves in the accumulator: its pieces read back. -/
def sout2_B_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x64 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 x4 xs0).2.1)

/-- What case B leaves in the output's staging buffer: its pieces read back (none: a placeholder nothing consults, the window being idle and not written back at the case's points). -/
def out2_B_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x2 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 x4 xs0).1)

/-- Case C's pieces for the accumulator tile it, so they cover it. -/
theorem scover2_C_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) (y : S1024x64.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x64.size (by sl_kernel_rfl) y

/-- What case C leaves in the accumulator: its pieces read back. -/
def sout2_C_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x64 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 x4 xs0).2.1)

/-- Case C's pieces for the output tile its block, so they cover it. -/
theorem cover2_C_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) (y : S1024x2.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x2.size (by sl_kernel_rfl) y

/-- What case C leaves in the output's staging buffer: its pieces read back. -/
def out2_C_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x2 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)

section Regions
variable (V : (c : Dev nD) → (b : Ref sig .tc) → Buf (Elt F) ((c : Thread nD τ).loc b))

/-! ## What the output and the accumulator hold after each point -/

/-- THE ACCUMULATION. What the output's staging buffer and the accumulator hold after the body at position `n`: the
    case the closed forms select at `n`, run at the point's memrefs and input blocks, the accumulator read at what this
    leaves at `n - 1`. An assignment of the conditions no point meets is no case. -/
def outsAt2 (c : Dev nD) : (n : ℕ) → n < cfg2.N → Vec F S1024x2 .f32 × Vec F S1024x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the same with the accumulator at what the point before left in it. -/
def PhiS2 (c : Dev nD) : (n : ℕ) → n ≤ cfg2.N → sProp 𝕄
  | 0, _ => Pipeline.ΦA spec2 c
  | n + 1, hn => iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the layer's pipeline on core `c`: the arrays as the region finds them (`V`); after the body at
    point `t` each input's buffer at its block and the output's at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; so
    the case's run applies; the invariant hands the body the accumulator at what the point before left (at anything at
    the first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HR15, HR16, HS0⟩, Hg⟩
  isplitl [HR0 HR1 HR2 HR3 HR4 HR5 HR6 HR7 HR8 HR9 HR10 HR11 HR12 HR13 HR14 HR15 HR16 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexists _; iexact HS0
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 32 := N_2; omega)

end Regions

end Cert.Kernel.Hand

end
-- ==== Proof.Kernel.Frame.lean ====
/-
  The run of the whole program: three kernel regions with two stretches of host operations between them.

  The contents of every unscoped buffer at each boundary are a fold from the launch memory: a region replaces its
  windows' arrays by what its write-backs leave (the inputs unchanged, each output block as the body stored it),
  a host stretch applies its operations.  Each region is entered and left at such a boundary; its kernel's invariant
  carries the accumulator scratch between grid points.  Every weakly fair execution terminates with every unscoped
  buffer at the last boundary's contents; the argument arrays are never written, so they end as launched.
-/
import proofs.«103316_j15479062135163_2_alg».proof.Proof.Gen.Kernel.Launch
import proofs.«103316_j15479062135163_2_alg».proof.Proof.Gen.Kernel.Skeleton
import proofs.«103316_j15479062135163_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«103316_j15479062135163_2_alg».proof.Proof.Kernel.Degree
import proofs.«103316_j15479062135163_2_alg».proof.Proof.Kernel.Layer1
import proofs.«103316_j15479062135163_2_alg».proof.Proof.Kernel.Layer2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (region 1's entry): the features scaled by the inverse root degree, the bias as a row. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its arrays at what the pipeline's write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: its arrays at what the pipeline's write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### No host operation and no region writes an argument array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 3).trans (((dat1 (V2 m ρ) c).arrAt_in 3 rfl _).trans (A_eq1 (V2 m ρ) c 3))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 3).trans (((dat2 (V4 m ρ) c).arrAt_in 3 rfl _).trans (A_eq2 (V4 m ρ) c 3))
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

/-! ## The proof data family and the thread state -/

abbrev adm : (p : Fin 3) → (pcfgs (F := F) p).Adm := fun p => (cfgs p).toPCfg_adm
/-- Every pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W0`, left with them at `W1`. Its
    arrays are split out of the unscoped buffers and put back at their exit contents; the generator register and the
    scoped rest enter the kernel's invariant (which names the accumulator's contents between points) and come back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at their exit contents; the generator register and the
    scoped rest enter the kernel's invariant (which names the accumulator's contents between points) and come back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its
    arrays are split out of the unscoped buffers and put back at their exit contents; the generator register and the
    scoped rest enter the kernel's invariant (which names the accumulator's contents between points) and come back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h.trans (hin2 (V4 m ρ) c)
  hout c := by
    rw [Pipeline.ownSems0_none]
    have h : (Pipeline.ΦA spec2 c : sProp 𝕄)
        ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V4 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Hand

end
-- ==== Proof.KernelIdeal.DegreeRuns.lean ====
/-
  Region 0 (the degree kernel): what its three cases share.  The grid is 16 row blocks by 4 column blocks; the
  scratch column accumulates the row sums over the column blocks of one row block.  The first conditional (the
  column-block index is 0) resets the accumulator; the second (the index is 3) writes the inverse root degree.
  Case A: index 0, case B: index 1 or 2, case C: index 3.
-/
import proofs.«103316_j15479062135163_2_alg».proof.Proof.Gen.KernelIdeal.Launch
import proofs.«103316_j15479062135163_2_alg».proof.Proof.Gen.KernelIdeal.Skeleton
import proofs.«103316_j15479062135163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition from the grid coordinates: the column-block index is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the column-block index is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 (the input block) is never idle. -/
theorem liveAt0_0 : ∀ t : Fin cfg0.N, cfg0.idle 0 (grid0.coords t) = false := by decide +kernel
/-- Window 2 (the copied block) is never idle. -/
theorem liveAt0_2 : ∀ t : Fin cfg0.N, cfg0.idle 2 (grid0.coords t) = false := by decide +kernel
/-- Window 1 (the degree column) is idle and not written back where the second condition fails. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- It is live where the second condition holds. -/
theorem liveAt0_1 : ∀ t : Fin cfg0.N, cond0_1 (grid0.coords t) → cfg0.idle 1 (grid0.coords t) = false := by decide +kernel

/-! ## The staging memrefs and the scratch -/

/-- One staging buffer of each output window, through which its contents are stated. -/
abbrev VO0_1 : View sig .tc .vmem S512x1 .f32 := (Memref.whole cc0_stg1_0 : Memref sig .tc .vmem S512x1 .f32).view
abbrev VO0_2 : View sig .tc .vmem S512x2048 .bf16 := (Memref.whole cc0_stg2_0 : Memref sig .tc .vmem S512x2048 .bf16).view
/-- Each window's current staging memref at point `t`, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0_0 : Memref sig .tc .vmem S512x1 .f32 := Memref.whole cc0_scratch0
abbrev VS0_0 : View sig .tc .vmem S512x1 .f32 := scM0_0.view

/-- The core's other scoped buffers (those of the other two kernels), kept as one term. -/
abbrev Rest0 (c : Dev nD) : sProp 𝕄 :=
  Pipeline.scopedRestBut (Ix := Unit) (Name := ℕ) (U := UR sig nD τ) (Lvl := ℕ) (Val := Elt F) spec0 c [cc0_scratch0]

/-- The region invariant with the scratch accumulator split off as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.KernelIdeal.Hand

end
-- ==== Proof.KernelIdeal.DegreeRunA.lean ====
/-
  Region 0, case A (column-block index 0): the accumulator is reset, the block's row sums are added to it, the
  block is copied; the degree column is not touched.
-/
import proofs.«103316_j15479062135163_2_alg».proof.Proof.KernelIdeal.DegreeRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the copied block's buffer (`L2`) and in the accumulator (`LS0`) in case A,
    with the body's triple on whole memrefs: the input at its contents, the degree column handed back untouched,
    the copy's buffer and the accumulator at anything. -/
noncomputable def kernelRun0_A (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) :
    Σ' (L2 : List (View.Piece (Elt F) S512x2048 .bf16)), { LS0 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__degree_kernel i arg2 harg2 arg3 harg3 arg4 harg4 arg5 harg5) K } := by
  refine ⟨?_, ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdeal.DegreeRunB.lean ====
/-
  Region 0, case B (column-block index 1 or 2): the block's row sums are added to the accumulator the point before
  left, the block is copied; the degree column is not touched.
-/
import proofs.«103316_j15479062135163_2_alg».proof.Proof.KernelIdeal.DegreeRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces of case B, with the body's triple: the accumulator now at the contents `xs0` the point before left. -/
noncomputable def kernelRun0_B (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) :
    Σ' (L2 : List (View.Piece (Elt F) S512x2048 .bf16)), { LS0 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__degree_kernel i arg2 harg2 arg3 harg3 arg4 harg4 arg5 harg5) K } := by
  refine ⟨?_, ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdeal.DegreeRunC.lean ====
/-
  Region 0, case C (column-block index 3): the last block's row sums are added to the accumulator, the block is
  copied, and the degree column is written from the finished sums.
-/
import proofs.«103316_j15479062135163_2_alg».proof.Proof.KernelIdeal.DegreeRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces of case C (`L1`: the degree column's), with the body's triple: the degree column's buffer at anything. -/
noncomputable def kernelRun0_C (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) :
    Σ' (L1 : List (View.Piece (Elt F) S512x1 .f32)) (L2 : List (View.Piece (Elt F) S512x2048 .bf16)), { LS0 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__degree_kernel i arg2 harg2 arg3 harg3 arg4 harg4 arg5 harg5) K } := by
  refine ⟨?_, ?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.KernelIdeal.Hand

end
-- ==== Proof.KernelIdeal.Degree.lean ====
/-
  Region 0 (the degree kernel) at the contents `V` the region is entered with: what the accumulator and the two
  outputs hold after each point, the region's proof data, and the body obligation.
-/
import proofs.«103316_j15479062135163_2_alg».proof.Proof.KernelIdeal.DegreeRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The conditions at a point, from its residue -/

theorem hA0 (t : Fin cfg0.N) (h0 : t.val % 4 = 0) : cond0_0 (grid0.coords t) := (hcond0_0 t).mpr h0
theorem hA1 (t : Fin cfg0.N) (h0 : t.val % 4 = 0) : ¬cond0_1 (grid0.coords t) := fun h => by
  have := (hcond0_1 t).mp h; omega
theorem hN0 (t : Fin cfg0.N) (h0 : ¬t.val % 4 = 0) : ¬cond0_0 (grid0.coords t) := fun h => h0 ((hcond0_0 t).mp h)
theorem hN1 (t : Fin cfg0.N) (h1 : ¬t.val % 4 = 3) : ¬cond0_1 (grid0.coords t) := fun h => h1 ((hcond0_1 t).mp h)
theorem hC1 (t : Fin cfg0.N) (h1 : t.val % 4 = 3) : cond0_1 (grid0.coords t) := (hcond0_1 t).mpr h1

/-! ## What each case leaves -/

/-- Case A's pieces for the accumulator cover it. -/
theorem scover0_A_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) (y : S512x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S512x1.size (by sl_kernel_rfl) y

/-- What case A leaves in the accumulator: its pieces read back. -/
def sout0_A_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) : Vec F S512x1 .f32 :=
  VS0_0.read (Elt F) (VS0_0.writes (Elt F) VS0_0.junk (kernelRun0_A c i arg2 harg2 arg3 harg3 arg4 harg4 arg5 harg5 hc0 hc1 x0).2.1)

/-- Case A's pieces for the copied block cover it. -/
theorem cover0_A_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) (y : S512x2048.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S512x2048.size (by sl_kernel_rfl) y

/-- What case A leaves in the copied block's buffer. -/
def out0_A_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) : Vec F S512x2048 .bf16 :=
  VO0_2.read (Elt F) (VO0_2.writes (Elt F) VO0_2.junk (kernelRun0_A c i arg2 harg2 arg3 harg3 arg4 harg4 arg5 harg5 hc0 hc1 x0).1)

/-- Case B's pieces for the accumulator cover it. -/
theorem scover0_B_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) (y : S512x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S512x1.size (by sl_kernel_rfl) y

/-- What case B leaves in the accumulator: its pieces read back. -/
def sout0_B_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) : Vec F S512x1 .f32 :=
  VS0_0.read (Elt F) (VS0_0.writes (Elt F) VS0_0.junk (kernelRun0_B c i arg2 harg2 arg3 harg3 arg4 harg4 arg5 harg5 hc0 hc1 x0 xs0).2.1)

/-- Case B's pieces for the copied block cover it. -/
theorem cover0_B_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) (y : S512x2048.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S512x2048.size (by sl_kernel_rfl) y

/-- What case B leaves in the copied block's buffer. -/
def out0_B_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) : Vec F S512x2048 .bf16 :=
  VO0_2.read (Elt F) (VO0_2.writes (Elt F) VO0_2.junk (kernelRun0_B c i arg2 harg2 arg3 harg3 arg4 harg4 arg5 harg5 hc0 hc1 x0 xs0).1)

/-- Case C's pieces for the accumulator cover it. -/
theorem scover0_C_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) (y : S512x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S512x1.size (by sl_kernel_rfl) y

/-- What case C leaves in the accumulator: its pieces read back. -/
def sout0_C_0 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) : Vec F S512x1 .f32 :=
  VS0_0.read (Elt F) (VS0_0.writes (Elt F) VS0_0.junk (kernelRun0_C c i arg2 harg2 arg3 harg3 arg4 harg4 arg5 harg5 hc0 hc1 x0 xs0).2.2.1)

/-- Case C's pieces for the copied block cover it. -/
theorem cover0_C_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) (y : S512x2048.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S512x2048.size (by sl_kernel_rfl) y

/-- What case C leaves in the copied block's buffer. -/
def out0_C_2 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) : Vec F S512x2048 .bf16 :=
  VO0_2.read (Elt F) (VO0_2.writes (Elt F) VO0_2.junk (kernelRun0_C c i arg2 harg2 arg3 harg3 arg4 harg4 arg5 harg5 hc0 hc1 x0 xs0).2.1)

/-- Case C's pieces for the degree column cover it. -/
theorem cover0_C_1 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) (y : S512x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S512x1.size (by sl_kernel_rfl) y

/-- What case C leaves in the degree column's buffer. -/
def out0_C_1 (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) : Vec F S512x1 .f32 :=
  VO0_1.read (Elt F) (VO0_1.writes (Elt F) VO0_1.junk (kernelRun0_C c i arg2 harg2 arg3 harg3 arg4 harg4 arg5 harg5 hc0 hc1 x0 xs0).1)

/-- Where the degree column is idle nothing consults its contents: a placeholder. -/
def idle0_1 : Vec F S512x1 .f32 := VO0_1.read (Elt F) VO0_1.junk

/-! ## What the outputs and the accumulator hold after each point -/

/-- THE ACCUMULATION. After the body at position `n`: (the degree column's buffer, the copied block's buffer, the
    accumulator) — the case the residue of `n` selects, run at the point's memrefs and input block, the accumulator
    at what the point before left. -/
def outsAt0 (c : Dev nD) : (n : ℕ) → n < cfg0.N → Vec F S512x1 .f32 × Vec F S512x2048 .bf16 × Vec F S512x1 .f32
  | 0, hn => (fun (t : Fin cfg0.N) (h0 : t.val % 4 = 0) => (idle0_1, out0_A_2 c (grid0.coords t) (ms0_0 t) (hs0_0 t) (ms0_1 t) (hs0_1 t) (ms0_2 t) (hs0_2 t) scM0_0 (Memref.isWhole_whole _) (hA0 t h0) (hA1 t h0) (iblk0 V c 0 t), sout0_A_0 c (grid0.coords t) (ms0_0 t) (hs0_0 t) (ms0_1 t) (hs0_1 t) (ms0_2 t) (hs0_2 t) scM0_0 (Memref.isWhole_whole _) (hA0 t h0) (hA1 t h0) (iblk0 V c 0 t))) ⟨0, hn⟩ (Nat.zero_mod _)
  | n + 1, hn =>
    if h0 : (n + 1) % 4 = 0 then
      (fun (t : Fin cfg0.N) (h0 : t.val % 4 = 0) => (idle0_1, out0_A_2 c (grid0.coords t) (ms0_0 t) (hs0_0 t) (ms0_1 t) (hs0_1 t) (ms0_2 t) (hs0_2 t) scM0_0 (Memref.isWhole_whole _) (hA0 t h0) (hA1 t h0) (iblk0 V c 0 t), sout0_A_0 c (grid0.coords t) (ms0_0 t) (hs0_0 t) (ms0_1 t) (hs0_1 t) (ms0_2 t) (hs0_2 t) scM0_0 (Memref.isWhole_whole _) (hA0 t h0) (hA1 t h0) (iblk0 V c 0 t))) ⟨n + 1, hn⟩ h0
    else
      if h1 : (n + 1) % 4 = 3 then
        (fun (t : Fin cfg0.N) (h0 : ¬t.val % 4 = 0) (h1 : t.val % 4 = 3) => (out0_C_1 c (grid0.coords t) (ms0_0 t) (hs0_0 t) (ms0_1 t) (hs0_1 t) (ms0_2 t) (hs0_2 t) scM0_0 (Memref.isWhole_whole _) (hN0 t h0) (hC1 t h1) (iblk0 V c 0 t) (outsAt0 c n (Nat.lt_of_succ_lt hn)).2.2, out0_C_2 c (grid0.coords t) (ms0_0 t) (hs0_0 t) (ms0_1 t) (hs0_1 t) (ms0_2 t) (hs0_2 t) scM0_0 (Memref.isWhole_whole _) (hN0 t h0) (hC1 t h1) (iblk0 V c 0 t) (outsAt0 c n (Nat.lt_of_succ_lt hn)).2.2, sout0_C_0 c (grid0.coords t) (ms0_0 t) (hs0_0 t) (ms0_1 t) (hs0_1 t) (ms0_2 t) (hs0_2 t) scM0_0 (Memref.isWhole_whole _) (hN0 t h0) (hC1 t h1) (iblk0 V c 0 t) (outsAt0 c n (Nat.lt_of_succ_lt hn)).2.2)) ⟨n + 1, hn⟩ h0 h1
      else
        (fun (t : Fin cfg0.N) (h0 : ¬t.val % 4 = 0) (h1 : ¬t.val % 4 = 3) => (idle0_1, out0_B_2 c (grid0.coords t) (ms0_0 t) (hs0_0 t) (ms0_1 t) (hs0_1 t) (ms0_2 t) (hs0_2 t) scM0_0 (Memref.isWhole_whole _) (hN0 t h0) (hN1 t h1) (iblk0 V c 0 t) (outsAt0 c n (Nat.lt_of_succ_lt hn)).2.2, sout0_B_0 c (grid0.coords t) (ms0_0 t) (hs0_0 t) (ms0_1 t) (hs0_1 t) (ms0_2 t) (hs0_2 t) scM0_0 (Memref.isWhole_whole _) (hN0 t h0) (hN1 t h1) (iblk0 V c 0 t) (outsAt0 c n (Nat.lt_of_succ_lt hn)).2.2)) ⟨n + 1, hn⟩ h0 h1

/-- `outsAt0` at a point of case A. -/
theorem outsAt0_A (c : Dev nD) (t : Fin cfg0.N) (h0 : t.val % 4 = 0) :
    outsAt0 V c t.val t.isLt = (idle0_1, out0_A_2 c (grid0.coords t) (ms0_0 t) (hs0_0 t) (ms0_1 t) (hs0_1 t) (ms0_2 t) (hs0_2 t) scM0_0 (Memref.isWhole_whole _) (hA0 t h0) (hA1 t h0) (iblk0 V c 0 t), sout0_A_0 c (grid0.coords t) (ms0_0 t) (hs0_0 t) (ms0_1 t) (hs0_1 t) (ms0_2 t) (hs0_2 t) scM0_0 (Memref.isWhole_whole _) (hA0 t h0) (hA1 t h0) (iblk0 V c 0 t)) := by
  obtain ⟨n, hn⟩ := t
  cases n with
  | zero => exact rfl
  | succ n => exact (dif_pos h0).trans rfl

/-- `outsAt0` at a point of case B: over what the point before left. -/
theorem outsAt0_B (c : Dev nD) (t : Fin cfg0.N) (h0 : ¬t.val % 4 = 0) (h1 : ¬t.val % 4 = 3) :
    outsAt0 V c t.val t.isLt = (idle0_1, out0_B_2 c (grid0.coords t) (ms0_0 t) (hs0_0 t) (ms0_1 t) (hs0_1 t) (ms0_2 t) (hs0_2 t) scM0_0 (Memref.isWhole_whole _) (hN0 t h0) (hN1 t h1) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (hN0 t h0) (hN1 t h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the core's other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The region's proof data -/

/-- The proof data of region 0 on core `c`: the arrays as the region finds them; after the body at point `t` the
    input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's memref holds its block; the residue says which case the point is in; the
    invariant hands the body the accumulator at what the point before left (at anything at the first point) and takes
    it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · rw [show (dat0 V c).leavesExact 0 t = owns (c : Thread nD τ) (ms0_0 t) fullShare ((dat0 V c).after 0 t) from by
        unfold Dat.leavesExact; rw [liveAt0_0 t], after0_0]
    rw [Dat.leavesExact_idle (dat0 V c) 1 t (idleAt0_1 t (hA1 t h0)) (noFlush0_1 t (hA1 t h0))]
    rw [show (dat0 V c).leavesExact 2 t = owns (c : Thread nD τ) (ms0_2 t) fullShare ((dat0 V c).after 2 t) from by
        unfold Dat.leavesExact; rw [liveAt0_2 t], after0_2]
    rw [outsAt0_A V c t h0]
    unfold sout0_A_0 out0_A_2; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ (hA0 t h0) (hA1 t h0) (iblk0 V c 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ (hA0 t h0) (hA1 t h0) (iblk0 V c 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
  · have hz : t.val ≠ 0 := fun hz => h0 (by rw [hz])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t (hC1 t h1)], after0_1]
      rw [show (dat0 V c).leavesExact 2 t = owns (c : Thread nD τ) (ms0_2 t) fullShare ((dat0 V c).after 2 t) from by
        unfold Dat.leavesExact; rw [liveAt0_2 t], after0_2]
      rw [outsAt0_C V c t h0 h1]
      unfold out0_C_1 out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (hN0 t h0) (hC1 t h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (hN1 t h1)) (noFlush0_1 t (hN1 t h1))]
      rw [show (dat0 V c).leavesExact 2 t = owns (c : Thread nD τ) (ms0_2 t) fullShare ((dat0 V c).after 2 t) from by
        unfold Dat.leavesExact; rw [liveAt0_2 t], after0_2]
      rw [outsAt0_B V c t h0 h1]
      unfold sout0_B_0 out0_B_2; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (hN0 t h0) (hN1 t h1) (iblk0 V c 0 t) _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _)
          iexact HR
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 64 := N_0; omega)

end Regions

end Cert.KernelIdeal.Hand

end
-- ==== Proof.KernelIdeal.Layer1Runs.lean ====
/- Region 1, the first graph-convolution layer's kernel: what the three case runs of its frame half share — the
   windows' blocks read off the contents the region finds, the inputs' staging buffers at their blocks, the body's two
   branch conditions decided over the grid, where the output window is idle, the staging and scratch memrefs, and the
   launch invariant with the region's accumulator split off. -/
import proofs.«103316_j15479062135163_2_alg».proof.Proof.Gen.KernelIdeal.Launch
import proofs.«103316_j15479062135163_2_alg».proof.Proof.Gen.KernelIdeal.Skeleton
import proofs.«103316_j15479062135163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first conditional (the column-block coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the column-block coordinate is 3), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of the first column block the output window is idle: nothing is stored into it. -/
theorem idleAt1_5_A : ∀ t : Fin cfg1.N, cond1_0 (grid1.coords t) → ¬cond1_1 (grid1.coords t) → cfg1.idle 5 (grid1.coords t) = true := by decide +kernel
/-- There the output block is not written back. -/
theorem noFlush1_5_A : ∀ t : Fin cfg1.N, cond1_0 (grid1.coords t) → ¬cond1_1 (grid1.coords t) → (cfg1.win 5).flush t = false := by decide +kernel
/-- At the points of the middle column blocks the output window is idle: nothing is stored into it. -/
theorem idleAt1_5_B : ∀ t : Fin cfg1.N, ¬cond1_0 (grid1.coords t) → ¬cond1_1 (grid1.coords t) → cfg1.idle 5 (grid1.coords t) = true := by decide +kernel
/-- There the output block is not written back. -/
theorem noFlush1_5_B : ∀ t : Fin cfg1.N, ¬cond1_0 (grid1.coords t) → ¬cond1_1 (grid1.coords t) → (cfg1.win 5).flush t = false := by decide +kernel
/-- At the points of the last column block the output window is live: the body stores its block. -/
theorem liveAt1_5_C : ∀ t : Fin cfg1.N, ¬cond1_0 (grid1.coords t) → cond1_1 (grid1.coords t) → cfg1.idle 5 (grid1.coords t) = false := by decide +kernel

/-! ## The kernel body's memrefs -/

/-- One staging buffer of the output window, through which its contents are stated (the choice does not matter). -/
abbrev VO1_5 : View sig .tc .vmem S1024x64 .f32 := (Memref.whole cc1_stg5_0 : Memref sig .tc .vmem S1024x64 .f32).view
/-- Each window's current staging memref at point `t`, as the pipeline passes it, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x64 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, passed beside the windows. -/
abbrev scM1_0 : Memref sig .tc .vmem S1024x128 .f32 := Memref.whole cc1_scratch0
/-- The same as a view: what the accumulator holds between points is stated through it. -/
abbrev VS1_0 : View sig .tc .vmem S1024x128 .f32 := scM1_0.view

/-- The launch invariant with the region's own accumulator split off, owned at some contents; every other scoped buffer
    that is no staging buffer of the region stays one unopened term. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole]; try rfl

end Cert.KernelIdeal.Hand

end
-- ==== Proof.KernelIdeal.Layer1RunA.lean ====
/- Region 1, the first graph-convolution layer's kernel: the whole-body run of the kernel at a point of case A of its two
   conditionals on the column-block coordinate — the body's triple, with the pieces each buffer ends with as its witness. -/
import proofs.«103316_j15479062135163_2_alg».proof.Proof.KernelIdeal.Layer1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), at a point of
    the first column block (the accumulator is reset, then added to; the output is left alone), WITH the proof that on whole memrefs — the inputs' at their
    contents, the output's at contents handed back untouched, the accumulator at anything — the body runs to the continuation holding
    the inputs' as they were, the output's as it was and the accumulator with its pieces written. -/
noncomputable def kernelRun1_A (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) :
    Σ' (L5 : List (View.Piece (Elt F) S1024x64 .f32)), { LS0 : List (View.Piece (Elt F) S1024x128 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Layer1RunB.lean ====
/- Region 1, the first graph-convolution layer's kernel: the whole-body run of the kernel at a point of case B of its two
   conditionals on the column-block coordinate — the body's triple, with the pieces each buffer ends with as its witness. -/
import proofs.«103316_j15479062135163_2_alg».proof.Proof.KernelIdeal.Layer1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), at a point of
    a middle column block (the accumulator is added to; the output is left alone), WITH the proof that on whole memrefs — the inputs' at their
    contents, the output's at contents handed back untouched, the accumulator at what the point before left — the body runs to the continuation holding
    the inputs' as they were, the output's as it was and the accumulator with its pieces written. -/
noncomputable def kernelRun1_B (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) :
    Σ' (L5 : List (View.Piece (Elt F) S1024x64 .f32)), { LS0 : List (View.Piece (Elt F) S1024x128 .f32) //
      ∀ (xi5 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Layer1RunC.lean ====
/- Region 1, the first graph-convolution layer's kernel: the whole-body run of the kernel at a point of case C of its two
   conditionals on the column-block coordinate — the body's triple, with the pieces each buffer ends with as its witness. -/
import proofs.«103316_j15479062135163_2_alg».proof.Proof.KernelIdeal.Layer1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), at a point of
    the last column block (the accumulator is added to, and the output block is computed from it and stored), WITH the proof that on whole memrefs — the inputs' at their
    contents, the output's at anything, the accumulator at what the point before left — the body runs to the continuation holding
    the inputs' as they were, the output's buffer with its pieces written and the accumulator with its pieces written. -/
noncomputable def kernelRun1_C (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) :
    Σ' (L5 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KernelIdeal.Layer1.lean ====
/- Region 1, the first graph-convolution layer's kernel: its frame half at the contents `V` the region finds — what the
   output window and the accumulator hold per case (covers) and point by point (`outsAt1`), the proof data `dat1`, the
   body obligation, and the invariant's two ends. -/
import proofs.«103316_j15479062135163_2_alg».proof.Proof.KernelIdeal.Layer1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point of case A nothing is stored into the output window (idle there and not written back): no pieces — a
    placeholder that nothing consults. -/
def out1_A_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) : Vec F S1024x64 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it: each store writes it whole. -/
theorem scover1_A_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) (y : S1024x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x128.size (by sl_kernel_rfl) y

/-- What case A leaves in the accumulator: its pieces read back. -/
def sout1_A_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a point of case B nothing is stored into the output window (idle there and not written back): no pieces — a
    placeholder that nothing consults. -/
def out1_B_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x64 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it: each store writes it whole. -/
theorem scover1_B_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) (y : S1024x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x128.size (by sl_kernel_rfl) y

/-- What case B leaves in the accumulator: its pieces read back. -/
def sout1_B_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for the output window cover its block: one store of the whole block. -/
theorem cover1_C_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) (y : S1024x64.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x64.size (by sl_kernel_rfl) y

/-- What case C leaves in the output's staging buffer: its pieces read back. -/
def out1_C_5 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x64 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it: the store writes it whole. -/
theorem scover1_C_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x128.size (by sl_kernel_rfl) y

/-- What case C leaves in the accumulator: its pieces read back. -/
def sout1_C_0 (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section Regions
variable (V : (c : Dev nD) → (b : Ref sig .tc) → Buf (Elt F) ((c : Thread nD τ).loc b))

/-! ## What the output and the accumulator hold after each point -/

/-- THE ACCUMULATION. What the output's staging buffer and the accumulator hold after the body at position `n` (a pair: the
    output, then the accumulator): the case the point is in, run at the point's memrefs and input blocks, the accumulator
    read at what position `n - 1` left. -/
def outsAt1 (c : Dev nD) : (n : ℕ) → n < cfg1.N → Vec F S1024x64 .f32 × Vec F S1024x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch invariant (every scoped buffer at
    anything); afterwards the same with the accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region on core `c`: the arrays as the region finds them (`V`); after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the point's position modulo 4 says which case it is in; so
    that case's run applies; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch invariant back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Regions

end Cert.KernelIdeal.Hand

end
-- ==== Proof.KernelIdeal.Layer2Runs.lean ====
/- The frame half of the second graph-convolution layer's kernel (region 2 of @main), the part its three case runs
   share: the windows' blocks read off the region-entry contents, the inputs' staging buffers at their blocks, the
   body's two branch conditions in closed form over the grid, where the output window is idle, the staging and scratch
   memrefs, and the region invariant with the kernel's own accumulator named. -/
import proofs.«103316_j15479062135163_2_alg».proof.Proof.Gen.KernelIdeal.Launch
import proofs.«103316_j15479062135163_2_alg».proof.Proof.Gen.KernelIdeal.Skeleton
import proofs.«103316_j15479062135163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's branch conditions -/

/-- The condition of the body's first `scf.if` (the accumulator is reset): the column-block coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if` (the output block is computed and stored): the column-block coordinate is 3. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the accumulator is reset (and the output not stored) the output window is idle and not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- The same where neither branch is taken. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- Where the output is stored the window is live. -/
theorem liveAt2_5_C : ∀ t : Fin cfg2.N, ¬cond2_0 (grid2.coords t) → cond2_1 (grid2.coords t) → cfg2.idle 5 (grid2.coords t) = false := by decide +kernel

/-! ## The staging and scratch memrefs -/

/-- One staging buffer of the output window, through which its contents are stated (the choice does not matter). -/
abbrev VO2_5 : View sig .tc .vmem S1024x2 .f32 := (Memref.whole cc2_stg5_0 : Memref sig .tc .vmem S1024x2 .f32).view
/-- Each window's current staging memref at point `t`, spelled as the pipeline passes it, and its wholeness. -/
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x2 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows. -/
abbrev scM2_0 : Memref sig .tc .vmem S1024x64 .f32 := Memref.whole cc2_scratch0
/-- The accumulator as a view: what it holds between points is stated through it. -/
abbrev VS2_0 : View sig .tc .vmem S1024x64 .f32 := scM2_0.view

/-! ## The region invariant, the accumulator named -/

/-- A scoped buffer of the core this region does not touch, whole at some contents. -/
abbrev rest2 (c : Dev nD) (b : Ref sig .tc) : sProp 𝕄 :=
  iprop(∃ f : Buf (Elt F) ((c : Thread nD τ).loc b), ((c : Thread nD τ).loc b) ↦{fullShare} f)

/-- The region invariant conjunct by conjunct: the scoped buffers of the other regions at some contents each, this
    kernel's accumulator owned at some contents, the generator register at some state. -/
theorem PhiA2_eq (c : Dev nD) :
    (Pipeline.ΦA spec2 c : sProp 𝕄)
      = iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ (∃ d, owns (c : Thread nD τ) scM2_0 fullShare d)) ∗ (∃ r, prngReg c r)) := by
  unfold Pipeline.ΦA; rw [scopedRest2_eq]; simp only [scM2_0, owns_whole]; try rfl

end Cert.KernelIdeal.Hand

end
-- ==== Proof.KernelIdeal.Layer2RunA.lean ====
/- The second layer's kernel body run in case A of its control: the accumulator is reset and the first column block added; the output window is left untouched. -/
import proofs.«103316_j15479062135163_2_alg».proof.Proof.KernelIdeal.Layer2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), in
    case A, with the proof that on whole staging memrefs — the inputs' at their contents — the body runs to the
    continuation holding the inputs' as they were and each stored buffer with its pieces written. -/
noncomputable def kernelRun2_A (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) :
    Σ' (L5 : List (View.Piece (Elt F) S1024x2 .f32)), { LS0 : List (View.Piece (Elt F) S1024x64 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Layer2RunB.lean ====
/- The second layer's kernel body run in case B of its control: a middle column block is added to the accumulator; the output window is left untouched. -/
import proofs.«103316_j15479062135163_2_alg».proof.Proof.KernelIdeal.Layer2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), in
    case B, with the proof that on whole staging memrefs — the inputs' at their contents — the body runs to the
    continuation holding the inputs' as they were and each stored buffer with its pieces written. -/
noncomputable def kernelRun2_B (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) :
    Σ' (L5 : List (View.Piece (Elt F) S1024x2 .f32)), { LS0 : List (View.Piece (Elt F) S1024x64 .f32) //
      ∀ (xi5 : Vec F S1024x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Layer2RunC.lean ====
/- The second layer's kernel body run in case C of its control: the last column block is added to the accumulator and the output block computed from it and stored. -/
import proofs.«103316_j15479062135163_2_alg».proof.Proof.KernelIdeal.Layer2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), in
    case C, with the proof that on whole staging memrefs — the inputs' at their contents — the body runs to the
    continuation holding the inputs' as they were and each stored buffer with its pieces written. -/
noncomputable def kernelRun2_C (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) :
    Σ' (L5 : List (View.Piece (Elt F) S1024x2 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KernelIdeal.Layer2.lean ====
/- The frame half of the second graph-convolution layer's kernel (region 2 of @main), at a parameter `V` — the core's
   buffer contents when the region is entered: what the output's staging buffer and the accumulator hold after each grid
   point (by recursion on the point, the accumulator carried from one point to the next), the proof data, the body
   obligation, and the invariant's two ends. -/
import proofs.«103316_j15479062135163_2_alg».proof.Proof.KernelIdeal.Layer2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for the accumulator tile it, so they cover it. -/
theorem scover2_A_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) (y : S1024x64.Idx) :
    ∃ pc ∈ (kernelRun2_A c i arg2 harg2 arg3 harg3 arg4 harg4 arg5 harg5 arg6 harg6 arg7 harg7 arg8 harg8 hc0 hc1 x0 x1 x2 x3 x4).2.1, y ∈ pc.1.set :=
  View.cover_of_tiledL (kernelRun2_A c i arg2 harg2 arg3 harg3 arg4 harg4 arg5 harg5 arg6 harg6 arg7 harg7 arg8 harg8 hc0 hc1 x0 x1 x2 x3 x4).2.1 S1024x64.size (by sl_kernel_rfl) y

/-- What case A leaves in the accumulator: its pieces read back. -/
def sout2_A_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) : Vec F S1024x64 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3 x4).2.1)

/-- What case A leaves in the output's staging buffer: its pieces read back (none: a placeholder nothing consults, the window being idle and not written back at the case's points). -/
def out2_A_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) : Vec F S1024x2 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3 x4).1)

/-- Case B's pieces for the accumulator tile it, so they cover it. -/
theorem scover2_B_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) (y : S1024x64.Idx) :
    ∃ pc ∈ (kernelRun2_B c i arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg2 harg2 arg3 harg3 arg4 harg4 arg5 harg5 arg6 harg6 arg7 harg7 arg8 harg8 hc0 hc1 x0 x1 x2 x3 x4 xs0).2.1 S1024x64.size (by sl_kernel_rfl) y

/-- What case B leaves in the accumulator: its pieces read back. -/
def sout2_B_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x64 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 x4 xs0).2.1)

/-- What case B leaves in the output's staging buffer: its pieces read back (none: a placeholder nothing consults, the window being idle and not written back at the case's points). -/
def out2_B_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x2 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 x4 xs0).1)

/-- Case C's pieces for the accumulator tile it, so they cover it. -/
theorem scover2_C_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) (y : S1024x64.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x64.size (by sl_kernel_rfl) y

/-- What case C leaves in the accumulator: its pieces read back. -/
def sout2_C_0 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x64 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 x4 xs0).2.1)

/-- Case C's pieces for the output tile its block, so they cover it. -/
theorem cover2_C_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) (y : S1024x2.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x2.size (by sl_kernel_rfl) y

/-- What case C leaves in the output's staging buffer: its pieces read back. -/
def out2_C_5 (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) : Vec F S1024x2 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)

section Regions
variable (V : (c : Dev nD) → (b : Ref sig .tc) → Buf (Elt F) ((c : Thread nD τ).loc b))

/-! ## What the output and the accumulator hold after each point -/

/-- THE ACCUMULATION. What the output's staging buffer and the accumulator hold after the body at position `n`: the
    case the closed forms select at `n`, run at the point's memrefs and input blocks, the accumulator read at what this
    leaves at `n - 1`. An assignment of the conditions no point meets is no case. -/
def outsAt2 (c : Dev nD) : (n : ℕ) → n < cfg2.N → Vec F S1024x2 .f32 × Vec F S1024x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the same with the accumulator at what the point before left in it. -/
def PhiS2 (c : Dev nD) : (n : ℕ) → n ≤ cfg2.N → sProp 𝕄
  | 0, _ => Pipeline.ΦA spec2 c
  | n + 1, hn => iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(rest2 c cc0_stg0_0 ∗ rest2 c cc0_stg0_1 ∗ rest2 c cc0_stg1_0 ∗ rest2 c cc0_stg1_1 ∗ rest2 c cc0_stg2_0 ∗ rest2 c cc0_stg2_1 ∗ rest2 c cc0_scratch0 ∗ rest2 c cc1_stg0_0 ∗ rest2 c cc1_stg0_1 ∗ rest2 c cc1_stg1_0 ∗ rest2 c cc1_stg2_0 ∗ rest2 c cc1_stg2_1 ∗ rest2 c cc1_stg3_0 ∗ rest2 c cc1_stg4_0 ∗ rest2 c cc1_stg5_0 ∗ rest2 c cc1_stg5_1 ∗ rest2 c cc1_scratch0 ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the layer's pipeline on core `c`: the arrays as the region finds them (`V`); after the body at
    point `t` each input's buffer at its block and the output's at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; so
    the case's run applies; the invariant hands the body the accumulator at what the point before left (at anything at
    the first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HR14, HR15, HR16, HS0⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR0 HR1 HR2 HR3 HR4 HR5 HR6 HR7 HR8 HR9 HR10 HR11 HR12 HR13 HR14 HR15 HR16 HS0 Hg]
        · isplitl [HR0 HR1 HR2 HR3 HR4 HR5 HR6 HR7 HR8 HR9 HR10 HR11 HR12 HR13 HR14 HR15 HR16 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            unfold owns; iexists _; isplitr
            swap; · iexact HS0
            ipureintro; exact View.read_writes_of_cover _ _ _ _ _ (scover2_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HR15, HR16, HS0⟩, Hg⟩
  isplitl [HR0 HR1 HR2 HR3 HR4 HR5 HR6 HR7 HR8 HR9 HR10 HR11 HR12 HR13 HR14 HR15 HR16 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexists _; iexact HS0
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 32 := N_2; omega)

end Regions

end Cert.KernelIdeal.Hand

end
-- ==== Proof.KernelIdeal.Frame.lean ====
/-
  The run of the whole program: three kernel regions with two stretches of host operations between them.

  The contents of every unscoped buffer at each boundary are a fold from the launch memory: a region replaces its
  windows' arrays by what its write-backs leave (the inputs unchanged, each output block as the body stored it),
  a host stretch applies its operations.  Each region is entered and left at such a boundary; its kernel's invariant
  carries the accumulator scratch between grid points.  Every weakly fair execution terminates with every unscoped
  buffer at the last boundary's contents; the argument arrays are never written, so they end as launched.
-/
import proofs.«103316_j15479062135163_2_alg».proof.Proof.Gen.KernelIdeal.Launch
import proofs.«103316_j15479062135163_2_alg».proof.Proof.Gen.KernelIdeal.Skeleton
import proofs.«103316_j15479062135163_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«103316_j15479062135163_2_alg».proof.Proof.KernelIdeal.Degree
import proofs.«103316_j15479062135163_2_alg».proof.Proof.KernelIdeal.Layer1
import proofs.«103316_j15479062135163_2_alg».proof.Proof.KernelIdeal.Layer2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (region 1's entry): the features scaled by the inverse root degree, the bias as a row. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its arrays at what the pipeline's write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: its arrays at what the pipeline's write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### No host operation and no region writes an argument array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 3).trans (((dat1 (V2 m ρ) c).arrAt_in 3 rfl _).trans (A_eq1 (V2 m ρ) c 3))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 3).trans (((dat2 (V4 m ρ) c).arrAt_in 3 rfl _).trans (A_eq2 (V4 m ρ) c 3))
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

/-! ## The proof data family and the thread state -/

abbrev adm : (p : Fin 3) → (pcfgs (F := F) p).Adm := fun p => (cfgs p).toPCfg_adm
/-- Every pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W0`, left with them at `W1`. Its
    arrays are split out of the unscoped buffers and put back at their exit contents; the generator register and the
    scoped rest enter the kernel's invariant (which names the accumulator's contents between points) and come back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at their exit contents; the generator register and the
    scoped rest enter the kernel's invariant (which names the accumulator's contents between points) and come back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. Its
    arrays are split out of the unscoped buffers and put back at their exit contents; the generator register and the
    scoped rest enter the kernel's invariant (which names the accumulator's contents between points) and come back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h.trans (hin2 (V4 m ρ) c)
  hout c := by
    rw [Pipeline.ownSems0_none]
    have h : (Pipeline.ΦA spec2 c : sProp 𝕄)
        ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V4 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Hand

end
-- ==== Proof.KernelIdeal.DegreeValuePieces.lean ====
/-
  Region 0 (the degree kernel): what each case's stores leave, as the body's arithmetic applied to the blocks the case
  was run at.  With `x` the input block and `s` the accumulator before the point: the accumulator becomes
  `s + rowsums x` (from the zero column at column-block index 0), the copied block is `x` narrowed, and at the last
  column block the degree column is `1 / sqrt (accumulator + ε)`.
-/
import proofs.«103316_j15479062135163_2_alg».proof.Proof.KernelIdeal.Degree
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem deg_hz : (![0, 0] : Fin 2 → Nat) = fun _ => 0 := funext fun a => by fin_cases a <;> rfl

/-- Case B: the accumulator gains the block's row sums. -/
theorem deg_sout_B_eq (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) :
    sout0_B_0 c i arg2 harg2 arg3 harg3 arg4 harg4 arg5 harg5 hc0 hc1 x0 xs0 = k0_pay2 x0 xs0 := by
  unfold sout0_B_0
  rw [View.read_writes_eq_canon _ _ _ (scover0_B_0 c i arg2 harg2 arg3 harg3 arg4 harg4 arg5 harg5 hc0 hc1 x0 xs0)]
  unfold kernelRun0_B
  dsimp only
  (try sl_unfold_words)
  rw [View.canon_unit_zero deg_hz]
  simp only [View.readAt_eq_ld, harg2.read_unread, harg5.read_unread, View.ld_unit_zero (S := S512x2048) deg_hz, View.ld_unit_zero (S := S512x1) deg_hz]

/-- Case C: the same. -/
theorem deg_sout_C_eq (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) :
    sout0_C_0 c i arg2 harg2 arg3 harg3 arg4 harg4 arg5 harg5 hc0 hc1 x0 xs0 = k0_pay2 x0 xs0 := by
  unfold sout0_C_0
  rw [View.read_writes_eq_canon _ _ _ (scover0_C_0 c i arg2 harg2 arg3 harg3 arg4 harg4 arg5 harg5 hc0 hc1 x0 xs0)]
  unfold kernelRun0_C
  dsimp only
  (try sl_unfold_words)
  rw [View.canon_unit_zero deg_hz]
  simp only [View.readAt_eq_ld, harg2.read_unread, harg5.read_unread, View.ld_unit_zero (S := S512x2048) deg_hz, View.ld_unit_zero (S := S512x1) deg_hz]

/-- Case A: the accumulator is the block's row sums over the zero column. -/
theorem deg_sout_A_eq (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) :
    sout0_A_0 c i arg2 harg2 arg3 harg3 arg4 harg4 arg5 harg5 hc0 hc1 x0 = k0_pay2 x0 k0_pay1 := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S512x1) deg_hz, View.readCov_unit_zero (S := S512x1) _ deg_hz]
  simp only [View.readAt_eq_ld, harg2.read_unread, View.ld_unit_zero (S := S512x2048) deg_hz, View.ld_unit_zero (S := S512x1) deg_hz]

/-- Case C: the degree column is computed from the accumulator this point leaves. -/
theorem deg_out_C_col_eq (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) :
    out0_C_1 c i arg2 harg2 arg3 harg3 arg4 harg4 arg5 harg5 hc0 hc1 x0 xs0 = k0_pay4 (k0_pay2 x0 xs0) := by
  unfold out0_C_1
  rw [View.read_writes_eq_canon _ _ _ (cover0_C_1 c i arg2 harg2 arg3 harg3 arg4 harg4 arg5 harg5 hc0 hc1 x0 xs0)]
  unfold kernelRun0_C
  dsimp only
  sl_unfold_words
  rw [View.canon_unit_zero deg_hz, View.readCov_unit_zero (S := S512x1) _ deg_hz]
  simp only [View.readAt_eq_ld, harg2.read_unread, harg5.read_unread, View.ld_unit_zero (S := S512x2048) deg_hz, View.ld_unit_zero (S := S512x1) deg_hz]

/-- Every case copies the block, narrowed. -/
theorem deg_out_A_copy_eq (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : cond0_0 i) (hc1 : ¬cond0_1 i)
    (x0 : Vec F S512x2048 .f32) :
    out0_A_2 c i arg2 harg2 arg3 harg3 arg4 harg4 arg5 harg5 hc0 hc1 x0 = k0_pay3 x0 := by
  unfold out0_A_2
  rw [View.read_writes_eq_canon _ _ _ (cover0_A_2 c i arg2 harg2 arg3 harg3 arg4 harg4 arg5 harg5 hc0 hc1 x0)]
  unfold kernelRun0_A
  dsimp only
  (try sl_unfold_words)
  rw [View.canon_unit_zero deg_hz]
  simp only [View.readAt_eq_ld, harg2.read_unread, View.ld_unit_zero (S := S512x2048) deg_hz, View.ld_unit_zero (S := S512x1) deg_hz]

theorem deg_out_B_copy_eq (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : ¬cond0_1 i)
    (x0 : Vec F S512x2048 .f32) (xs0 : Vec F S512x1 .f32) :
    out0_B_2 c i arg2 harg2 arg3 harg3 arg4 harg4 arg5 harg5 hc0 hc1 x0 xs0 = k0_pay3 x0 := by
  unfold out0_B_2
  rw [View.read_writes_eq_canon _ _ _ (cover0_B_2 c i arg2 harg2 arg3 harg3 arg4 harg4 arg5 harg5 hc0 hc1 x0 xs0)]
  unfold kernelRun0_B
  dsimp only
  (try sl_unfold_words)
  rw [View.canon_unit_zero deg_hz]
  simp only [View.readAt_eq_ld, harg2.read_unread, View.ld_unit_zero (S := S512x2048) deg_hz, View.ld_unit_zero (S := S512x1) deg_hz]

theorem deg_out_C_copy_eq (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S512x2048 .bf16) (harg4 : arg4.IsWhole) (arg5 : Memref sig .tc .vmem S512x1 .f32) (harg5 : arg5.IsWhole) (hc0 : ¬cond0_0 i) (hc1 : cond0_1 i)
    (x0 : Vec F S512x2048 .f32) (xs0 : Vec F S512x1 .f32) :
    out0_C_2 c i arg2 harg2 arg3 harg3 arg4 harg4 arg5 harg5 hc0 hc1 x0 xs0 = k0_pay3 x0 := by
  unfold out0_C_2
  rw [View.read_writes_eq_canon _ _ _ (cover0_C_2 c i arg2 harg2 arg3 harg3 arg4 harg4 arg5 harg5 hc0 hc1 x0 xs0)]
  unfold kernelRun0_C
  dsimp only
  (try sl_unfold_words)
  rw [View.canon_unit_zero deg_hz]
  simp only [View.readAt_eq_ld, harg2.read_unread, View.ld_unit_zero (S := S512x2048) deg_hz, View.ld_unit_zero (S := S512x1) deg_hz]

/-! ## The same at a point of the grid, read off `outsAt0` -/

section AtPoint
variable (V : (c : Dev nD) → (b : Ref sig .tc) → Buf (Elt F) ((c : Thread nD τ).loc b))

/-- At column-block index 0 the accumulator restarts from the zero column. -/
theorem deg_acc_A (c : Dev nD) (t : Fin cfg0.N) (h0 : t.val % 4 = 0) :
    (outsAt0 V c t.val t.isLt).2.2 = k0_pay2 (iblk0 V c 0 t) k0_pay1 := by
  rw [outsAt0_A V c t h0]; dsimp only
  exact deg_sout_A_eq c (grid0.coords t) (ms0_0 t) (hs0_0 t) (ms0_1 t) (hs0_1 t) (ms0_2 t) (hs0_2 t) scM0_0 (Memref.isWhole_whole _) (hA0 t h0) (hA1 t h0) (iblk0 V c 0 t)

/-- At column-block index 1 or 2 it gains the block's row sums over what the point before left. -/
theorem deg_acc_B (c : Dev nD) (t : Fin cfg0.N) (h0 : ¬t.val % 4 = 0) (h1 : ¬t.val % 4 = 3) :
    (outsAt0 V c t.val t.isLt).2.2 = k0_pay2 (iblk0 V c 0 t) (outsAt0 V c (t.val - 1) (Nat.lt_of_le_of_lt (Nat.sub_le _ _) t.isLt)).2.2 := by
  rw [outsAt0_B V c t h0 h1]; dsimp only
  exact deg_sout_B_eq c (grid0.coords t) (ms0_0 t) (hs0_0 t) (ms0_1 t) (hs0_1 t) (ms0_2 t) (hs0_2 t) scM0_0 (Memref.isWhole_whole _) (hN0 t h0) (hN1 t h1) (iblk0 V c 0 t) (outsAt0 V c (t.val - 1) (Nat.lt_of_le_of_lt (Nat.sub_le _ _) t.isLt)).2.2

/-- At column-block index 3 likewise, -/
theorem deg_acc_C (c : Dev nD) (t : Fin cfg0.N) (h0 : ¬t.val % 4 = 0) (h1 : t.val % 4 = 3) :
    (outsAt0 V c t.val t.isLt).2.2 = k0_pay2 (iblk0 V c 0 t) (outsAt0 V c (t.val - 1) (Nat.lt_of_le_of_lt (Nat.sub_le _ _) t.isLt)).2.2 := by
  rw [outsAt0_C V c t h0 h1]; dsimp only
  exact deg_sout_C_eq c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2

/-- and the degree column is computed from that. -/
theorem deg_C (c : Dev nD) (t : Fin cfg0.N) (h0 : ¬t.val % 4 = 0) (h1 : t.val % 4 = 3) :
    (outsAt0 V c t.val t.isLt).1 = k0_pay4 (k0_pay2 (iblk0 V c 0 t) (outsAt0 V c (t.val - 1) (Nat.lt_of_le_of_lt (Nat.sub_le _ _) t.isLt)).2.2) := by
  rw [outsAt0_C V c t h0 h1]; dsimp only
  exact deg_out_C_col_eq c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2

/-- At every point the copied block's buffer holds the input block, narrowed. -/
theorem deg_copy_at (c : Dev nD) (t : Fin cfg0.N) :
    (outsAt0 V c t.val t.isLt).2.1 = k0_pay3 (iblk0 V c 0 t) := by
  by_cases h0 : t.val % 4 = 0
  · rw [outsAt0_A V c t h0]; dsimp only
    exact deg_out_A_copy_eq c (grid0.coords t) (ms0_0 t) (hs0_0 t) (ms0_1 t) (hs0_1 t) (ms0_2 t) (hs0_2 t) scM0_0 (Memref.isWhole_whole _) (hA0 t h0) (hA1 t h0) (iblk0 V c 0 t)
  · by_cases h1 : t.val % 4 = 3
    · rw [outsAt0_C V c t h0 h1]; dsimp only
      exact deg_out_C_copy_eq c (grid0.coords t) (ms0_0 t) (hs0_0 t) (ms0_1 t) (hs0_1 t) (ms0_2 t) (hs0_2 t) scM0_0 (Memref.isWhole_whole _) (hN0 t h0) (hC1 t h1) (iblk0 V c 0 t) (outsAt0 V c (t.val - 1) (Nat.lt_of_le_of_lt (Nat.sub_le _ _) t.isLt)).2.2
    · rw [outsAt0_B V c t h0 h1]; dsimp only
      exact deg_out_B_copy_eq c (grid0.coords t) (ms0_0 t) (hs0_0 t) (ms0_1 t) (hs0_1 t) (ms0_2 t) (hs0_2 t) scM0_0 (Memref.isWhole_whole _) (hN0 t h0) (hN1 t h1) (iblk0 V c 0 t) (outsAt0 V c (t.val - 1) (Nat.lt_of_le_of_lt (Nat.sub_le _ _) t.isLt)).2.2

/-- `outsAt0` depends on the position only. -/
theorem deg_outsAt_congr (c : Dev nD) (n n' : ℕ) (h : n = n') (hn : n < cfg0.N) (hn' : n' < cfg0.N) :
    outsAt0 V c n hn = outsAt0 V c n' hn' := by subst h; rfl

end AtPoint

end Cert.KernelIdeal.Hand

end
-- ==== Proof.Spec.lean ====
/-
  The two-layer dense graph convolution, as one function of the argument arrays over the extended reals.

  With `a` the adjacency matrix, the inverse root degree of row `i` is `d i = 1 / sqrt (∑ k, a i k + ε)`.
  One layer takes features `x`, scales row `k` by `d k`, aggregates along the adjacency row, scales the
  result's row `i` by `d i`, and applies an affine map `w, b`:
      agg i j = (∑ k, a i k * (d k * x k j)) * d i,      lin i q = (∑ j, agg i j * w j q) + b q.
  The network is `lin` of the rectified first layer.  Everything is stated over plain `Fin` indices so that
  both programs can be read against it; the literals are the printed f32 words.
-/
import Idealize.ShloMosaic.PureOps.Ideal

noncomputable section

namespace Cert.Spec

open Idealize.ShloMosaic

/-- The printed word of the kernel's and the reference's `ε` (the f32 nearest to 1e-6). -/
def eps : EReal := Ideal.ofBits .f32 0x358637BD#32
/-- The printed word of `1.0`. -/
def one : EReal := Ideal.ofBits .f32 0x3F800000#32
/-- The printed word of `0.0`. -/
def zero : EReal := Ideal.ofBits .f32 0x00000000#32

/-- Row sums of the adjacency matrix. -/
def rowsum {n : ℕ} (a : Fin n → Fin n → EReal) (i : Fin n) : EReal := ∑ k, a i k

/-- The inverse root degree `1 / sqrt (rowsum + ε)`. -/
def dinv {n : ℕ} (a : Fin n → Fin n → EReal) (i : Fin n) : EReal :=
  Ideal.div one (Ideal.sqrt (rowsum a i + eps))

/-- Aggregation with the row scale applied to the features before the sum and to the sum afterwards. -/
def agg {n f : ℕ} (a : Fin n → Fin n → EReal) (d : Fin n → EReal) (x : Fin n → Fin f → EReal)
    (i : Fin n) (j : Fin f) : EReal :=
  (∑ k, a i k * (d k * x k j)) * d i

/-- Aggregation of features that arrive already scaled by their row's factor (what one layer's kernel sees). -/
def aggPre {n f : ℕ} (a : Fin n → Fin n → EReal) (xs : Fin n → Fin f → EReal) (d : Fin n → EReal)
    (i : Fin n) (j : Fin f) : EReal :=
  (∑ k, a i k * xs k j) * d i

theorem agg_eq_aggPre {n f : ℕ} (a : Fin n → Fin n → EReal) (d : Fin n → EReal) (x : Fin n → Fin f → EReal) :
    agg a d x = aggPre a (fun k j => d k * x k j) d := rfl

/-- The affine map on rows. -/
def lin {n f o : ℕ} (h : Fin n → Fin f → EReal) (w : Fin f → Fin o → EReal) (b : Fin o → EReal)
    (i : Fin n) (q : Fin o) : EReal :=
  (∑ j, h i j * w j q) + b q

/-- The hidden layer: rectified affine map of the aggregated inputs. -/
def hidden {n f o : ℕ} (a : Fin n → Fin n → EReal) (x : Fin n → Fin f → EReal) (w : Fin f → Fin o → EReal)
    (b : Fin o → EReal) (i : Fin n) (q : Fin o) : EReal :=
  max (lin (agg a (dinv a) x) w b i q) zero

/-- The network's output. -/
def out {n f g o : ℕ} (a : Fin n → Fin n → EReal) (x : Fin n → Fin f → EReal)
    (w1 : Fin f → Fin g → EReal) (b1 : Fin g → EReal) (w2 : Fin g → Fin o → EReal) (b2 : Fin o → EReal)
    (i : Fin n) (q : Fin o) : EReal :=
  lin (agg a (dinv a) (hidden a x w1 b1)) w2 b2 i q

end Cert.Spec

end
-- ==== Proof.LibBlockSum.lean ====
import Mathlib.Algebra.BigOperators.Fin
import Mathlib.Logic.Equiv.Fin.Basic

/-!
# Sums over consecutive blocks, and sums accumulated one block at a time

A sum over a * b consecutive positions is the sum, over the a blocks, of the sums over each block's b positions,
position r of block j being j * b + r.  A value accumulated by adding one block's sum at a time to a start value z
is z plus the sum of all the block sums.  Both hold in any commutative additive monoid (the extended reals are one):
only associativity and commutativity of addition are used.  The instance met here is 8192 = 4 * 2048.
-/

namespace Cert.LibBlockSum

open scoped BigOperators

variable {M : Type*} [AddCommMonoid M]

/-- Position r of block j, among a consecutive blocks of length b, lies below a * b. -/
theorem blk_lt {a b : ℕ} (j : Fin a) (r : Fin b) : j.val * b + r.val < a * b :=
  calc j.val * b + r.val < j.val * b + b := Nat.add_lt_add_left r.isLt _
    _ = (j.val + 1) * b := (Nat.succ_mul _ _).symm
    _ ≤ a * b := Nat.mul_le_mul_right b j.isLt

/-- (1) A sum over a * b consecutive positions is the sum over the a blocks of the sum over each block's b
    positions, position r of block j being j * b + r. -/
theorem sum_blocks (a b : ℕ) (f : Fin (a * b) → M) :
    ∑ k, f k = ∑ j : Fin a, ∑ r : Fin b, f ⟨j.val * b + r.val, blk_lt j r⟩ := by
  rw [← Equiv.sum_comp finProdFinEquiv f, Fintype.sum_prod_type]
  refine Finset.sum_congr rfl fun j _ => Finset.sum_congr rfl fun r _ => congrArg f (Fin.ext ?_)
  show r.val + b * j.val = j.val * b + r.val
  rw [Nat.mul_comm, Nat.add_comm]

/-- (2) Four terms added one at a time to zero make the sum of the four. -/
theorem run4_zero (B : Fin 4 → M) : (((0 + B 0) + B 1) + B 2) + B 3 = ∑ j, B j := by
  rw [Fin.sum_univ_four, zero_add]

/-- (2) Four terms added one at a time to a start value z make z plus the sum of the four. -/
theorem run4 (z : M) (B : Fin 4 → M) : (((z + B 0) + B 1) + B 2) + B 3 = z + ∑ j, B j := by
  rw [Fin.sum_univ_four]
  simp only [add_assoc]

/-- (2) The recursive form over four blocks: an accumulator that starts at z + B 0 and adds the next term at each
    step ends at z plus the sum of the four terms. -/
theorem run_fin4 (z : M) (B : Fin 4 → M) (acc : Fin 4 → M) (h0 : acc 0 = z + B 0) (h1 : acc 1 = acc 0 + B 1)
    (h2 : acc 2 = acc 1 + B 2) (h3 : acc 3 = acc 2 + B 3) : acc 3 = z + ∑ j, B j := by
  rw [h3, h2, h1, h0, run4]

/-- (2) The recursive form for any number of steps, the terms indexed by the naturals: after step n the accumulator
    holds z plus the sum of the terms 0, …, n. -/
theorem run_range (z : M) (B : ℕ → M) (acc : ℕ → M) (h0 : acc 0 = z + B 0)
    (hs : ∀ n, acc (n + 1) = acc n + B (n + 1)) (n : ℕ) : acc n = z + ∑ j ∈ Finset.range (n + 1), B j := by
  induction n with
  | zero => rw [h0, Finset.sum_range_one]
  | succ n ih => rw [hs, ih, Finset.sum_range_succ _ (n + 1), add_assoc]

/-- The sum over block j of the four blocks of 2048 consecutive positions of a family over 8192 positions. -/
abbrev blockSum (f : Fin 8192 → M) (j : Fin 4) : M := ∑ r : Fin 2048, f ⟨j.val * 2048 + r.val, by omega⟩

/-- (3) A sum over 8192 positions is the sum over the four blocks of 2048, position k = j * 2048 + r. -/
theorem sum_8192 (f : Fin 8192 → M) :
    ∑ k, f k = ∑ j : Fin 4, ∑ r : Fin 2048, f ⟨j.val * 2048 + r.val, by omega⟩ :=
  sum_blocks 4 2048 f

/-- (3) The four block sums added one at a time to z make z plus the sum over all 8192 positions. -/
theorem run4_8192 (z : M) (f : Fin 8192 → M) :
    (((z + blockSum f 0) + blockSum f 1) + blockSum f 2) + blockSum f 3 = z + ∑ k, f k := by
  rw [run4 z (blockSum f), sum_8192 f]

/-- (3) The recursive form at 8192 = 4 * 2048: an accumulator that starts at z plus block 0's sum and adds the next
    block's sum at each step ends at z plus the sum over all 8192 positions. -/
theorem run_fin4_8192 (z : M) (f : Fin 8192 → M) (acc : Fin 4 → M) (h0 : acc 0 = z + blockSum f 0)
    (h1 : acc 1 = acc 0 + blockSum f 1) (h2 : acc 2 = acc 1 + blockSum f 2) (h3 : acc 3 = acc 2 + blockSum f 3) :
    acc 3 = z + ∑ k, f k := by
  rw [run_fin4 z (blockSum f) acc h0 h1 h2 h3, sum_8192 f]

end Cert.LibBlockSum
-- ==== Proof.KernelIdeal.DegreeValue.lean ====
/-
  Region 0 (the degree kernel) read at the extended reals: the degree column ends holding the inverse root degree
  `1 / sqrt (∑ₖ a i k + ε)` of every row of the adjacency matrix `a` the region is entered with, and the second
  output ends holding `a` itself (narrowing the float format changes nothing there).  A row's sum is accumulated over
  the four column blocks of 2048 columns, `(((0 + r₀) + r₁) + r₂) + r₃` with `rⱼ` the sum over block `j`'s columns;
  addition of extended reals is associative and commutative, so this is the sum over all 8192 columns.
-/
import proofs.«103316_j15479062135163_2_alg».proof.Proof.KernelIdeal.DegreeValuePieces
import proofs.«103316_j15479062135163_2_alg».proof.Proof.Spec
import proofs.«103316_j15479062135163_2_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The body's arithmetic at an index -/

/-- The accumulator's update at row `r`: what it held plus the sum over the block's 2048 columns of that row. -/
theorem deg_pay2_apply (x : Vec Ideal S512x2048 .f32) (s : Vec Ideal S512x1 .f32) (r : Fin 512) :
    k0_pay2 (F := Ideal) x s (ix2 r 0) = s (ix2 r 0) + ∑ l : Fin 2048, x (ix2 r l) := by
  unfold k0_pay2
  refine (congrFun (shapeCast_self _ _) _).trans ?_
  refine congrArg (s (ix2 r 0) + ·) ?_
  refine (shapeCast_apply _ _ (ix2 r 0) (ix1 r) ?_).trans ?_
  · rw [Shape.rowMajor_val_one, Shape.rowMajor_val_two]
    show r.val = r.val * 1 + 0
    omega
  refine (Ideal.multiReduction_add_single _ _ _ _ _ _).trans ?_
  refine Finset.sum_congr rfl fun l _ => congrArg x (funext fun a => Fin.ext ?_)
  match a with
  | ⟨0, _⟩ => rfl
  | ⟨1, _⟩ => rfl

/-- The zero column. -/
theorem deg_pay1_apply (j : S512x1.Idx) : k0_pay1 (F := Ideal) j = 0 := by
  unfold k0_pay1
  refine (congrFun (shapeCast_self _ _) _).trans ?_
  exact Ideal.ofBits_zero_f32

/-- The degree column's entry from the finished row sum. -/
theorem deg_pay4_apply (s : Vec Ideal S512x1 .f32) (j : S512x1.Idx) :
    k0_pay4 (F := Ideal) s j = Ideal.div Cert.Spec.one (Ideal.sqrt (s j + Cert.Spec.eps)) := rfl

/-- Narrowing the float format is the identity on extended reals. -/
theorem deg_pay3_apply (x : Vec Ideal S512x2048 .f32) (j : S512x2048.Idx) : k0_pay3 (F := Ideal) x j = x j := rfl

/-- Four updates from the zero column: the row's sum over the four blocks, block by block. -/
theorem deg_chain_apply (x0 x1 x2 x3 : Vec Ideal S512x2048 .f32) (r : Fin 512) :
    k0_pay2 (F := Ideal) x3 (k0_pay2 x2 (k0_pay2 x1 (k0_pay2 x0 (k0_pay1 (F := Ideal))))) (ix2 r 0)
      = (((0 + ∑ l : Fin 2048, x0 (ix2 r l)) + ∑ l : Fin 2048, x1 (ix2 r l)) + ∑ l : Fin 2048, x2 (ix2 r l)) + ∑ l : Fin 2048, x3 (ix2 r l) := by
  rw [deg_pay2_apply, deg_pay2_apply, deg_pay2_apply, deg_pay2_apply, deg_pay1_apply]

/-- With each block's row read off one family `f` over the 8192 columns, block `j` at the columns `j * 2048 + l`:
    the four updates make the sum of `f` over all columns. -/
theorem deg_chain_rowsum (x0 x1 x2 x3 : Vec Ideal S512x2048 .f32) (r : Fin 512) (f : Fin 8192 → EReal)
    (h0 : ∀ l : Fin 2048, x0 (ix2 r l) = f ⟨(0 : Fin 4).val * 2048 + l.val, by omega⟩)
    (h1 : ∀ l : Fin 2048, x1 (ix2 r l) = f ⟨(1 : Fin 4).val * 2048 + l.val, by omega⟩)
    (h2 : ∀ l : Fin 2048, x2 (ix2 r l) = f ⟨(2 : Fin 4).val * 2048 + l.val, by omega⟩)
    (h3 : ∀ l : Fin 2048, x3 (ix2 r l) = f ⟨(3 : Fin 4).val * 2048 + l.val, by omega⟩) :
    k0_pay2 (F := Ideal) x3 (k0_pay2 x2 (k0_pay2 x1 (k0_pay2 x0 (k0_pay1 (F := Ideal))))) (ix2 r 0) = ∑ k, f k := by
  have s0 : ∑ l : Fin 2048, x0 (ix2 r l) = Cert.LibBlockSum.blockSum f 0 := Finset.sum_congr rfl fun l _ => h0 l
  have s1 : ∑ l : Fin 2048, x1 (ix2 r l) = Cert.LibBlockSum.blockSum f 1 := Finset.sum_congr rfl fun l _ => h1 l
  have s2 : ∑ l : Fin 2048, x2 (ix2 r l) = Cert.LibBlockSum.blockSum f 2 := Finset.sum_congr rfl fun l _ => h2 l
  have s3 : ∑ l : Fin 2048, x3 (ix2 r l) = Cert.LibBlockSum.blockSum f 3 := Finset.sum_congr rfl fun l _ => h3 l
  rw [deg_chain_apply, s0, s1, s2, s3]
  exact (Cert.LibBlockSum.run4_8192 0 f).trans (zero_add _)

/-! ## The printed index maps over the grid -/

/-- Point `t` is row block `t / 4`, column block `t % 4`; the degree column's block follows the row block only. -/
theorem deg_idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = t.val / 4 ∧ win0_2.index t (1 : Fin 2) = t.val % 4 :=
  (by decide +kernel : ∀ t : Fin grid0.N, _)

section Value
variable (V : (c : Dev nD) → (b : Ref sig .tc) → Buf (Elt Ideal) ((c : Thread nD τ).loc b))

/-- The adjacency matrix as the region finds it. -/
abbrev deg_adj (c : Dev nD) : Fin 8192 → Fin 8192 → EReal := fun i k => V c main_arg1 (ix2 i k)

/-- The input block at point `t` reads the matrix at row `512 (t / 4) + r`, column `(t % 4) 2048 + l`. -/
theorem deg_iblk_apply (c : Dev nD) (t : Fin cfg0.N) (r : Fin 512) (l : Fin 2048) (i k : Fin 8192)
    (hi : i.val = (t.val / 4) * 512 + r.val) (hk : k.val = (t.val % 4) * 2048 + l.val) :
    (iblk0 V c 0 t : Vec Ideal S512x2048 .f32) (ix2 r l) = deg_adj V c i k := by
  obtain ⟨e0, e1, -⟩ := deg_idx_facts t
  unfold iblk0
  rw [View.read_apply]
  show V c main_arg1 _ = V c main_arg1 _
  congr 1
  funext a
  apply Fin.ext
  match a with
  | ⟨0, _⟩ => show win0_0.index t (0 : Fin 2) * 512 + 1 * r.val = i.val; rw [e0, hi]; omega
  | ⟨1, _⟩ => show win0_0.index t (1 : Fin 2) * 2048 + 1 * l.val = k.val; rw [e1, hk]; omega

/-! ## The row sums -/

/-- At the last column block of a row block the accumulator's row `r` holds the whole row sum: the four points of the
    row block each added one block's sum, the first of them to zero. -/
theorem deg_acc_last (c : Dev nD) (t : Fin cfg0.N) (h3 : t.val % 4 = 3) (r : Fin 512) (i : Fin 8192)
    (hi : i.val = (t.val / 4) * 512 + r.val) :
    (outsAt0 V c t.val t.isLt).2.2 (ix2 r 0) = Cert.Spec.rowsum (deg_adj V c) i := by
  have hN : cfg0.N = 64 := N_0
  have hlt : t.val < 64 := lt_of_lt_of_eq t.isLt hN
  have l2 : t.val - 1 < cfg0.N := by omega
  have l1 : t.val - 1 - 1 < cfg0.N := by omega
  have l0 : t.val - 1 - 1 - 1 < cfg0.N := by omega
  have e3 := deg_acc_C V c t (by omega) h3
  have e2 := deg_acc_B V c ⟨t.val - 1, l2⟩ (by show ¬(t.val - 1) % 4 = 0; omega) (by show ¬(t.val - 1) % 4 = 3; omega)
  have e1 := deg_acc_B V c ⟨t.val - 1 - 1, l1⟩ (by show ¬(t.val - 1 - 1) % 4 = 0; omega) (by show ¬(t.val - 1 - 1) % 4 = 3; omega)
  have e0 := deg_acc_A V c ⟨t.val - 1 - 1 - 1, l0⟩ (by show (t.val - 1 - 1 - 1) % 4 = 0; omega)
  have b0 : ∀ l : Fin 2048, (iblk0 V c 0 ⟨t.val - 1 - 1 - 1, l0⟩ : Vec Ideal S512x2048 .f32) (ix2 r l) = deg_adj V c i ⟨(0 : Fin 4).val * 2048 + l.val, by omega⟩ :=
    fun l => deg_iblk_apply V c ⟨t.val - 1 - 1 - 1, l0⟩ r l i ⟨(0 : Fin 4).val * 2048 + l.val, by omega⟩
      (by show i.val = (t.val - 1 - 1 - 1) / 4 * 512 + r.val; omega)
      (by show (0 : Fin 4).val * 2048 + l.val = (t.val - 1 - 1 - 1) % 4 * 2048 + l.val
          rw [show (t.val - 1 - 1 - 1) % 4 = 0 from by omega]; rfl)
  have b1 : ∀ l : Fin 2048, (iblk0 V c 0 ⟨t.val - 1 - 1, l1⟩ : Vec Ideal S512x2048 .f32) (ix2 r l) = deg_adj V c i ⟨(1 : Fin 4).val * 2048 + l.val, by omega⟩ :=
    fun l => deg_iblk_apply V c ⟨t.val - 1 - 1, l1⟩ r l i ⟨(1 : Fin 4).val * 2048 + l.val, by omega⟩
      (by show i.val = (t.val - 1 - 1) / 4 * 512 + r.val; omega)
      (by show (1 : Fin 4).val * 2048 + l.val = (t.val - 1 - 1) % 4 * 2048 + l.val
          rw [show (t.val - 1 - 1) % 4 = 1 from by omega]; rfl)
  have b2 : ∀ l : Fin 2048, (iblk0 V c 0 ⟨t.val - 1, l2⟩ : Vec Ideal S512x2048 .f32) (ix2 r l) = deg_adj V c i ⟨(2 : Fin 4).val * 2048 + l.val, by omega⟩ :=
    fun l => deg_iblk_apply V c ⟨t.val - 1, l2⟩ r l i ⟨(2 : Fin 4).val * 2048 + l.val, by omega⟩
      (by show i.val = (t.val - 1) / 4 * 512 + r.val; omega)
      (by show (2 : Fin 4).val * 2048 + l.val = (t.val - 1) % 4 * 2048 + l.val
          rw [show (t.val - 1) % 4 = 2 from by omega]; rfl)
  have b3 : ∀ l : Fin 2048, (iblk0 V c 0 t : Vec Ideal S512x2048 .f32) (ix2 r l) = deg_adj V c i ⟨(3 : Fin 4).val * 2048 + l.val, by omega⟩ :=
    fun l => deg_iblk_apply V c t r l i ⟨(3 : Fin 4).val * 2048 + l.val, by omega⟩ hi
      (by show (3 : Fin 4).val * 2048 + l.val = t.val % 4 * 2048 + l.val
          rw [h3]; rfl)
  rw [e3, e2, e1, e0]
  exact deg_chain_rowsum (iblk0 V c 0 ⟨t.val - 1 - 1 - 1, l0⟩) (iblk0 V c 0 ⟨t.val - 1 - 1, l1⟩) (iblk0 V c 0 ⟨t.val - 1, l2⟩) (iblk0 V c 0 t) r (deg_adj V c i) b0 b1 b2 b3

/-- So the degree column's buffer holds the inverse root degrees of the row block's rows. -/
theorem deg_last (c : Dev nD) (t : Fin cfg0.N) (h3 : t.val % 4 = 3) (y : S512x1.Idx) (i : Fin 8192)
    (hi : i.val = (t.val / 4) * 512 + (y 0).val) :
    (outsAt0 V c t.val t.isLt).1 y = Cert.Spec.dinv (deg_adj V c) i := by
  obtain ⟨r, q, rfl⟩ : ∃ (r : Fin 512) (q : Fin 1), y = ix2 r q := ⟨y 0, y 1, eq_ix2 y⟩
  obtain rfl : q = 0 := Subsingleton.elim _ _
  have h0 : ¬t.val % 4 = 0 := by omega
  calc (outsAt0 V c t.val t.isLt).1 (ix2 r 0)
      = k0_pay4 (F := Ideal) ((outsAt0 V c t.val t.isLt).2.2) (ix2 r 0) := by rw [deg_C V c t h0 h3, deg_acc_C V c t h0 h3]
    _ = Ideal.div Cert.Spec.one (Ideal.sqrt ((outsAt0 V c t.val t.isLt).2.2 (ix2 r 0) + Cert.Spec.eps)) := rfl
    _ = Cert.Spec.dinv (deg_adj V c) i := by rw [deg_acc_last V c t h3 r i hi]; rfl

/-! ## From the blocks to the arrays -/

/-- What the degree column ends holding. -/
abbrev deg_G_col (c : Dev nD) : S8192x1.Idx → EReal := fun j => Cert.Spec.dinv (deg_adj V c) (j 0)
/-- What the second output ends holding: the matrix. -/
abbrev deg_G_copy (c : Dev nD) : S8192x8192.Idx → EReal := fun j => V c main_arg1 j

/-- What a point at the last column block writes back is its block of `deg_G_col`. -/
theorem deg_flushed_col (c : Dev nD) (t : Fin cfg0.N) (hf : (cfg0.win 1).flush t = true) :
    (dat0 V c).flushed 1 t = ((cfg0.win 1).blk t).view.read (Elt Ideal) (deg_G_col V c) := by
  have h3 : t.val % 4 = 3 := (flush0_1 t).mp hf
  obtain ⟨-, -, e2, e3, -⟩ := deg_idx_facts t
  show (cfg0.win 1).cut (grid0.coords t) ((dat0 V c).after 1 t) = _
  rw [after0_1]
  funext y
  show (outsAt0 V c t.val t.isLt).1 y = deg_G_col V c (((cfg0.win 1).blk t).view.emb y)
  refine deg_last V c t h3 y _ ?_
  show win0_1.index t (0 : Fin 2) * 512 + 1 * (y 0).val = t.val / 4 * 512 + (y 0).val
  rw [e2]; omega

/-- What every point writes back of the copy is its block of the matrix. -/
theorem deg_flushed_copy (c : Dev nD) (t : Fin cfg0.N) (hf : (cfg0.win 2).flush t = true) :
    (dat0 V c).flushed 2 t = ((cfg0.win 2).blk t).view.read (Elt Ideal) (deg_G_copy V c) := by
  obtain ⟨e0, e1, -, -, e4, e5⟩ := deg_idx_facts t
  show (cfg0.win 2).cut (grid0.coords t) ((dat0 V c).after 2 t) = _
  rw [after0_2, deg_copy_at V c t]
  funext y
  show V c main_arg1 (((cfg0.win 0).blk t).view.emb y) = V c main_arg1 (((cfg0.win 2).blk t).view.emb y)
  rfl

/-- An index is in point `t`'s block of the degree column iff each coordinate is in the block's range. -/
theorem deg_mem_col (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

theorem deg_mem_copy (t : Fin cfg0.N) (i : S8192x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0_1).slice (win0_2.rect t)).set ↔ _
  rw [View.set_slice_whole, Rect.mem_set_unit]
  exact Iff.rfl

/-- Row `i` of the degree column is written back by the last point of row block `i / 512`. -/
theorem deg_cover_col (i : S8192x1.Idx) : ∃ t : Fin cfg0.N, (cfg0.win 1).flush t = true ∧ i ∈ ((cfg0.win 1).blk t).view.set := by
  have hN : cfg0.N = 64 := N_0
  have hi0 : (i 0).val < 8192 := (i 0).isLt
  have hi1 : (i 1).val < 1 := (i 1).isLt
  refine ⟨⟨4 * ((i 0).val / 512) + 3, by omega⟩, (flush0_1 _).mpr (by show (4 * ((i 0).val / 512) + 3) % 4 = 3; omega), ?_⟩
  rw [deg_mem_col]
  obtain ⟨-, -, e2, e3, -⟩ := deg_idx_facts ⟨4 * ((i 0).val / 512) + 3, by omega⟩
  intro a
  match a with
  | ⟨0, _⟩ =>
    show win0_1.index _ (0 : Fin 2) * 512 ≤ (i 0).val ∧ (i 0).val < win0_1.index _ (0 : Fin 2) * 512 + 512
    rw [e2]; show (4 * ((i 0).val / 512) + 3) / 4 * 512 ≤ (i 0).val ∧ (i 0).val < (4 * ((i 0).val / 512) + 3) / 4 * 512 + 512; omega
  | ⟨1, _⟩ =>
    show win0_1.index _ (1 : Fin 2) * 1 ≤ (i 1).val ∧ (i 1).val < win0_1.index _ (1 : Fin 2) * 1 + 1
    rw [e3]; omega

/-- Entry `(i, k)` of the copy is written back by the point of row block `i / 512`, column block `k / 2048`. -/
theorem deg_cover_copy (i : S8192x8192.Idx) : ∃ t : Fin cfg0.N, (cfg0.win 2).flush t = true ∧ i ∈ ((cfg0.win 2).blk t).view.set := by
  have hN : cfg0.N = 64 := N_0
  have hi0 : (i 0).val < 8192 := (i 0).isLt
  have hi1 : (i 1).val < 8192 := (i 1).isLt
  refine ⟨⟨4 * ((i 0).val / 512) + (i 1).val / 2048, by omega⟩, flush0_2 _, ?_⟩
  rw [deg_mem_copy]
  obtain ⟨-, -, -, -, e4, e5⟩ := deg_idx_facts ⟨4 * ((i 0).val / 512) + (i 1).val / 2048, by omega⟩
  intro a
  match a with
  | ⟨0, _⟩ =>
    show win0_2.index _ (0 : Fin 2) * 512 ≤ (i 0).val ∧ (i 0).val < win0_2.index _ (0 : Fin 2) * 512 + 512
    rw [e4]; show (4 * ((i 0).val / 512) + (i 1).val / 2048) / 4 * 512 ≤ (i 0).val ∧ (i 0).val < (4 * ((i 0).val / 512) + (i 1).val / 2048) / 4 * 512 + 512; omega
  | ⟨1, _⟩ =>
    show win0_2.index _ (1 : Fin 2) * 2048 ≤ (i 1).val ∧ (i 1).val < win0_2.index _ (1 : Fin 2) * 2048 + 2048
    rw [e5]; show (4 * ((i 0).val / 512) + (i 1).val / 2048) % 4 * 2048 ≤ (i 1).val ∧ (i 1).val < (4 * ((i 0).val / 512) + (i 1).val / 2048) % 4 * 2048 + 2048; omega

/-- THE DEGREE COLUMN after the region: row `i` holds the inverse root degree of row `i` of the matrix. -/
theorem degree_dinv (c : Dev nD) (i : Fin 8192) :
    (dat0 (F := Ideal) V c).arrAt 1 cfg0.N (ix2 i 0) = Cert.Spec.dinv (fun i k => V c main_arg1 (ix2 i k)) i :=
  congrFun ((dat0 V c).arrAt_eq_of_cover 1 (deg_G_col V c) (deg_flushed_col V c) deg_cover_col) (ix2 i 0)

/-- THE SECOND OUTPUT after the region: the matrix. -/
theorem degree_copy (c : Dev nD) (i k : Fin 8192) :
    (dat0 (F := Ideal) V c).arrAt 2 cfg0.N (ix2 i k) = V c main_arg1 (ix2 i k) :=
  congrFun ((dat0 V c).arrAt_eq_of_cover 2 (deg_G_copy V c) (deg_flushed_copy V c) deg_cover_copy) (ix2 i k)

end Value

end Cert.KernelIdeal.Hand

end
-- ==== Proof.KernelIdeal.Layer1Value.lean ====
/- Region 1, the first graph-convolution layer's kernel, at the extended reals: what its result array holds at an entry.
   A row block's accumulator is zeroed at the first of its four column blocks and receives, at each, the product of the
   1024 × 2048 adjacency block with the matching 2048 rows of the pre-scaled features; at the last the row is scaled by
   the row's factor, multiplied into the weights, shifted by the bias and rectified.  Over the extended reals addition is
   associative and commutative, so the four block sums added in order are the one sum over all 8192 columns, and the
   changes of float format are identities: the entry is `max (lin (aggPre a xs d) w b i q) 0`. -/
import proofs.«103316_j15479062135163_2_alg».proof.Proof.KernelIdeal.Layer1
import proofs.«103316_j15479062135163_2_alg».proof.Proof.Spec
import Idealize.ShloMosaic.Lib.ValueIdx
import Idealize.ShloMosaic.Lib.Pipeline.Value
import Idealize.ShloMosaic.PureOps.Ideal.Laws
import proofs.«103316_j15479062135163_2_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What each case's stores leave, as the payloads of the blocks they read -/

theorem l1_zero_off : (![0, 0] : Fin 2 → Nat) = fun _ => 0 := funext fun a => by fin_cases a <;> rfl

/-- The rows of the resident feature matrix a point's body loads: 2048 rows from the point's row offset. -/
abbrev l1_featRows (i : grid1.Coords) (x1 : Vec F S8192x128 .bf16) : Vec F S2048x128 .bf16 :=
  View.ld x1 (Rect.unit (s := S8192x128) (k1_off1 i) S2048x128.size (k1_off1_inb i))

/-- A middle column block: the accumulator ends at what it held plus the block's product. -/
theorem sout1_B_0_eq (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : ¬cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) :
    sout1_B_0 c i arg2 harg2 arg3 harg3 arg4 harg4 arg5 harg5 arg6 harg6 arg7 harg7 arg8 harg8 hc0 hc1 x0 x1 x2 x3 x4 xs0 = k1_pay2 (l1_featRows i x1) x0 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  rw [View.canon_unit_zero l1_zero_off]
  simp only [View.readAt_eq_ld, harg2.read_unread, harg3.read_unread, harg8.read_unread, View.ld_unit_zero (S := S1024x2048) l1_zero_off, View.ld_unit_zero (S := S1024x128) l1_zero_off]

/-- The first column block: the accumulator is zeroed, read back, and ends at zero plus the block's product. -/
theorem sout1_A_0_eq (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : cond1_0 i) (hc1 : ¬cond1_1 i)
    (x0 : Vec F S1024x2048 .bf16) (x1 : Vec F S8192x128 .bf16) (x2 : Vec F S1024x1 .f32) (x3 : Vec F S128x64 .f32) (x4 : Vec F S1x64 .f32) :
    sout1_A_0 c i arg2 harg2 arg3 harg3 arg4 harg4 arg5 harg5 arg6 harg6 arg7 harg7 arg8 harg8 hc0 hc1 x0 x1 x2 x3 x4 = k1_pay2 (l1_featRows i x1) x0 k1_pay1 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1024x128) l1_zero_off, View.readCov_unit_zero (S := S1024x128) _ l1_zero_off]
  simp only [View.readAt_eq_ld, harg2.read_unread, harg3.read_unread, View.ld_unit_zero (S := S1024x2048) l1_zero_off]
  rfl

/-- The last column block: the accumulator ends at what it held plus the block's product, -/
theorem sout1_C_0_eq (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) :
    sout1_C_0 c i arg2 harg2 arg3 harg3 arg4 harg4 arg5 harg5 arg6 harg6 arg7 harg7 arg8 harg8 hc0 hc1 x0 x1 x2 x3 x4 xs0 = k1_pay2 (l1_featRows i x1) x0 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero l1_zero_off]
  simp only [View.readAt_eq_ld, harg2.read_unread, harg3.read_unread, harg8.read_unread, View.ld_unit_zero (S := S1024x2048) l1_zero_off, View.ld_unit_zero (S := S1024x128) l1_zero_off]
  rfl

/-- and the output block is the epilogue of that accumulator, the row scales, the weights and the bias. -/
theorem out1_C_5_eq (c : Dev nD) (i : grid1.Coords) (arg2 : Memref sig .tc .vmem S1024x2048 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x128 .f32) (harg8 : arg8.IsWhole) (hc0 : ¬cond1_0 i) (hc1 : cond1_1 i)
    (x0 : Vec F S1024x2048 .bf16) (x1 : Vec F S8192x128 .bf16) (x2 : Vec F S1024x1 .f32) (x3 : Vec F S128x64 .f32) (x4 : Vec F S1x64 .f32) (xs0 : Vec F S1024x128 .f32) :
    out1_C_5 c i arg2 harg2 arg3 harg3 arg4 harg4 arg5 harg5 arg6 harg6 arg7 harg7 arg8 harg8 hc0 hc1 x0 x1 x2 x3 x4 xs0 = k1_pay3 (k1_pay2 (l1_featRows i x1) x0 xs0) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero l1_zero_off, View.readCov_unit_zero (S := S1024x128) _ l1_zero_off]
  simp only [View.readAt_eq_ld, harg2.read_unread, harg3.read_unread, harg4.read_unread, harg5.read_unread, harg6.read_unread, harg8.read_unread, View.ld_unit_zero (S := S1024x2048) l1_zero_off, View.ld_unit_zero (S := S1024x128) l1_zero_off, View.ld_unit_zero (S := S1024x1) l1_zero_off, View.ld_unit_zero (S := S128x64) l1_zero_off, View.ld_unit_zero (S := S1x64) l1_zero_off]
  rfl

/-! ## The payloads at an index, over the extended reals -/

/-- The block product's operand indices: row of the output and the contraction coordinate; the contraction coordinate and
    the output's column. -/

theorem l1_dotAgg_lhs0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem l1_dotAgg_lhs1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem l1_dotAgg_rhs0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem l1_dotAgg_rhs1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem l1_dotLin_lhs0 (i : S1024x64.Idx) (q : dot_S1024x128_S128x64_S1024x64_1_0_0_1_n_n.contr.Idx) : (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem l1_dotLin_lhs1 (i : S1024x64.Idx) (q : dot_S1024x128_S128x64_S1024x64_1_0_0_1_n_n.contr.Idx) : (dot_S1024x128_S128x64_S1024x64_1_0_0_1_n_n.lhsIdx i q 1).val = (q ⟨0, by decide⟩).val :=
  dot_S1024x128_S128x64_S1024x64_1_0_0_1_n_n.lhsIdx_val_of_single rfl i q
theorem l1_dotLin_rhs0 (i : S1024x64.Idx) (q : dot_S1024x128_S128x64_S1024x64_1_0_0_1_n_n.contr.Idx) : (dot_S1024x128_S128x64_S1024x64_1_0_0_1_n_n.rhsIdx i q 0).val = (q ⟨0, by decide⟩).val :=
  dot_S1024x128_S128x64_S1024x64_1_0_0_1_n_n.rhsIdx_val_of_single rfl i q
theorem l1_dotLin_rhs1 (i : S1024x64.Idx) (q : dot_S1024x128_S128x64_S1024x64_1_0_0_1_n_n.contr.Idx) : (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- The accumulation step as one term: what the accumulator held plus the product of the adjacency block and the feature rows
    (the shape casts are identities). -/
theorem k1_pay2_eq (v6 : Vec F S2048x128 .bf16) (v8 : Vec F S1024x2048 .bf16) (v10 : Vec F S1024x128 .f32) :
    k1_pay2 v6 v8 v10 = addf v10 (matmul dot_S1024x2048_S2048x128_S1024x128_1_0_0_1_n_n none v8 v6 (constant S1024x128 .f32 0x00000000#32)) := by
  unfold k1_pay2
  simp only [shapeCast_self]

/-- At an entry: what the accumulator held plus the sum over the block's 2048 columns. -/
theorem k1_pay2_apply (v6 : Vec Ideal S2048x128 .bf16) (v8 : Vec Ideal S1024x2048 .bf16) (v10 : Vec Ideal S1024x128 .f32) (p : Fin 1024) (j : Fin 128) :
    k1_pay2 (F := Ideal) v6 v8 v10 (ix2 p j) = v10 (ix2 p j) + ∑ kk : Fin 2048, v8 (ix2 p kk) * v6 (ix2 kk j) := by
  rw [k1_pay2_eq]
  show (v10 (ix2 p j) : EReal) + FloatOps.matmul (F := Ideal) dot_S1024x2048_S2048x128_S1024x128_1_0_0_1_n_n none v8 v6 (constant (F := Ideal) S1024x128 .f32 0x00000000#32) (ix2 p j) = _
  rw [Ideal.matmul_constant_zero_apply, ← Equiv.sum_comp (contrEquiv1 dot_S1024x2048_S2048x128_S1024x128_1_0_0_1_n_n 2048 rfl rfl).symm]
  refine congrArg (v10 (ix2 p j) + ·) (Finset.sum_congr rfl fun k _ => ?_)
  have hk := contrEquiv1_symm_val dot_S1024x2048_S2048x128_S1024x128_1_0_0_1_n_n 2048 rfl rfl k
  have el : dot_S1024x2048_S2048x128_S1024x128_1_0_0_1_n_n.lhsIdx (ix2 p j) ((contrEquiv1 dot_S1024x2048_S2048x128_S1024x128_1_0_0_1_n_n 2048 rfl rfl).symm k) = ix2 p k := funext fun a => Fin.ext (by
    match a with
    | ⟨0, _⟩ => exact l1_dotAgg_lhs0 _ _
    | ⟨1, _⟩ => exact (l1_dotAgg_lhs1 _ _).trans hk)
  have er : dot_S1024x2048_S2048x128_S1024x128_1_0_0_1_n_n.rhsIdx (ix2 p j) ((contrEquiv1 dot_S1024x2048_S2048x128_S1024x128_1_0_0_1_n_n 2048 rfl rfl).symm k) = ix2 k j := funext fun a => Fin.ext (by
    match a with
    | ⟨0, _⟩ => exact (l1_dotAgg_rhs0 _ _).trans hk
    | ⟨1, _⟩ => exact l1_dotAgg_rhs1 _ _)
  rw [el, er]

/-- The reset stores zero everywhere. -/
theorem k1_pay1_apply (y : S1024x128.Idx) : k1_pay1 (F := Ideal) y = 0 := by
  unfold k1_pay1
  simp only [shapeCast_self]
  exact Ideal.ofBits_zero_f32

/-- The epilogue as one term (the shape casts are identities). -/
theorem k1_pay3_eq (v19 : Vec F S1024x128 .f32) (v20 : Vec F S1024x1 .f32) (v25 : Vec F S128x64 .f32) (v28 : Vec F S1x64 .f32) :
    k1_pay3 v19 v20 v25 v28 = maximumf (addf (matmul dot_S1024x128_S128x64_S1024x64_1_0_0_1_n_n none (truncf .bf16 (mulf v19 (broadcastTo S1024x128 v20 broadcasts_S1024x1_S1024x128)) bitsLt_bf16_f32) (truncf .bf16 v25 bitsLt_bf16_f32) (constant S1024x64 .f32 0x00000000#32)) (broadcastTo S1024x64 v28 broadcasts_S1x64_S1024x64)) (broadcast S1024x64 (Scalar.ofBits .f32 0x00000000#32)) := by
  unfold k1_pay3
  simp only [shapeCast_self]

/-- At an entry: the row of the accumulator scaled by the row's factor, against the weights' column, plus the bias, rectified. -/
theorem k1_pay3_apply (v19 : Vec Ideal S1024x128 .f32) (v20 : Vec Ideal S1024x1 .f32) (v25 : Vec Ideal S128x64 .f32) (v28 : Vec Ideal S1x64 .f32) (p : Fin 1024) (q : Fin 64) :
    k1_pay3 (F := Ideal) v19 v20 v25 v28 (ix2 p q) = max ((∑ j : Fin 128, (v19 (ix2 p j) * v20 (ix2 p 0)) * v25 (ix2 j q)) + v28 (ix2 0 q)) (Ideal.ofBits .f32 0x00000000#32) := by
  rw [k1_pay3_eq]
  show max ((FloatOps.matmul (F := Ideal) dot_S1024x128_S128x64_S1024x64_1_0_0_1_n_n none (truncf (F := Ideal) .bf16 (mulf (F := Ideal) v19 (broadcastTo S1024x128 v20 broadcasts_S1024x1_S1024x128)) bitsLt_bf16_f32) (truncf (F := Ideal) .bf16 v25 bitsLt_bf16_f32) (constant (F := Ideal) S1024x64 .f32 0x00000000#32) (ix2 p q) : EReal) + broadcastTo S1024x64 v28 broadcasts_S1x64_S1024x64 (ix2 p q)) _ = _
  rw [Ideal.matmul_constant_zero_apply, ← Equiv.sum_comp (contrEquiv1 dot_S1024x128_S128x64_S1024x64_1_0_0_1_n_n 128 rfl rfl).symm]
  have hb : broadcastTo S1024x64 v28 broadcasts_S1x64_S1024x64 (ix2 p q) = v28 (ix2 0 q) :=
    broadcastTo_apply v28 broadcasts_S1x64_S1024x64 (ix2 p q) (ix2 0 q) (fun a => match a with | ⟨0, _⟩ => rfl | ⟨1, _⟩ => rfl)
  rw [hb]
  refine congrArg (fun s => max (s + v28 (ix2 0 q)) _) (Finset.sum_congr rfl fun k _ => ?_)
  have hk := contrEquiv1_symm_val dot_S1024x128_S128x64_S1024x64_1_0_0_1_n_n 128 rfl rfl k
  have el : dot_S1024x128_S128x64_S1024x64_1_0_0_1_n_n.lhsIdx (ix2 p q) ((contrEquiv1 dot_S1024x128_S128x64_S1024x64_1_0_0_1_n_n 128 rfl rfl).symm k) = ix2 p k := funext fun a => Fin.ext (by
    match a with
    | ⟨0, _⟩ => exact l1_dotLin_lhs0 _ _
    | ⟨1, _⟩ => exact (l1_dotLin_lhs1 _ _).trans hk)
  have er : dot_S1024x128_S128x64_S1024x64_1_0_0_1_n_n.rhsIdx (ix2 p q) ((contrEquiv1 dot_S1024x128_S128x64_S1024x64_1_0_0_1_n_n 128 rfl rfl).symm k) = ix2 k q := funext fun a => Fin.ext (by
    match a with
    | ⟨0, _⟩ => exact (l1_dotLin_rhs0 _ _).trans hk
    | ⟨1, _⟩ => exact l1_dotLin_rhs1 _ _)
  rw [el, er]
  show ((v19 (ix2 p k) : EReal) * broadcastTo S1024x128 v20 broadcasts_S1024x1_S1024x128 (ix2 p k)) * v25 (ix2 k q) = _
  rw [broadcastTo_apply v20 broadcasts_S1024x1_S1024x128 (ix2 p k) (ix2 p 0) (fun a => match a with | ⟨0, _⟩ => rfl | ⟨1, _⟩ => rfl)]

/-! ## The windows' blocks at an entry, as entries of the arrays the region finds -/

section Blocks
variable (V : (c : Dev nD) → (b : Ref sig .tc) → Buf (Elt F) ((c : Thread nD τ).loc b))

/-- The block index maps over the grid, in closed form: the point `t` is (row block `t / 4`, column block `t % 4`). -/
theorem idx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = t.val / 4 ∧ win1_2.index t 1 = 0 :=
  (by decide +kernel : ∀ t : Fin grid1.N, win1_2.index t 0 = t.val / 4 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = t.val / 4 ∧ win1_5.index t 1 = 0 :=
  (by decide +kernel : ∀ t : Fin grid1.N, win1_5.index t 0 = t.val / 4 ∧ win1_5.index t 1 = 0)
/-- The row offset of the feature rows a point loads: 2048 times its column block. -/
theorem off1_rows : ∀ t : Fin cfg1.N, k1_off1 (grid1.coords t) 0 = 2048 * (t.val % 4) ∧ k1_off1 (grid1.coords t) 1 = 0 :=
  (by decide +kernel : ∀ t : Fin grid1.N, k1_off1 (grid1.coords t) 0 = 2048 * (t.val % 4) ∧ k1_off1 (grid1.coords t) 1 = 0)

/-- The adjacency block at point `t`: rows `1024 (t / 4) + p`, columns `2048 (t % 4) + kk`. -/
theorem iblk1_0_apply (c : Dev nD) (t : Fin cfg1.N) (p : Fin 1024) (kk : Fin 2048) (i k : Fin 8192)
    (hi : i.val = 1024 * (t.val / 4) + p.val) (hk : k.val = 2048 * (t.val % 4) + kk.val) :
    (iblk1 V c 0 t : Vec F S1024x2048 .bf16) (ix2 p kk) = V c main_v0_1 (ix2 i k) := by
  have hx := idx1_0 t
  unfold iblk1
  rw [View.read_apply]
  show V c main_v0_1 _ = V c main_v0_1 _
  congr 1
  funext a
  apply Fin.ext
  match a with
  | ⟨0, _⟩ => show win1_0.index t 0 * 1024 + 1 * p.val = i.val; rw [hx.1, hi]; omega
  | ⟨1, _⟩ => show win1_0.index t 1 * 2048 + 1 * kk.val = k.val; rw [hx.2, hk]; omega

/-- The resident feature matrix is the whole array. -/
theorem iblk1_1_apply (c : Dev nD) (t : Fin cfg1.N) (k : Fin 8192) (j : Fin 128) :
    (iblk1 V c 1 t : Vec F S8192x128 .bf16) (ix2 k j) = V c main_v3 (ix2 k j) := by
  have hx := idx1_1 t
  unfold iblk1
  rw [View.read_apply]
  show V c main_v3 _ = V c main_v3 _
  congr 1
  funext a
  apply Fin.ext
  match a with
  | ⟨0, _⟩ => show win1_1.index t 0 * 8192 + 1 * k.val = k.val; rw [hx.1]; omega
  | ⟨1, _⟩ => show win1_1.index t 1 * 128 + 1 * j.val = j.val; rw [hx.2]; omega

/-- The rows of it a point loads: row `2048 (t % 4) + kk`. -/
theorem l1_featRows_apply (t : Fin cfg1.N) (x1 : Vec F S8192x128 .bf16) (kk : Fin 2048) (j : Fin 128) (k : Fin 8192)
    (hk : k.val = 2048 * (t.val % 4) + kk.val) :
    l1_featRows (grid1.coords t) x1 (ix2 kk j) = x1 (ix2 k j) := by
  have hx := off1_rows t
  show x1 _ = x1 _
  congr 1
  funext a
  apply Fin.ext
  match a with
  | ⟨0, _⟩ => show k1_off1 (grid1.coords t) 0 + 1 * kk.val = k.val; rw [hx.1, hk]; omega
  | ⟨1, _⟩ => show k1_off1 (grid1.coords t) 1 + 1 * j.val = j.val; rw [hx.2]; omega

/-- The row-scale block at point `t`: rows `1024 (t / 4) + p`. -/
theorem iblk1_2_apply (c : Dev nD) (t : Fin cfg1.N) (p : Fin 1024) (i : Fin 8192) (hi : i.val = 1024 * (t.val / 4) + p.val) :
    (iblk1 V c 2 t : Vec F S1024x1 .f32) (ix2 p 0) = V c main_v0_0 (ix2 i 0) := by
  have hx := idx1_2 t
  unfold iblk1
  rw [View.read_apply]
  show V c main_v0_0 _ = V c main_v0_0 _
  congr 1
  funext a
  apply Fin.ext
  match a with
  | ⟨0, _⟩ => show win1_2.index t 0 * 1024 + 1 * p.val = i.val; rw [hx.1, hi]; omega
  | ⟨1, _⟩ => show win1_2.index t 1 * 1 + 1 * 0 = 0; rw [hx.2]

/-- The weights are the whole array. -/
theorem iblk1_3_apply (c : Dev nD) (t : Fin cfg1.N) (j : Fin 128) (q : Fin 64) :
    (iblk1 V c 3 t : Vec F S128x64 .f32) (ix2 j q) = V c main_arg2 (ix2 j q) := by
  have hx := idx1_3 t
  unfold iblk1
  rw [View.read_apply]
  show V c main_arg2 _ = V c main_arg2 _
  congr 1
  funext a
  apply Fin.ext
  match a with
  | ⟨0, _⟩ => show win1_3.index t 0 * 128 + 1 * j.val = j.val; rw [hx.1]; omega
  | ⟨1, _⟩ => show win1_3.index t 1 * 64 + 1 * q.val = q.val; rw [hx.2]; omega

/-- The bias row is the whole array. -/
theorem iblk1_4_apply (c : Dev nD) (t : Fin cfg1.N) (q : Fin 64) :
    (iblk1 V c 4 t : Vec F S1x64 .f32) (ix2 0 q) = V c main_v4 (ix2 0 q) := by
  have hx := idx1_4 t
  unfold iblk1
  rw [View.read_apply]
  show V c main_v4 _ = V c main_v4 _
  congr 1
  funext a
  apply Fin.ext
  match a with
  | ⟨0, _⟩ => show win1_4.index t 0 * 1 + 1 * 0 = 0; rw [hx.1]
  | ⟨1, _⟩ => show win1_4.index t 1 * 64 + 1 * q.val = q.val; rw [hx.2]; omega

end Blocks

/-! ## The accumulation over a row block's four column blocks, and the result -/

section Value
variable (V : (c : Dev nD) → (b : Ref sig .tc) → Buf (Elt Ideal) ((c : Thread nD τ).loc b))

/-- Row `1024 r + p` of the arrays with 8192 rows: row `p` of row block `r`. -/
abbrev l1_rowIx (r : ℕ) (hr : r < 8) (p : Fin 1024) : Fin 8192 := ⟨1024 * r + p.val, by have := p.isLt; omega⟩

/-- The adjacency matrix the region finds, as a function of plain indices; `l1_aggTerm`: the products the aggregation sums at
    row `i`, feature `j` — adjacency entry times pre-scaled feature entry. -/
abbrev l1_adj (c : Dev nD) : Fin 8192 → Fin 8192 → EReal := fun i k => V c main_v0_1 (ix2 i k)
/-- The pre-scaled features, the row scales, the weights and the bias the region finds, as functions of plain indices. -/
abbrev l1_feat (c : Dev nD) : Fin 8192 → Fin 128 → EReal := fun k j => V c main_v3 (ix2 k j)
abbrev l1_scale (c : Dev nD) : Fin 8192 → EReal := fun i => V c main_v0_0 (ix2 i 0)
abbrev l1_wt (c : Dev nD) : Fin 128 → Fin 64 → EReal := fun j q => V c main_arg2 (ix2 j q)
abbrev l1_bias (c : Dev nD) : Fin 64 → EReal := fun q => V c main_v4 (ix2 0 q)
abbrev l1_aggTerm (c : Dev nD) (i : Fin 8192) (j : Fin 128) (k : Fin 8192) : EReal :=
  l1_adj V c i k * l1_feat V c k j

/-- One point's step at point `n = 4 r + kb`: the accumulator's entry plus column block `kb`'s sum of the products. -/
theorem l1_step_apply (c : Dev nD) (r : ℕ) (hr : r < 8) (kb : ℕ) (hk : kb < 4) (n : ℕ) (hn : n < cfg1.N) (e : n = 4 * r + kb)
    (acc : Vec Ideal S1024x128 .f32) (p : Fin 1024) (j : Fin 128) :
    k1_pay2 (F := Ideal) (l1_featRows (grid1.coords ⟨n, hn⟩) (iblk1 V c 1 ⟨n, hn⟩)) (iblk1 V c 0 ⟨n, hn⟩) acc (ix2 p j)
      = acc (ix2 p j) + Cert.LibBlockSum.blockSum (l1_aggTerm V c (l1_rowIx r hr p) j) ⟨kb, hk⟩ := by
  refine (k1_pay2_apply (l1_featRows (grid1.coords ⟨n, hn⟩) (iblk1 V c 1 ⟨n, hn⟩)) (iblk1 V c 0 ⟨n, hn⟩) acc p j).trans ?_
  refine congrArg (acc (ix2 p j) + ·) (Finset.sum_congr rfl fun kk _ => ?_)
  have hkk : kk.val < 2048 := kk.isLt
  have hp : p.val < 1024 := p.isLt
  show _ = l1_adj V c (l1_rowIx r hr p) (⟨kb * 2048 + kk.val, by omega⟩ : Fin 8192) * l1_feat V c (⟨kb * 2048 + kk.val, by omega⟩ : Fin 8192) j
  rw [iblk1_0_apply V c ⟨n, hn⟩ p kk (l1_rowIx r hr p) ⟨kb * 2048 + kk.val, by omega⟩ (by show 1024 * r + p.val = 1024 * (n / 4) + p.val; omega) (by show kb * 2048 + kk.val = 2048 * (n % 4) + kk.val; omega),
    l1_featRows_apply ⟨n, hn⟩ (iblk1 V c 1 ⟨n, hn⟩) kk j ⟨kb * 2048 + kk.val, by omega⟩ (by show kb * 2048 + kk.val = 2048 * (n % 4) + kk.val; omega),
    iblk1_1_apply V c ⟨n, hn⟩ ⟨kb * 2048 + kk.val, by omega⟩ j]

/-- After the first column block's point the accumulator holds zero plus that block's sum. -/
theorem l1_acc_reset (c : Dev nD) (r : ℕ) (hr : r < 8) (n : ℕ) (hn : n < cfg1.N) (e : n = 4 * r) (p : Fin 1024) (j : Fin 128) :
    (outsAt1 V c n hn).2 (ix2 p j) = 0 + Cert.LibBlockSum.blockSum (l1_aggTerm V c (l1_rowIx r hr p) j) ⟨0, by omega⟩ := by
  have e' : outsAt1 V c n hn = _ := outsAt1_A V c ⟨n, hn⟩ (by show n % 4 = 0; omega) (by show ¬ n % 4 = 3; omega)
  rw [e']
  dsimp only
  rw [sout1_A_0_eq]
  refine (l1_step_apply V c r hr 0 (by omega) n hn (by omega) (k1_pay1 (F := Ideal)) p j).trans ?_
  rw [k1_pay1_apply]

/-- After a middle column block's point it holds what the point before left plus that block's sum. -/
theorem l1_acc_step (c : Dev nD) (r : ℕ) (hr : r < 8) (kb : ℕ) (hk : kb < 4) (hk1 : kb = 1 ∨ kb = 2) (n : ℕ) (hn : n + 1 < cfg1.N) (e : n + 1 = 4 * r + kb)
    (p : Fin 1024) (j : Fin 128) :
    (outsAt1 V c (n + 1) hn).2 (ix2 p j) = (outsAt1 V c n (Nat.lt_of_succ_lt hn)).2 (ix2 p j) + Cert.LibBlockSum.blockSum (l1_aggTerm V c (l1_rowIx r hr p) j) ⟨kb, hk⟩ := by
  have e' : outsAt1 V c (n + 1) hn = _ := outsAt1_B V c ⟨n + 1, hn⟩ (by show ¬ (n + 1) % 4 = 0; omega) (by show ¬ (n + 1) % 4 = 3; omega)
  rw [e']
  dsimp only
  rw [sout1_B_0_eq]
  exact l1_step_apply V c r hr kb hk (n + 1) hn e _ p j

/-- So before the last column block's point it holds the first three blocks' sums added in order. -/
theorem l1_acc_three (c : Dev nD) (r : ℕ) (hr : r < 8) (h2 : 4 * r + 2 < cfg1.N) (p : Fin 1024) (j : Fin 128) :
    (outsAt1 V c (4 * r + 2) h2).2 (ix2 p j)
      = ((0 + Cert.LibBlockSum.blockSum (l1_aggTerm V c (l1_rowIx r hr p) j) 0) + Cert.LibBlockSum.blockSum (l1_aggTerm V c (l1_rowIx r hr p) j) 1)
          + Cert.LibBlockSum.blockSum (l1_aggTerm V c (l1_rowIx r hr p) j) 2 := by
  have hN : cfg1.N = 32 := N_1
  have s2 : (outsAt1 V c (4 * r + 2) h2).2 (ix2 p j) = (outsAt1 V c (4 * r + 1) (by omega)).2 (ix2 p j) + Cert.LibBlockSum.blockSum (l1_aggTerm V c (l1_rowIx r hr p) j) 2 :=
    l1_acc_step V c r hr 2 (by omega) (Or.inr rfl) (4 * r + 1) h2 rfl p j
  have s1 : (outsAt1 V c (4 * r + 1) (by omega)).2 (ix2 p j) = (outsAt1 V c (4 * r) (by omega)).2 (ix2 p j) + Cert.LibBlockSum.blockSum (l1_aggTerm V c (l1_rowIx r hr p) j) 1 :=
    l1_acc_step V c r hr 1 (by omega) (Or.inl rfl) (4 * r) (by omega) rfl p j
  have s0 : (outsAt1 V c (4 * r) (by omega)).2 (ix2 p j) = 0 + Cert.LibBlockSum.blockSum (l1_aggTerm V c (l1_rowIx r hr p) j) 0 :=
    l1_acc_reset V c r hr (4 * r) (by omega) rfl p j
  rw [s2, s1, s0]

/-- The output block's entry after the last column block's point of row block `r`: the whole aggregation row scaled by the
    row's factor, against the weights' column, plus the bias, rectified. -/
theorem l1_out_last (c : Dev nD) (r : ℕ) (hr : r < 8) (h3 : 4 * r + 3 < cfg1.N) (y : S1024x64.Idx) :
    (outsAt1 V c (4 * r + 3) h3).1 y
      = max ((∑ j : Fin 128, ((∑ k : Fin 8192, l1_aggTerm V c (l1_rowIx r hr (y 0)) j k) * l1_scale V c (l1_rowIx r hr (y 0))) * l1_wt V c j (y 1)) + l1_bias V c (y 1)) (Ideal.ofBits .f32 0x00000000#32) := by
  have hN : cfg1.N = 32 := N_1
  obtain ⟨p, q, rfl⟩ : ∃ (p : Fin 1024) (q : Fin 64), y = ix2 p q := ⟨y 0, y 1, eq_ix2 y⟩
  show (outsAt1 V c (4 * r + 3) h3).1 (ix2 p q) = max ((∑ j : Fin 128, ((∑ k : Fin 8192, l1_aggTerm V c (l1_rowIx r hr p) j k) * l1_scale V c (l1_rowIx r hr p)) * l1_wt V c j q) + l1_bias V c q) (Ideal.ofBits .f32 0x00000000#32)
  have e' : outsAt1 V c (4 * r + 3) h3 = _ := outsAt1_C V c ⟨4 * r + 3, h3⟩ (by show ¬ (4 * r + 3) % 4 = 0; omega) (by show (4 * r + 3) % 4 = 3; omega)
  rw [e']
  dsimp only
  rw [out1_C_5_eq]
  refine (k1_pay3_apply _ _ _ _ p q).trans ?_
  have hacc : ∀ j : Fin 128, k1_pay2 (F := Ideal) (l1_featRows (grid1.coords ⟨4 * r + 3, h3⟩) (iblk1 V c 1 ⟨4 * r + 3, h3⟩)) (iblk1 V c 0 ⟨4 * r + 3, h3⟩) (outsAt1 V c (4 * r + 2) (by omega)).2 (ix2 p j)
      = ∑ k : Fin 8192, l1_aggTerm V c (l1_rowIx r hr p) j k := fun j => by
    rw [l1_step_apply V c r hr 3 (by omega) (4 * r + 3) h3 rfl, l1_acc_three V c r hr (by omega) p j]
    exact (Cert.LibBlockSum.run4_8192 (0 : EReal) (l1_aggTerm V c (l1_rowIx r hr p) j)).trans (zero_add _)
  refine congrArg₂ max (congrArg₂ (· + ·) (Finset.sum_congr rfl fun j _ => ?_) (iblk1_4_apply V c ⟨4 * r + 3, h3⟩ q)) rfl
  exact congrArg₂ (· * ·) (congrArg₂ (· * ·) (hacc j) (iblk1_2_apply V c ⟨4 * r + 3, h3⟩ p (l1_rowIx r hr p) (by show 1024 * r + p.val = 1024 * ((4 * r + 3) / 4) + p.val; omega))) (iblk1_3_apply V c ⟨4 * r + 3, h3⟩ j q)

/-- The region's result as one function of the arrays it finds, entry by entry. -/
abbrev l1_result (c : Dev nD) : S8192x64.Idx → EReal := fun y =>
  max (Cert.Spec.lin (Cert.Spec.aggPre (fun i k => V c main_v0_1 (ix2 i k)) (fun k j => V c main_v3 (ix2 k j)) (fun i => V c main_v0_0 (ix2 i 0)))
    (fun j q => V c main_arg2 (ix2 j q)) (fun q => V c main_v4 (ix2 0 q)) (y 0) (y 1)) Cert.Spec.zero

/-- What a point of the last column block writes back is its row block of the result. -/
theorem l1_flushed_eq (c : Dev nD) (t : Fin cfg1.N) (hf : (cfg1.win 5).flush t = true) :
    (dat1 (F := Ideal) V c).flushed 5 t = ((cfg1.win 5).blk t).view.read (Elt Ideal) (l1_result V c) := by
  have hN : cfg1.N = 32 := N_1
  have h3 : t.val % 4 = 3 := (flush1_5 t).mp hf
  show (cfg1.win 5).cut (grid1.coords t) ((dat1 V c).after 5 t) = _
  rw [after1_5]
  obtain ⟨n, hn⟩ := t
  obtain ⟨r, hr, rfl⟩ : ∃ r, r < 8 ∧ n = 4 * r + 3 := ⟨n / 4, by omega, by (try dsimp only at h3); omega⟩
  funext y
  show (outsAt1 V c (4 * r + 3) hn).1 y = l1_result V c (((cfg1.win 5).blk ⟨4 * r + 3, hn⟩).view.emb y)
  refine (l1_out_last V c r hr hn y).trans ?_
  have hx0 : win1_5.index ⟨4 * r + 3, hn⟩ 0 = (4 * r + 3) / 4 := (idx1_5 ⟨4 * r + 3, hn⟩).1
  have hx1 : win1_5.index ⟨4 * r + 3, hn⟩ 1 = 0 := (idx1_5 ⟨4 * r + 3, hn⟩).2
  have hy0 : (y 0).val < 1024 := (y 0).isLt
  have e0 : ((cfg1.win 5).blk ⟨4 * r + 3, hn⟩).view.emb y 0 = l1_rowIx r hr (y 0) := Fin.ext (by
    show win1_5.index ⟨4 * r + 3, hn⟩ 0 * 1024 + 1 * (y 0).val = 1024 * r + (y 0).val; rw [hx0]; omega)
  have e1 : ((cfg1.win 5).blk ⟨4 * r + 3, hn⟩).view.emb y 1 = y 1 := Fin.ext (by
    show win1_5.index ⟨4 * r + 3, hn⟩ 1 * 64 + 1 * (y 1).val = (y 1).val; rw [hx1]; omega)
  show _ = max (Cert.Spec.lin (Cert.Spec.aggPre (fun i k => V c main_v0_1 (ix2 i k)) (fun k j => V c main_v3 (ix2 k j)) (fun i => V c main_v0_0 (ix2 i 0)))
    (fun j q => V c main_arg2 (ix2 j q)) (fun q => V c main_v4 (ix2 0 q)) (((cfg1.win 5).blk ⟨4 * r + 3, hn⟩).view.emb y 0) (((cfg1.win 5).blk ⟨4 * r + 3, hn⟩).view.emb y 1)) Cert.Spec.zero
  rw [e0, e1]
  rfl

/-- An index of the result array is in point `t`'s block iff each coordinate is in the block's range on its axis. -/
theorem l1_mem_blk (t : Fin cfg1.N) (i : S8192x64.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v5).slice (win1_5.rect t)).set ↔ _
  rw [View.set_slice_whole, Rect.mem_set_unit]
  exact Iff.rfl

/-- Every entry of the result array is in the block some point of the last column block writes back: row `i`'s is
    the point `4 (i / 1024) + 3`. -/
theorem l1_cover (i : S8192x64.Idx) : ∃ t : Fin cfg1.N, (cfg1.win 5).flush t = true ∧ i ∈ ((cfg1.win 5).blk t).view.set := by
  have hN : cfg1.N = 32 := N_1
  have h0 : (i 0).val < 8192 := (i 0).isLt
  have h1 : (i 1).val < 64 := (i 1).isLt
  have hlt : 4 * ((i 0).val / 1024) + 3 < cfg1.N := by omega
  refine ⟨⟨4 * ((i 0).val / 1024) + 3, hlt⟩, (flush1_5 _).mpr (by show (4 * ((i 0).val / 1024) + 3) % 4 = 3; omega), ?_⟩
  have hx0 : win1_5.index ⟨4 * ((i 0).val / 1024) + 3, hlt⟩ 0 = (4 * ((i 0).val / 1024) + 3) / 4 := (idx1_5 ⟨_, hlt⟩).1
  have hx1 : win1_5.index ⟨4 * ((i 0).val / 1024) + 3, hlt⟩ 1 = 0 := (idx1_5 ⟨_, hlt⟩).2
  rw [l1_mem_blk]
  intro a
  match a with
  | ⟨0, _⟩ => show win1_5.index ⟨4 * ((i 0).val / 1024) + 3, hlt⟩ 0 * 1024 ≤ (i 0).val ∧ (i 0).val < win1_5.index ⟨4 * ((i 0).val / 1024) + 3, hlt⟩ 0 * 1024 + 1024; rw [hx0]; omega
  | ⟨1, _⟩ => show win1_5.index ⟨4 * ((i 0).val / 1024) + 3, hlt⟩ 1 * 64 ≤ (i 1).val ∧ (i 1).val < win1_5.index ⟨4 * ((i 0).val / 1024) + 3, hlt⟩ 1 * 64 + 64; rw [hx1]; omega

/-- So the result array ends holding the result function. -/
theorem l1_final (c : Dev nD) : (dat1 (F := Ideal) V c).arrAt 5 cfg1.N = l1_result V c :=
  (dat1 (F := Ideal) V c).arrAt_eq_of_cover 5 (l1_result V c) (l1_flushed_eq V c) l1_cover

/-- THE VALUE of the first layer's region: every entry of its result array is the rectified affine map of the aggregated,
    pre-scaled features — the aggregation summed over all 8192 columns, whatever the order the four column blocks were added in. -/
theorem layer1_value (c : Dev nD) (i : Fin 8192) (q : Fin 64) :
    (dat1 (F := Ideal) V c).arrAt 5 cfg1.N (ix2 i q) =
      max (Cert.Spec.lin (Cert.Spec.aggPre (fun i k => V c main_v0_1 (ix2 i k)) (fun k j => V c main_v3 (ix2 k j)) (fun i => V c main_v0_0 (ix2 i 0)))
        (fun j q => V c main_arg2 (ix2 j q)) (fun q => V c main_v4 (ix2 0 q)) i q) Cert.Spec.zero :=
  congrFun (l1_final V c) (ix2 i q)

end Value

end Cert.KernelIdeal.Hand

end
-- ==== Proof.KernelIdeal.Layer2Value.lean ====
/- The VALUE of the second graph-convolution layer's region at the extended reals: what its output array holds, entry by
   entry, after the region's last grid point, read off the buffers as the region finds them.

   Row block `i` of the output is computed over four grid points, one per block of 2048 adjacency columns: the first
   stores zero in the accumulator and adds the first block's product, the next two add theirs, the last adds its own and
   then maps the completed aggregation — scaled row by row — through the weights and the bias. Over the extended reals
   each matrix product into a zero accumulator is a row-times-column sum, so the accumulator after the fourth point is
   `((0 + B₀) + B₁ + B₂) + B₃` of the four blocks' sums, which regroups to the sum over all 8192 source rows; the
   narrowing of the products' operands is the identity there. Each write-back writes the block of the resulting
   function that the point's rows name, and those blocks cover the array. -/
import proofs.«103316_j15479062135163_2_alg».proof.Proof.KernelIdeal.Layer2
import proofs.«103316_j15479062135163_2_alg».proof.Proof.Spec
import proofs.«103316_j15479062135163_2_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

/-! ## What each case's found pieces are, as the body's arithmetic over the blocks -/

theorem hz2 : (![0, 0] : Fin 2 → Nat) = fun _ => 0 := funext fun a => by fin_cases a <;> rfl

/-- A middle point leaves in the accumulator what it held plus the product of the adjacency block with the 2048 feature
    rows of the point's column block. -/
theorem sout2_B_eq (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : ¬cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) :
    sout2_B_0 c i arg2 harg2 arg3 harg3 arg4 harg4 arg5 harg5 arg6 harg6 arg7 harg7 arg8 harg8 hc0 hc1 x0 x1 x2 x3 x4 xs0 = k2_pay2 (View.ld x1 (Rect.unit (k2_off1 i) S2048x64.size (k2_off1_inb i))) x0 xs0 := by
  unfold sout2_B_0
  rw [View.read_writes_eq_canon _ _ _ (scover2_B_0 c i arg2 harg2 arg3 harg3 arg4 harg4 arg5 harg5 arg6 harg6 arg7 harg7 arg8 harg8 hc0 hc1 x0 x1 x2 x3 x4 xs0)]
  unfold kernelRun2_B
  dsimp only
  rw [View.canon_unit_zero hz2]
  simp only [View.readAt_eq_ld, harg2.read_unread, harg3.read_unread, harg8.read_unread,
    View.ld_unit_zero (S := S1024x2048) hz2, View.ld_unit_zero (S := S1024x64) hz2]

/-- The last point of a row block leaves the same in the accumulator, -/
theorem sout2_C_eq (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) :
    sout2_C_0 c i arg2 harg2 arg3 harg3 arg4 harg4 arg5 harg5 arg6 harg6 arg7 harg7 arg8 harg8 hc0 hc1 x0 x1 x2 x3 x4 xs0 = k2_pay2 (View.ld x1 (Rect.unit (k2_off1 i) S2048x64.size (k2_off1_inb i))) x0 xs0 := by
  unfold sout2_C_0
  rw [View.read_writes_eq_canon _ _ _ (scover2_C_0 c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero (S := S1024x64) hz2]
  simp only [View.readAt_eq_ld, harg2.read_unread, harg3.read_unread, harg8.read_unread,
    View.ld_unit_zero (S := S1024x2048) hz2, View.ld_unit_zero (S := S1024x64) hz2]

/-- and in the output block the affine map of the scaled accumulator it has just completed. -/
theorem out2_C_eq (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : ¬cond2_0 i) (hc1 : cond2_1 i)
    (x0 : Vec F S1024x2048 .bf16) (x1 : Vec F S8192x64 .bf16) (x2 : Vec F S1024x1 .f32) (x3 : Vec F S64x2 .f32) (x4 : Vec F S1x2 .f32) (xs0 : Vec F S1024x64 .f32) :
    out2_C_5 c i arg2 harg2 arg3 harg3 arg4 harg4 arg5 harg5 arg6 harg6 arg7 harg7 arg8 harg8 hc0 hc1 x0 x1 x2 x3 x4 xs0 = k2_pay3 (k2_pay2 (View.ld x1 (Rect.unit (k2_off1 i) S2048x64.size (k2_off1_inb i))) x0 xs0) x2 x3 x4 := by
  unfold out2_C_5
  rw [View.read_writes_eq_canon _ _ _ (cover2_C_5 c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero (S := S1024x2) hz2, View.readCov_unit_zero (S := S1024x64) _ hz2]
  simp only [View.readAt_eq_ld, harg2.read_unread, harg3.read_unread, harg4.read_unread, harg5.read_unread, harg6.read_unread,
    harg8.read_unread, View.ld_unit_zero (S := S1024x2048) hz2, View.ld_unit_zero (S := S1024x64) hz2,
    View.ld_unit_zero (S := S1024x1) hz2, View.ld_unit_zero (S := S64x2) hz2, View.ld_unit_zero (S := S1x2) hz2]

/-- The first point of a row block leaves the first product over the zero the reset stored. -/
theorem sout2_A_eq (c : Dev nD) (i : grid2.Coords) (arg2 : Memref sig .tc .vmem S1024x2048 .bf16) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S64x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x64 .f32) (harg8 : arg8.IsWhole) (hc0 : cond2_0 i) (hc1 : ¬cond2_1 i)
    (x0 : Vec F S1024x2048 .bf16) (x1 : Vec F S8192x64 .bf16) (x2 : Vec F S1024x1 .f32) (x3 : Vec F S64x2 .f32) (x4 : Vec F S1x2 .f32) :
    sout2_A_0 c i arg2 harg2 arg3 harg3 arg4 harg4 arg5 harg5 arg6 harg6 arg7 harg7 arg8 harg8 hc0 hc1 x0 x1 x2 x3 x4 = k2_pay2 (View.ld x1 (Rect.unit (k2_off1 i) S2048x64.size (k2_off1_inb i))) x0 (k2_pay1 (F := F)) := by
  unfold sout2_A_0
  rw [View.read_writes_eq_canon _ _ _ (scover2_A_0 c i arg2 harg2 arg3 harg3 arg4 harg4 arg5 harg5 arg6 harg6 arg7 harg7 arg8 harg8 hc0 hc1 x0 x1 x2 x3 x4)]
  unfold kernelRun2_A
  dsimp only
  sl_unfold_words
  rw [View.canon_cons_unit_zero (S := S1024x64) hz2, View.readCov_unit_zero (S := S1024x64) _ hz2]
  simp only [View.readAt_eq_ld, harg2.read_unread, harg3.read_unread, View.ld_unit_zero (S := S1024x2048) hz2]

/-! ## The body's arithmetic at an index, over the extended reals -/

/-- The reset stores zero. -/
theorem k2_pay1_apply (y : S1024x64.Idx) : k2_pay1 (F := Ideal) y = 0 := by
  unfold k2_pay1
  simp only [shapeCast_self]
  exact Ideal.ofBits_zero_f32

theorem agg2_lhs_0 (y : S1024x64.Idx) (q : dot_S1024x2048_S2048x64_S1024x64_1_0_0_1_n_n.contr.Idx) : (dot_S1024x2048_S2048x64_S1024x64_1_0_0_1_n_n.lhsIdx y q 0).val = (y 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem agg2_rhs_1 (y : S1024x64.Idx) (q : dot_S1024x2048_S2048x64_S1024x64_1_0_0_1_n_n.contr.Idx) : (dot_S1024x2048_S2048x64_S1024x64_1_0_0_1_n_n.rhsIdx y q 1).val = (y 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The aggregation's matrix product into a zero accumulator, at an entry: row times column over the 2048 positions. -/
theorem agg2_mm_apply (lhs : FVec Ideal S1024x2048 .bf16) (rhs : FVec Ideal S2048x64 .bf16) (r : Fin 1024) (j : Fin 64) :
    FloatOps.matmul dot_S1024x2048_S2048x64_S1024x64_1_0_0_1_n_n none lhs rhs (constant (F := Ideal) S1024x64 .f32 0x00000000#32) (ix2 r j)
      = ∑ l : Fin 2048, lhs (ix2 r l) * rhs (ix2 l j) := by
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r j) ((contrEquiv1 dot_S1024x2048_S2048x64_S1024x64_1_0_0_1_n_n 2048 rfl rfl).symm k) = ix2 r k := funext fun a => Fin.ext (by
    match a with
    | ⟨0, _⟩ => exact agg2_lhs_0 _ _
    | ⟨1, _⟩ => exact (dot_S1024x2048_S2048x64_S1024x64_1_0_0_1_n_n.lhsIdx_val_of_single rfl _ _).trans hk)
  have er : dot_S1024x2048_S2048x64_S1024x64_1_0_0_1_n_n.rhsIdx (ix2 r j) ((contrEquiv1 dot_S1024x2048_S2048x64_S1024x64_1_0_0_1_n_n 2048 rfl rfl).symm k) = ix2 k j := funext fun a => Fin.ext (by
    match a with
    | ⟨0, _⟩ => exact (dot_S1024x2048_S2048x64_S1024x64_1_0_0_1_n_n.rhsIdx_val_of_single rfl _ _).trans hk
    | ⟨1, _⟩ => exact agg2_rhs_1 _ _)
  rw [el, er]

/-- One accumulation step at an entry: what the accumulator held plus the block's row-times-column sum. -/
theorem k2_pay2_apply (v6 : Vec Ideal S2048x64 .bf16) (v8 : Vec Ideal S1024x2048 .bf16) (v10 : Vec Ideal S1024x64 .f32)
    (r : Fin 1024) (j : Fin 64) :
    k2_pay2 v6 v8 v10 (ix2 r j) = v10 (ix2 r j) + ∑ l : Fin 2048, v8 (ix2 r l) * v6 (ix2 l j) := by
  unfold k2_pay2
  simp only [shapeCast_self]
  exact congrArg (v10 (ix2 r j) + ·) (agg2_mm_apply v8 v6 r j)

theorem lin2_lhs_0 (y : S1024x2.Idx) (q : dot_S1024x64_S64x2_S1024x2_1_0_0_1_n_n.contr.Idx) : (dot_S1024x64_S64x2_S1024x2_1_0_0_1_n_n.lhsIdx y q 0).val = (y 0).val := by
  unfold DotDims.lhsIdx
  rw [dif_neg (show ¬(0 : Fin S1024x64.rank) ∈ dot_S1024x64_S64x2_S1024x2_1_0_0_1_n_n.lhsBatch by decide), dif_pos (show (0 : Fin S1024x64.rank) ∈ dot_S1024x64_S64x2_S1024x2_1_0_0_1_n_n.lhsNonContracting by decide)]
  rfl
theorem lin2_rhs_1 (y : S1024x2.Idx) (q : dot_S1024x64_S64x2_S1024x2_1_0_0_1_n_n.contr.Idx) : (dot_S1024x64_S64x2_S1024x2_1_0_0_1_n_n.rhsIdx y q 1).val = (y 1).val := by
  unfold DotDims.rhsIdx
  rw [dif_neg (show ¬(1 : Fin S64x2.rank) ∈ dot_S1024x64_S64x2_S1024x2_1_0_0_1_n_n.rhsBatch by decide), dif_pos (show (1 : Fin S64x2.rank) ∈ dot_S1024x64_S64x2_S1024x2_1_0_0_1_n_n.rhsNonContracting by decide)]
  rfl

/-- The affine map's matrix product into a zero accumulator, at an entry: row times column over the 64 features. -/
theorem lin2_mm_apply (lhs : FVec Ideal S1024x64 .bf16) (rhs : FVec Ideal S64x2 .bf16) (r : Fin 1024) (q : Fin 2) :
    FloatOps.matmul dot_S1024x64_S64x2_S1024x2_1_0_0_1_n_n none lhs rhs (constant (F := Ideal) S1024x2 .f32 0x00000000#32) (ix2 r q)
      = ∑ j : Fin 64, lhs (ix2 r j) * rhs (ix2 j q) := by
  rw [Ideal.matmul_constant_zero_apply, ← Equiv.sum_comp (contrEquiv1 dot_S1024x64_S64x2_S1024x2_1_0_0_1_n_n 64 rfl rfl).symm]
  refine Finset.sum_congr rfl fun k _ => ?_
  have hk := contrEquiv1_symm_val dot_S1024x64_S64x2_S1024x2_1_0_0_1_n_n 64 rfl rfl k
  have el : dot_S1024x64_S64x2_S1024x2_1_0_0_1_n_n.lhsIdx (ix2 r q) ((contrEquiv1 dot_S1024x64_S64x2_S1024x2_1_0_0_1_n_n 64 rfl rfl).symm k) = ix2 r k := funext fun a => Fin.ext (by
    match a with
    | ⟨0, _⟩ => exact lin2_lhs_0 _ _
    | ⟨1, _⟩ => exact (dot_S1024x64_S64x2_S1024x2_1_0_0_1_n_n.lhsIdx_val_of_single rfl _ _).trans hk)
  have er : dot_S1024x64_S64x2_S1024x2_1_0_0_1_n_n.rhsIdx (ix2 r q) ((contrEquiv1 dot_S1024x64_S64x2_S1024x2_1_0_0_1_n_n 64 rfl rfl).symm k) = ix2 k q := funext fun a => Fin.ext (by
    match a with
    | ⟨0, _⟩ => exact (dot_S1024x64_S64x2_S1024x2_1_0_0_1_n_n.rhsIdx_val_of_single rfl _ _).trans hk
    | ⟨1, _⟩ => exact lin2_rhs_1 _ _)
  rw [el, er]

/-- The epilogue at an entry: the accumulator's row scaled by the row's factor, times the weights' column, plus the bias. -/
theorem k2_pay3_apply (v19 : Vec Ideal S1024x64 .f32) (v20 : Vec Ideal S1024x1 .f32) (v25 : Vec Ideal S64x2 .f32) (v28 : Vec Ideal S1x2 .f32)
    (r : Fin 1024) (q : Fin 2) :
    k2_pay3 v19 v20 v25 v28 (ix2 r q)
      = (∑ j : Fin 64, (v19 (ix2 r j) * v20 (ix2 r (0 : Fin 1))) * v25 (ix2 j q)) + v28 (ix2 (0 : Fin 1) q) := by
  unfold k2_pay3
  simp only [shapeCast_self]
  refine (addf_apply _ _ _).trans (congrArg₂ (· + ·) ?_ ?_)
  · refine (lin2_mm_apply _ _ r q).trans (Finset.sum_congr rfl fun j _ => ?_)
    refine congrArg (· * v25 (ix2 j q)) ?_
    refine congrArg (v19 (ix2 r j) * ·) ?_
    exact broadcastTo_apply v20 broadcasts_S1024x1_S1024x64 (ix2 r j) (ix2 r (0 : Fin 1))
      (fun a => by match a with | ⟨0, _⟩ => rfl | ⟨1, _⟩ => rfl)
  · exact broadcastTo_apply v28 broadcasts_S1x2_S1024x2 (ix2 r q) (ix2 (0 : Fin 1) q)
      (fun a => by match a with | ⟨0, _⟩ => rfl | ⟨1, _⟩ => rfl)

/-! ## Where each point's blocks sit in their arrays -/

theorem idx2_0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem idx2_1 : ∀ t : Fin cfg2.N, win2_1.index t 0 = 0 ∧ win2_1.index t 1 = 0 :=
  (by decide +kernel : ∀ t : Fin grid2.N, win2_1.index t 0 = 0 ∧ win2_1.index t 1 = 0)
theorem idx2_2 : ∀ t : Fin cfg2.N, win2_2.index t 0 = t.val / 4 ∧ win2_2.index t 1 = 0 :=
  (by decide +kernel : ∀ t : Fin grid2.N, win2_2.index t 0 = t.val / 4 ∧ win2_2.index t 1 = 0)
theorem idx2_3 : ∀ t : Fin cfg2.N, win2_3.index t 0 = 0 ∧ win2_3.index t 1 = 0 :=
  (by decide +kernel : ∀ t : Fin grid2.N, win2_3.index t 0 = 0 ∧ win2_3.index t 1 = 0)
theorem idx2_4 : ∀ t : Fin cfg2.N, win2_4.index t 0 = 0 ∧ win2_4.index t 1 = 0 :=
  (by decide +kernel : ∀ t : Fin grid2.N, win2_4.index t 0 = 0 ∧ win2_4.index t 1 = 0)
theorem idx2_5 : ∀ t : Fin cfg2.N, win2_5.index t 0 = t.val / 4 ∧ win2_5.index t 1 = 0 :=
  (by decide +kernel : ∀ t : Fin grid2.N, win2_5.index t 0 = t.val / 4 ∧ win2_5.index t 1 = 0)
/-- The feature rows the body loads at a point start at 2048 times the point's column-block coordinate. -/
theorem off2 : ∀ t : Fin cfg2.N, k2_off1 (grid2.coords t) 0 = 2048 * (t.val % 4) ∧ k2_off1 (grid2.coords t) 1 = 0 :=
  (by decide +kernel : ∀ t : Fin grid2.N, k2_off1 (grid2.coords t) 0 = 2048 * (t.val % 4) ∧ k2_off1 (grid2.coords t) 1 = 0)

section Blocks
variable (V : (c : Dev nD) → (b : Ref sig .tc) → Buf (Elt F) ((c : Thread nD τ).loc b)) (c : Dev nD)

/-- The adjacency block at point `t` is rows `1024 (t / 4) …`, columns `2048 (t % 4) …` of the adjacency matrix. -/
theorem iblk2_0_apply (t : Fin cfg2.N) (r : Fin 1024) (l : Fin 2048) (I K : Fin 8192)
    (hI : I.val = 1024 * (t.val / 4) + r.val) (hK : K.val = 2048 * (t.val % 4) + l.val) :
    (iblk2 V c 0 t : Vec F S1024x2048 .bf16) (ix2 r l) = V c main_v0_1 (ix2 I K) := by
  have hi := idx2_0 t
  unfold iblk2
  rw [View.read_apply]
  show V c main_v0_1 _ = V c main_v0_1 _
  congr 1
  funext a
  apply Fin.ext
  match a with
  | ⟨0, _⟩ => show win2_0.index t 0 * 1024 + 1 * r.val = I.val; rw [hi.1, hI]; omega
  | ⟨1, _⟩ => show win2_0.index t 1 * 2048 + 1 * l.val = K.val; rw [hi.2, hK]; omega

/-- The 2048 feature rows the body loads at point `t` are rows `2048 (t % 4) …` of the feature matrix. -/
theorem ldX2_apply (t : Fin cfg2.N) (l : Fin 2048) (j : Fin 64) (K : Fin 8192) (hK : K.val = 2048 * (t.val % 4) + l.val) :
    View.ld (iblk2 V c 1 t : Vec F S8192x64 .bf16) (Rect.unit (k2_off1 (grid2.coords t)) S2048x64.size (k2_off1_inb (grid2.coords t))) (ix2 l j)
      = V c main_v8 (ix2 K j) := by
  have hi := idx2_1 t
  have ho := off2 t
  show (iblk2 V c 1 t : Vec F S8192x64 .bf16) _ = _
  unfold iblk2
  rw [View.read_apply]
  show V c main_v8 _ = V c main_v8 _
  congr 1
  funext a
  apply Fin.ext
  match a with
  | ⟨0, _⟩ => show win2_1.index t 0 * 8192 + 1 * (k2_off1 (grid2.coords t) 0 + 1 * l.val) = K.val; rw [hi.1, ho.1, hK]; omega
  | ⟨1, _⟩ => show win2_1.index t 1 * 64 + 1 * (k2_off1 (grid2.coords t) 1 + 1 * j.val) = j.val; rw [hi.2, ho.2]; omega

/-- The row-factor block at point `t` is rows `1024 (t / 4) …` of the factor column. -/
theorem iblk2_2_apply (t : Fin cfg2.N) (r : Fin 1024) (I : Fin 8192) (hI : I.val = 1024 * (t.val / 4) + r.val) :
    (iblk2 V c 2 t : Vec F S1024x1 .f32) (ix2 r (0 : Fin 1)) = V c main_v0_0 (ix2 I (0 : Fin 1)) := by
  have hi := idx2_2 t
  unfold iblk2
  rw [View.read_apply]
  show V c main_v0_0 _ = V c main_v0_0 _
  congr 1
  funext a
  apply Fin.ext
  match a with
  | ⟨0, _⟩ => show win2_2.index t 0 * 1024 + 1 * r.val = I.val; rw [hi.1, hI]; omega
  | ⟨1, _⟩ => show win2_2.index t 1 * 1 + 1 * 0 = 0; rw [hi.2]

/-- The weights' window is the whole weight matrix, -/
theorem iblk2_3_apply (t : Fin cfg2.N) (j : Fin 64) (q : Fin 2) :
    (iblk2 V c 3 t : Vec F S64x2 .f32) (ix2 j q) = V c main_arg4 (ix2 j q) := by
  have hi := idx2_3 t
  unfold iblk2
  rw [View.read_apply]
  show V c main_arg4 _ = V c main_arg4 _
  congr 1
  funext a
  apply Fin.ext
  match a with
  | ⟨0, _⟩ => show win2_3.index t 0 * 64 + 1 * j.val = j.val; rw [hi.1]; omega
  | ⟨1, _⟩ => show win2_3.index t 1 * 2 + 1 * q.val = q.val; rw [hi.2]; omega

/-- and the bias's the whole bias row. -/
theorem iblk2_4_apply (t : Fin cfg2.N) (q : Fin 2) :
    (iblk2 V c 4 t : Vec F S1x2 .f32) (ix2 (0 : Fin 1) q) = V c main_v9 (ix2 (0 : Fin 1) q) := by
  have hi := idx2_4 t
  unfold iblk2
  rw [View.read_apply]
  show V c main_v9 _ = V c main_v9 _
  congr 1
  funext a
  apply Fin.ext
  match a with
  | ⟨0, _⟩ => show win2_4.index t 0 * 1 + 1 * 0 = 0; rw [hi.1]
  | ⟨1, _⟩ => show win2_4.index t 1 * 2 + 1 * q.val = q.val; rw [hi.2]; omega

end Blocks

/-! ## The accumulator row block by row block, and the output block -/

section Value
variable (V : (c : Dev nD) → (b : Ref sig .tc) → Buf (Elt Ideal) ((c : Thread nD τ).loc b)) (c : Dev nD)

open Cert.LibBlockSum (blockSum)

/-- The adjacency entries, as extended reals. -/
abbrev adj2 (I k : Fin 8192) : EReal := V c main_v0_1 (ix2 I k)
/-- The pre-scaled feature entries. -/
abbrev feat2 (k : Fin 8192) (j : Fin 64) : EReal := V c main_v8 (ix2 k j)
/-- Their products along a row. -/
abbrev aterm2 (I : Fin 8192) (j : Fin 64) (k : Fin 8192) : EReal := adj2 V c I k * feat2 V c k j

/-- One accumulation step at point `t`, at an entry: what the accumulator held plus the sum of the row's products over
    the point's column block. -/
theorem step2_apply (t : Fin cfg2.N) (prev : Vec Ideal S1024x64 .f32) (r : Fin 1024) (j : Fin 64) (I : Fin 8192) (a : Fin 4)
    (hI : I.val = 1024 * (t.val / 4) + r.val) (ha : t.val % 4 = a.val) :
    k2_pay2 (View.ld (iblk2 V c 1 t : Vec Ideal S8192x64 .bf16) (Rect.unit (k2_off1 (grid2.coords t)) S2048x64.size (k2_off1_inb (grid2.coords t))))
        (iblk2 V c 0 t) prev (ix2 r j)
      = prev (ix2 r j) + blockSum (aterm2 V c I j) a := by
  refine (k2_pay2_apply _ _ _ r j).trans (congrArg (prev (ix2 r j) + ·) (Finset.sum_congr rfl fun l _ => ?_))
  have hl : a.val * 2048 + l.val < 8192 := by have := a.isLt; have := l.isLt; omega
  exact congrArg₂ (· * ·)
    (iblk2_0_apply V c t r l I ⟨a.val * 2048 + l.val, hl⟩ hI (by show a.val * 2048 + l.val = _; omega))
    (ldX2_apply V c t l j ⟨a.val * 2048 + l.val, hl⟩ (by show a.val * 2048 + l.val = _; omega))

/-- After a row block's first point the accumulator holds the first column block's sum (over the zero of the reset). -/
theorem acc2_0 (n : ℕ) (hn : n % 4 = 0) (hlt : n < cfg2.N) (r : Fin 1024) (j : Fin 64) (I : Fin 8192)
    (hI : I.val = 1024 * (n / 4) + r.val) :
    (outsAt2 V c n hlt).2 (ix2 r j) = 0 + blockSum (aterm2 V c I j) 0 := by
  have h0 : (⟨n, hlt⟩ : Fin cfg2.N).val % 4 = 0 := hn
  have h1 : ¬(⟨n, hlt⟩ : Fin cfg2.N).val % 4 = 3 := by show ¬n % 4 = 3; omega
  rw [outsAt2_A V c ⟨n, hlt⟩ h0 h1]
  dsimp only
  refine (congrFun (sout2_A_eq (F := Ideal) c (grid2.coords ⟨n, hlt⟩) (ms2_0 ⟨n, hlt⟩) (hs2_0 ⟨n, hlt⟩) (ms2_1 ⟨n, hlt⟩) (hs2_1 ⟨n, hlt⟩) (ms2_2 ⟨n, hlt⟩) (hs2_2 ⟨n, hlt⟩) (ms2_3 ⟨n, hlt⟩) (hs2_3 ⟨n, hlt⟩) (ms2_4 ⟨n, hlt⟩) (hs2_4 ⟨n, hlt⟩) (ms2_5 ⟨n, hlt⟩) (hs2_5 ⟨n, hlt⟩) scM2_0 (Memref.isWhole_whole _) ((hcond2_0 ⟨n, hlt⟩).mpr h0) (fun h => h1 ((hcond2_1 ⟨n, hlt⟩).mp h)) (iblk2 V c 0 ⟨n, hlt⟩) (iblk2 V c 1 ⟨n, hlt⟩) (iblk2 V c 2 ⟨n, hlt⟩) (iblk2 V c 3 ⟨n, hlt⟩) (iblk2 V c 4 ⟨n, hlt⟩)) (ix2 r j)).trans ?_
  refine (step2_apply V c ⟨n, hlt⟩ (k2_pay1 (F := Ideal)) r j I 0 hI hn).trans ?_
  rw [k2_pay1_apply]

/-- After its second point, the first two. -/
theorem acc2_1 (n : ℕ) (hn : n % 4 = 1) (hlt : n < cfg2.N) (r : Fin 1024) (j : Fin 64) (I : Fin 8192)
    (hI : I.val = 1024 * (n / 4) + r.val) :
    (outsAt2 V c n hlt).2 (ix2 r j) = (0 + blockSum (aterm2 V c I j) 0) + blockSum (aterm2 V c I j) 1 := by
  have h0 : ¬(⟨n, hlt⟩ : Fin cfg2.N).val % 4 = 0 := by show ¬n % 4 = 0; omega
  have h1 : ¬(⟨n, hlt⟩ : Fin cfg2.N).val % 4 = 3 := by show ¬n % 4 = 3; omega
  rw [outsAt2_B V c ⟨n, hlt⟩ h0 h1]
  dsimp only
  refine (congrFun (sout2_B_eq (F := Ideal) c (grid2.coords ⟨n, hlt⟩) (ms2_0 ⟨n, hlt⟩) (hs2_0 ⟨n, hlt⟩) (ms2_1 ⟨n, hlt⟩) (hs2_1 ⟨n, hlt⟩) (ms2_2 ⟨n, hlt⟩) (hs2_2 ⟨n, hlt⟩) (ms2_3 ⟨n, hlt⟩) (hs2_3 ⟨n, hlt⟩) (ms2_4 ⟨n, hlt⟩) (hs2_4 ⟨n, hlt⟩) (ms2_5 ⟨n, hlt⟩) (hs2_5 ⟨n, hlt⟩) scM2_0 (Memref.isWhole_whole _) (fun h => h0 ((hcond2_0 ⟨n, hlt⟩).mp h)) (fun h => h1 ((hcond2_1 ⟨n, hlt⟩).mp h)) (iblk2 V c 0 ⟨n, hlt⟩) (iblk2 V c 1 ⟨n, hlt⟩) (iblk2 V c 2 ⟨n, hlt⟩) (iblk2 V c 3 ⟨n, hlt⟩) (iblk2 V c 4 ⟨n, hlt⟩) (outsAt2 V c ((⟨n, hlt⟩ : Fin cfg2.N).val - 1) (Nat.lt_of_le_of_lt (Nat.sub_le _ _) (⟨n, hlt⟩ : Fin cfg2.N).isLt)).2) (ix2 r j)).trans ?_
  refine (step2_apply V c ⟨n, hlt⟩ _ r j I 1 hI hn).trans ?_
  exact congrArg (· + blockSum (aterm2 V c I j) 1) (acc2_0 V c (n - 1) (by show (n - 1) % 4 = 0; omega) (by show n - 1 < cfg2.N; omega) r j I (by show I.val = 1024 * ((n - 1) / 4) + r.val; omega))

/-- After its third, the first three. -/
theorem acc2_2 (n : ℕ) (hn : n % 4 = 2) (hlt : n < cfg2.N) (r : Fin 1024) (j : Fin 64) (I : Fin 8192)
    (hI : I.val = 1024 * (n / 4) + r.val) :
    (outsAt2 V c n hlt).2 (ix2 r j) = ((0 + blockSum (aterm2 V c I j) 0) + blockSum (aterm2 V c I j) 1) + blockSum (aterm2 V c I j) 2 := by
  have h0 : ¬(⟨n, hlt⟩ : Fin cfg2.N).val % 4 = 0 := by show ¬n % 4 = 0; omega
  have h1 : ¬(⟨n, hlt⟩ : Fin cfg2.N).val % 4 = 3 := by show ¬n % 4 = 3; omega
  rw [outsAt2_B V c ⟨n, hlt⟩ h0 h1]
  dsimp only
  refine (congrFun (sout2_B_eq (F := Ideal) c (grid2.coords ⟨n, hlt⟩) (ms2_0 ⟨n, hlt⟩) (hs2_0 ⟨n, hlt⟩) (ms2_1 ⟨n, hlt⟩) (hs2_1 ⟨n, hlt⟩) (ms2_2 ⟨n, hlt⟩) (hs2_2 ⟨n, hlt⟩) (ms2_3 ⟨n, hlt⟩) (hs2_3 ⟨n, hlt⟩) (ms2_4 ⟨n, hlt⟩) (hs2_4 ⟨n, hlt⟩) (ms2_5 ⟨n, hlt⟩) (hs2_5 ⟨n, hlt⟩) scM2_0 (Memref.isWhole_whole _) (fun h => h0 ((hcond2_0 ⟨n, hlt⟩).mp h)) (fun h => h1 ((hcond2_1 ⟨n, hlt⟩).mp h)) (iblk2 V c 0 ⟨n, hlt⟩) (iblk2 V c 1 ⟨n, hlt⟩) (iblk2 V c 2 ⟨n, hlt⟩) (iblk2 V c 3 ⟨n, hlt⟩) (iblk2 V c 4 ⟨n, hlt⟩) (outsAt2 V c ((⟨n, hlt⟩ : Fin cfg2.N).val - 1) (Nat.lt_of_le_of_lt (Nat.sub_le _ _) (⟨n, hlt⟩ : Fin cfg2.N).isLt)).2) (ix2 r j)).trans ?_
  refine (step2_apply V c ⟨n, hlt⟩ _ r j I 2 hI hn).trans ?_
  exact congrArg (· + blockSum (aterm2 V c I j) 2) (acc2_1 V c (n - 1) (by show (n - 1) % 4 = 1; omega) (by show n - 1 < cfg2.N; omega) r j I (by show I.val = 1024 * ((n - 1) / 4) + r.val; omega))

/-- At a row block's last point the output block holds, at an entry, the affine map of the row's completed aggregation:
    the four column blocks' sums regroup to the sum over all 8192 source rows. -/
theorem out2_3 (n : ℕ) (hn : n % 4 = 3) (hlt : n < cfg2.N) (r : Fin 1024) (q : Fin 2) (I : Fin 8192)
    (hI : I.val = 1024 * (n / 4) + r.val) :
    (outsAt2 V c n hlt).1 (ix2 r q) = Cert.Spec.lin (Cert.Spec.aggPre (fun i k => V c main_v0_1 (ix2 i k)) (fun k j => V c main_v8 (ix2 k j)) (fun i => V c main_v0_0 (ix2 i (0 : Fin 1))))
      (fun j q => V c main_arg4 (ix2 j q)) (fun q => V c main_v9 (ix2 (0 : Fin 1) q)) I q := by
  have h0 : ¬(⟨n, hlt⟩ : Fin cfg2.N).val % 4 = 0 := by show ¬n % 4 = 0; omega
  have h1 : (⟨n, hlt⟩ : Fin cfg2.N).val % 4 = 3 := hn
  rw [outsAt2_C V c ⟨n, hlt⟩ h0 h1]
  dsimp only
  refine (congrFun (out2_C_eq (F := Ideal) c (grid2.coords ⟨n, hlt⟩) (ms2_0 ⟨n, hlt⟩) (hs2_0 ⟨n, hlt⟩) (ms2_1 ⟨n, hlt⟩) (hs2_1 ⟨n, hlt⟩) (ms2_2 ⟨n, hlt⟩) (hs2_2 ⟨n, hlt⟩) (ms2_3 ⟨n, hlt⟩) (hs2_3 ⟨n, hlt⟩) (ms2_4 ⟨n, hlt⟩) (hs2_4 ⟨n, hlt⟩) (ms2_5 ⟨n, hlt⟩) (hs2_5 ⟨n, hlt⟩) scM2_0 (Memref.isWhole_whole _) (fun h => h0 ((hcond2_0 ⟨n, hlt⟩).mp h)) ((hcond2_1 ⟨n, hlt⟩).mpr h1) (iblk2 V c 0 ⟨n, hlt⟩) (iblk2 V c 1 ⟨n, hlt⟩) (iblk2 V c 2 ⟨n, hlt⟩) (iblk2 V c 3 ⟨n, hlt⟩) (iblk2 V c 4 ⟨n, hlt⟩) (outsAt2 V c ((⟨n, hlt⟩ : Fin cfg2.N).val - 1) (Nat.lt_of_le_of_lt (Nat.sub_le _ _) (⟨n, hlt⟩ : Fin cfg2.N).isLt)).2) (ix2 r q)).trans ?_
  refine (k2_pay3_apply _ _ _ _ r q).trans ?_
  unfold Cert.Spec.lin Cert.Spec.aggPre
  refine congrArg₂ (· + ·) (Finset.sum_congr rfl fun j _ => ?_) (iblk2_4_apply V c ⟨n, hlt⟩ q)
  refine congrArg₂ (· * ·) (congrArg₂ (· * ·) ?_ (iblk2_2_apply V c ⟨n, hlt⟩ r I hI)) (iblk2_3_apply V c ⟨n, hlt⟩ j q)
  refine (step2_apply V c ⟨n, hlt⟩ _ r j I 3 hI hn).trans ?_
  refine (congrArg (· + blockSum (aterm2 V c I j) 3) (acc2_2 V c (n - 1) (by show (n - 1) % 4 = 2; omega) (by show n - 1 < cfg2.N; omega) r j I (by show I.val = 1024 * ((n - 1) / 4) + r.val; omega))).trans ?_
  exact (Cert.LibBlockSum.run4_8192 0 (aterm2 V c I j)).trans (zero_add _)

/-! ## From the blocks to the array -/

/-- What the output array ends holding: the layer's affine map of the aggregation, entry by entry. -/
def G2 : Buf (Elt Ideal) ((c : Thread nD τ).loc main_v10) :=
  fun y : S8192x2.Idx => Cert.Spec.lin (Cert.Spec.aggPre (fun i k => V c main_v0_1 (ix2 i k)) (fun k j => V c main_v8 (ix2 k j)) (fun i => V c main_v0_0 (ix2 i (0 : Fin 1))))
      (fun j q => V c main_arg4 (ix2 j q)) (fun q => V c main_v9 (ix2 (0 : Fin 1) q)) (y 0) (y 1)

/-- Each write-back writes the block of it that the point's rows name. -/
theorem flushed2_eq (t : Fin cfg2.N) (hf : (cfg2.win 5).flush t = true) :
    (dat2 V c).flushed 5 t = ((cfg2.win 5).blk t).view.read (Elt Ideal) (G2 V c) := by
  have h3 : t.val % 4 = 3 := (flush2_5 t).mp hf
  have hN : t.val < 32 := lt_of_lt_of_eq t.isLt (show cfg2.N = 32 from N_2)
  have hi := idx2_5 t
  show (cfg2.win 5).cut (grid2.coords t) ((dat2 V c).after 5 t) = _
  rw [after2_5]
  funext y
  obtain ⟨r, q, rfl⟩ : ∃ (r : Fin 1024) (q : Fin 2), y = ix2 r q := ⟨y 0, y 1, eq_ix2 y⟩
  rw [View.read_apply]
  have hr := r.isLt
  have hemb : ((cfg2.win 5).blk t).view.emb (ix2 r q) = (ix2 (⟨1024 * (t.val / 4) + r.val, by omega⟩ : Fin 8192) q : S8192x2.Idx) :=
    funext fun a => Fin.ext (by
      match a with
      | ⟨0, _⟩ => show win2_5.index t 0 * 1024 + 1 * r.val = 1024 * (t.val / 4) + r.val; rw [hi.1]; omega
      | ⟨1, _⟩ => show win2_5.index t 1 * 2 + 1 * q.val = q.val; rw [hi.2]; omega)
  refine (out2_3 V c t.val h3 t.isLt r q ⟨1024 * (t.val / 4) + r.val, by omega⟩ rfl).trans ?_
  exact (congrArg (G2 V c) hemb).symm

/-- Every entry of the output array lies in the block some row block's last point writes back. -/
theorem cover2 (i : S8192x2.Idx) : ∃ t : Fin cfg2.N, (cfg2.win 5).flush t = true ∧ i ∈ ((cfg2.win 5).blk t).view.set := by
  have h0 : (i 0 : Nat) < 8192 := (i 0).isLt
  have h1 : (i 1 : Nat) < 2 := (i 1).isLt
  have hN : cfg2.N = 32 := N_2
  have ht : 4 * ((i 0).val / 1024) + 3 < cfg2.N := by rw [hN]; omega
  have hi := idx2_5 ⟨4 * ((i 0).val / 1024) + 3, ht⟩
  refine ⟨⟨4 * ((i 0).val / 1024) + 3, ht⟩, (flush2_5 _).mpr (by show (4 * ((i 0).val / 1024) + 3) % 4 = 3; omega), ?_⟩
  show i ∈ ((View.whole main_v10).slice (win2_5.rect ⟨4 * ((i 0).val / 1024) + 3, ht⟩)).set
  rw [View.set_slice_whole, Rect.mem_set_unit]
  intro a
  match a with
  | ⟨0, _⟩ =>
    show win2_5.index ⟨4 * ((i 0).val / 1024) + 3, ht⟩ 0 * 1024 ≤ (i 0 : Nat) ∧ (i 0 : Nat) < win2_5.index ⟨4 * ((i 0).val / 1024) + 3, ht⟩ 0 * 1024 + 1024
    rw [hi.1]; show (4 * ((i 0).val / 1024) + 3) / 4 * 1024 ≤ (i 0 : Nat) ∧ (i 0 : Nat) < (4 * ((i 0).val / 1024) + 3) / 4 * 1024 + 1024; omega
  | ⟨1, _⟩ =>
    show win2_5.index ⟨4 * ((i 0).val / 1024) + 3, ht⟩ 1 * 2 ≤ (i 1 : Nat) ∧ (i 1 : Nat) < win2_5.index ⟨4 * ((i 0).val / 1024) + 3, ht⟩ 1 * 2 + 2
    rw [hi.2]; omega

/-- So the output array ends holding it. -/
theorem final2 : (dat2 (F := Ideal) V c).arrAt 5 cfg2.N = G2 V c :=
  (dat2 V c).arrAt_eq_of_cover 5 (G2 V c) (flushed2_eq V c) cover2

/-- THE VALUE of the second layer's region: after its last point the output array holds, at row `i` and column `q`, the
    affine map (weights, bias) of the aggregation of the pre-scaled features along adjacency row `i`, scaled by the
    row's factor — all read off the buffers as the region finds them. -/
theorem layer2_value (i : Fin 8192) (q : Fin 2) :
    (dat2 (F := Ideal) V c).arrAt 5 cfg2.N (ix2 i q) = Cert.Spec.lin (Cert.Spec.aggPre (fun i k => V c main_v0_1 (ix2 i k)) (fun k j => V c main_v8 (ix2 k j)) (fun i => V c main_v0_0 (ix2 i (0 : Fin 1))))
      (fun j q => V c main_arg4 (ix2 j q)) (fun q => V c main_v9 (ix2 (0 : Fin 1) q)) i q :=
  congrFun (final2 V c) (ix2 i q)

end Value

end Cert.KernelIdeal.Hand

end
-- ==== Proof.KernelIdeal.KernelValue.lean ====
/-
  What the kernel program leaves in its result, index by index, at the exact extended reals.

  Region 0 leaves the inverse root degrees `d` and a copy of the adjacency matrix.  The first host stretch scales the
  features' row `k` by `d k` and lays the first bias out as a row; region 1 aggregates, scales row `i` by `d i`,
  applies the first affine map and rectifies: the hidden layer.  The second stretch and region 2 do the same with the
  hidden layer and the second affine map, without the rectifier.  Composed, the result is `Cert.Spec.out` of the
  argument arrays.
-/
import proofs.«103316_j15479062135163_2_alg».proof.Proof.KernelIdeal.Frame
import proofs.«103316_j15479062135163_2_alg».proof.Proof.KernelIdeal.DegreeValue
import proofs.«103316_j15479062135163_2_alg».proof.Proof.KernelIdeal.Layer1Value
import proofs.«103316_j15479062135163_2_alg».proof.Proof.KernelIdeal.Layer2Value
import proofs.«103316_j15479062135163_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## The argument arrays as families over plain indices -/

abbrev adjM : Fin 8192 → Fin 8192 → EReal := fun i k => m ((c : Thread nD τ).loc main_arg1) (ix2 i k)
abbrev xM : Fin 8192 → Fin 128 → EReal := fun i j => m ((c : Thread nD τ).loc main_arg0) (ix2 i j)
abbrev w1M : Fin 128 → Fin 64 → EReal := fun j q => m ((c : Thread nD τ).loc main_arg2) (ix2 j q)
abbrev b1M : Fin 64 → EReal := fun q => m ((c : Thread nD τ).loc main_arg3) (ix1 q)
abbrev w2M : Fin 64 → Fin 2 → EReal := fun j q => m ((c : Thread nD τ).loc main_arg4) (ix2 j q)
abbrev b2M : Fin 2 → EReal := fun q => m ((c : Thread nD τ).loc main_arg5) (ix1 q)

/-! ## After region 0: the inverse root degrees and the adjacency copy -/

theorem W1_dinv (i : Fin 8192) :
    W1 m ρ c (Proc.devRef .tc main_v0_0) (ix2 i 0) = Cert.Spec.dinv (adjM m c) i :=
  (congrFun (W1_arr m ρ c 1) _).trans (degree_dinv (V0 m ρ) c i)

theorem W1_adj (i k : Fin 8192) :
    W1 m ρ c (Proc.devRef .tc main_v0_1) (ix2 i k) = adjM m c i k :=
  (congrFun (W1_arr m ρ c 2) _).trans (degree_copy (V0 m ρ) c i k)

theorem W1_arg0 : W1 m ρ c (Proc.devRef .tc main_arg0) = m ((c : Thread nD τ).loc main_arg0) :=
  W1_of_ne m ρ c main_arg0 (by decide)
theorem W1_arg2 : W1 m ρ c (Proc.devRef .tc main_arg2) = m ((c : Thread nD τ).loc main_arg2) :=
  W1_of_ne m ρ c main_arg2 (by decide)
theorem W1_arg3 : W1 m ρ c (Proc.devRef .tc main_arg3) = m ((c : Thread nD τ).loc main_arg3) :=
  W1_of_ne m ρ c main_arg3 (by decide)
theorem W1_arg4 : W1 m ρ c (Proc.devRef .tc main_arg4) = m ((c : Thread nD τ).loc main_arg4) :=
  W1_of_ne m ρ c main_arg4 (by decide)
theorem W1_arg5 : W1 m ρ c (Proc.devRef .tc main_arg5) = m ((c : Thread nD τ).loc main_arg5) :=
  W1_of_ne m ρ c main_arg5 (by decide)

/-! ## After the first host stretch -/

theorem W2_v0_0 : W2 m ρ c (Proc.devRef .tc main_v0_0) = W1 m ρ c (Proc.devRef .tc main_v0_0) := by
  show StableHlo.after hostOps1 (W1 m ρ c) (Proc.devRef .tc main_v0_0) = _
  after_results
theorem W2_v0_1 : W2 m ρ c (Proc.devRef .tc main_v0_1) = W1 m ρ c (Proc.devRef .tc main_v0_1) := by
  show StableHlo.after hostOps1 (W1 m ρ c) (Proc.devRef .tc main_v0_1) = _
  after_results
theorem W2_arg2 : W2 m ρ c (Proc.devRef .tc main_arg2) = W1 m ρ c (Proc.devRef .tc main_arg2) := by
  show StableHlo.after hostOps1 (W1 m ρ c) (Proc.devRef .tc main_arg2) = _
  after_results
theorem W2_arg4 : W2 m ρ c (Proc.devRef .tc main_arg4) = W1 m ρ c (Proc.devRef .tc main_arg4) := by
  show StableHlo.after hostOps1 (W1 m ρ c) (Proc.devRef .tc main_arg4) = _
  after_results
theorem W2_arg5 : W2 m ρ c (Proc.devRef .tc main_arg5) = W1 m ρ c (Proc.devRef .tc main_arg5) := by
  show StableHlo.after hostOps1 (W1 m ρ c) (Proc.devRef .tc main_arg5) = _
  after_results

/-- A column `[n,1]` broadcast along the second axis reads its row's entry. -/
theorem bcast_col_128 (d : (⟨S8192x1, .f32⟩ : BufTy).Contents (Elt Ideal)) (k : Fin 8192) (j : Fin 128) :
    broadcastInDim S8192x128 ![0, 1] bcast_S8192x1_S8192x128_0_1 d (ix2 k j) = d (ix2 k 0) :=
  broadcastInDim_apply _ bcast_S8192x1_S8192x128_0_1 d (ix2 k j) (ix2 k 0) (fun a => match a with
    | ⟨0, _⟩ => by show k.val = if (8192 : Nat) = 1 then 0 else k.val; rw [if_neg (by decide)]
    | ⟨1, _⟩ => by show (0 : Fin 1).val = if (1 : Nat) = 1 then 0 else j.val; rw [if_pos rfl]; rfl)
theorem bcast_col_64 (d : (⟨S8192x1, .f32⟩ : BufTy).Contents (Elt Ideal)) (k : Fin 8192) (j : Fin 64) :
    broadcastInDim S8192x64 ![0, 1] bcast_S8192x1_S8192x64_0_1 d (ix2 k j) = d (ix2 k 0) :=
  broadcastInDim_apply _ bcast_S8192x1_S8192x64_0_1 d (ix2 k j) (ix2 k 0) (fun a => match a with
    | ⟨0, _⟩ => by show k.val = if (8192 : Nat) = 1 then 0 else k.val; rw [if_neg (by decide)]
    | ⟨1, _⟩ => by show (0 : Fin 1).val = if (1 : Nat) = 1 then 0 else j.val; rw [if_pos rfl]; rfl)

/-- The features scaled by the inverse root degree of their row. -/
theorem W2_v3 (k : Fin 8192) (j : Fin 128) :
    W2 m ρ c (Proc.devRef .tc main_v3) (ix2 k j) = Cert.Spec.dinv (adjM m c) k * xM m c k j := by
  have e : W2 m ρ c (Proc.devRef .tc main_v3)
      = truncf (F := Ideal) .bf16 (mulf (broadcastInDim S8192x128 ![0, 1] bcast_S8192x1_S8192x128_0_1 (W1 m ρ c (Proc.devRef .tc main_v0_0)))
          (W1 m ρ c (Proc.devRef .tc main_arg0))) bitsLt_bf16_f32 := by
    show StableHlo.after hostOps1 (W1 m ρ c) (Proc.devRef .tc main_v3) = _
    after_results
  rw [e, truncf_apply, mulf_apply, bcast_col_128, W1_dinv, W1_arg0]

/-- The first bias laid out as a row. -/
theorem W2_v4 (q : Fin 64) :
    W2 m ρ c (Proc.devRef .tc main_v4) (ix2 0 q) = b1M m c q := by
  have e : W2 m ρ c (Proc.devRef .tc main_v4)
      = shapeCast S1x64 (W1 m ρ c (Proc.devRef .tc main_arg3)) shapeCasts_S64_S1x64 := by
    show StableHlo.after hostOps1 (W1 m ρ c) (Proc.devRef .tc main_v4) = _
    after_results
    rfl
  rw [e, shapeCast_apply _ shapeCasts_S64_S1x64 (ix2 0 q) (ix1 q) (by
    rw [Shape.rowMajor_val_one, Shape.rowMajor_val_two]; simp), W1_arg3]

/-! ## After region 1: the hidden layer -/

theorem W3_v0_0 : W3 m ρ c (Proc.devRef .tc main_v0_0) = W2 m ρ c (Proc.devRef .tc main_v0_0) :=
  (W3_arr m ρ c 2).trans (((dat1 (V2 m ρ) c).arrAt_in 2 rfl _).trans (A_eq1 (V2 m ρ) c 2))
theorem W3_v0_1 : W3 m ρ c (Proc.devRef .tc main_v0_1) = W2 m ρ c (Proc.devRef .tc main_v0_1) :=
  (W3_arr m ρ c 0).trans (((dat1 (V2 m ρ) c).arrAt_in 0 rfl _).trans (A_eq1 (V2 m ρ) c 0))
theorem W3_arg4 : W3 m ρ c (Proc.devRef .tc main_arg4) = W2 m ρ c (Proc.devRef .tc main_arg4) :=
  W3_of_ne m ρ c main_arg4 (by decide)
theorem W3_arg5 : W3 m ρ c (Proc.devRef .tc main_arg5) = W2 m ρ c (Proc.devRef .tc main_arg5) :=
  W3_of_ne m ρ c main_arg5 (by decide)

theorem W3_hidden (i : Fin 8192) (q : Fin 64) :
    W3 m ρ c (Proc.devRef .tc main_v5) (ix2 i q)
      = Cert.Spec.hidden (adjM m c) (xM m c) (w1M m c) (b1M m c) i q := by
  refine (congrFun (W3_arr m ρ c 5) _).trans ((layer1_value (V2 m ρ) c i q).trans ?_)
  have e1 : (fun i k => V2 m ρ c main_v0_1 (ix2 i k)) = adjM m c :=
    funext fun i => funext fun k => by show W2 m ρ c (Proc.devRef .tc main_v0_1) (ix2 i k) = _; rw [W2_v0_1, W1_adj]
  have e2 : (fun k j => V2 m ρ c main_v3 (ix2 k j)) = fun k j => Cert.Spec.dinv (adjM m c) k * xM m c k j :=
    funext fun k => funext fun j => W2_v3 m ρ c k j
  have e3 : (fun i => V2 m ρ c main_v0_0 (ix2 i 0)) = Cert.Spec.dinv (adjM m c) :=
    funext fun i => by show W2 m ρ c (Proc.devRef .tc main_v0_0) (ix2 i 0) = _; rw [W2_v0_0, W1_dinv]
  have e4 : (fun j q => V2 m ρ c main_arg2 (ix2 j q)) = w1M m c :=
    funext fun j => funext fun q => by show W2 m ρ c (Proc.devRef .tc main_arg2) (ix2 j q) = _; rw [W2_arg2, W1_arg2]
  have e5 : (fun q => V2 m ρ c main_v4 (ix2 0 q)) = b1M m c :=
    funext fun q => W2_v4 m ρ c q
  rw [e1, e2, e3, e4, e5]
  rfl

/-! ## After the second host stretch -/

theorem W4_v0_0 : W4 m ρ c (Proc.devRef .tc main_v0_0) = W3 m ρ c (Proc.devRef .tc main_v0_0) := by
  show StableHlo.after hostOps2 (W3 m ρ c) (Proc.devRef .tc main_v0_0) = _
  after_results
theorem W4_v0_1 : W4 m ρ c (Proc.devRef .tc main_v0_1) = W3 m ρ c (Proc.devRef .tc main_v0_1) := by
  show StableHlo.after hostOps2 (W3 m ρ c) (Proc.devRef .tc main_v0_1) = _
  after_results
theorem W4_arg4 : W4 m ρ c (Proc.devRef .tc main_arg4) = W3 m ρ c (Proc.devRef .tc main_arg4) := by
  show StableHlo.after hostOps2 (W3 m ρ c) (Proc.devRef .tc main_arg4) = _
  after_results

/-- The hidden layer scaled by the inverse root degree of its row. -/
theorem W4_v8 (k : Fin 8192) (j : Fin 64) :
    W4 m ρ c (Proc.devRef .tc main_v8) (ix2 k j)
      = Cert.Spec.dinv (adjM m c) k * Cert.Spec.hidden (adjM m c) (xM m c) (w1M m c) (b1M m c) k j := by
  have e : W4 m ρ c (Proc.devRef .tc main_v8)
      = truncf (F := Ideal) .bf16 (mulf (broadcastInDim S8192x64 ![0, 1] bcast_S8192x1_S8192x64_0_1 (W3 m ρ c (Proc.devRef .tc main_v0_0)))
          (W3 m ρ c (Proc.devRef .tc main_v5))) bitsLt_bf16_f32 := by
    show StableHlo.after hostOps2 (W3 m ρ c) (Proc.devRef .tc main_v8) = _
    after_results
  rw [e, truncf_apply, mulf_apply, bcast_col_64, W3_v0_0, W2_v0_0, W1_dinv, W3_hidden]

/-- The second bias laid out as a row. -/
theorem W4_v9 (q : Fin 2) :
    W4 m ρ c (Proc.devRef .tc main_v9) (ix2 0 q) = b2M m c q := by
  have e : W4 m ρ c (Proc.devRef .tc main_v9)
      = shapeCast S1x2 (W3 m ρ c (Proc.devRef .tc main_arg5)) shapeCasts_S2_S1x2 := by
    show StableHlo.after hostOps2 (W3 m ρ c) (Proc.devRef .tc main_v9) = _
    after_results
    rfl
  rw [e, shapeCast_apply _ shapeCasts_S2_S1x2 (ix2 0 q) (ix1 q) (by
    rw [Shape.rowMajor_val_one, Shape.rowMajor_val_two]; simp), W3_arg5, W2_arg5, W1_arg5]

/-! ## The result -/

/-- The kernel program's result is the network of the specification. -/
theorem result_value (i : Fin 8192) (q : Fin 2) :
    W5 m ρ c (Proc.devRef .tc main_v10) (ix2 i q)
      = Cert.Spec.out (adjM m c) (xM m c) (w1M m c) (b1M m c) (w2M m c) (b2M m c) i q := by
  refine (congrFun (W5_arr m ρ c 5) _).trans ((layer2_value (V4 m ρ) c i q).trans ?_)
  have e1 : (fun i k => V4 m ρ c main_v0_1 (ix2 i k)) = adjM m c :=
    funext fun i => funext fun k => by
      show W4 m ρ c (Proc.devRef .tc main_v0_1) (ix2 i k) = _; rw [W4_v0_1, W3_v0_1, W2_v0_1, W1_adj]
  have e2 : (fun k j => V4 m ρ c main_v8 (ix2 k j))
      = fun k j => Cert.Spec.dinv (adjM m c) k * Cert.Spec.hidden (adjM m c) (xM m c) (w1M m c) (b1M m c) k j :=
    funext fun k => funext fun j => W4_v8 m ρ c k j
  have e3 : (fun i => V4 m ρ c main_v0_0 (ix2 i 0)) = Cert.Spec.dinv (adjM m c) :=
    funext fun i => by
      show W4 m ρ c (Proc.devRef .tc main_v0_0) (ix2 i 0) = _; rw [W4_v0_0, W3_v0_0, W2_v0_0, W1_dinv]
  have e4 : (fun j q => V4 m ρ c main_arg4 (ix2 j q)) = w2M m c :=
    funext fun j => funext fun q => by
      show W4 m ρ c (Proc.devRef .tc main_arg4) (ix2 j q) = _; rw [W4_arg4, W3_arg4, W2_arg4, W1_arg4]
  have e5 : (fun q => V4 m ρ c main_v9 (ix2 0 q)) = b2M m c :=
    funext fun q => W4_v9 m ρ c q
  rw [e1, e2, e3, e4, e5]
  rfl

end Cert.KernelIdeal.Hand

end
-- ==== Proof.LibNonnegScale.lean ====
import Mathlib.Data.EReal.Basic
import Mathlib.Data.EReal.Operations
import Mathlib.Data.EReal.Inv
import Mathlib.Algebra.BigOperators.Group.Finset.Basic
import Idealize.ShloMosaic.PureOps.Ideal

/-!
# Scaling finite sums of extended reals by a nonnegative finite scalar

On the extended reals (`⊤ + ⊥ = ⊥`, `0 * x = 0`) multiplication does not distribute over
addition in general, but it does when the scalar `c` satisfies `0 ≤ c` and `c ≠ ⊤`; no
finiteness of the summands is needed.  Hence such a scalar moves in and out of arbitrary finite
sums.  As an application, the symmetric normalisation `d (src) * d (dst)` of a graph convolution
equals a row pre-scale by `d` followed by a row post-scale by `d`.
-/

noncomputable section

namespace Idealize.ShloMosaic.NonnegScale

open scoped BigOperators

/-- Left distributivity for a nonnegative scalar other than `⊤`; the summands are arbitrary. -/
theorem mul_add_of_nonneg_ne_top {c : EReal} (h0 : 0 ≤ c) (ht : c ≠ ⊤) (a b : EReal) :
    c * (a + b) = c * a + c * b :=
  EReal.left_distrib_of_nonneg_of_ne_top h0 ht a b

/-- Right distributivity for a nonnegative scalar other than `⊤`. -/
theorem add_mul_of_nonneg_ne_top {c : EReal} (h0 : 0 ≤ c) (ht : c ≠ ⊤) (a b : EReal) :
    (a + b) * c = a * c + b * c :=
  EReal.right_distrib_of_nonneg_of_ne_top h0 ht a b

/-- A nonnegative scalar other than `⊤` multiplies into a finite sum from the right. -/
theorem sum_mul_of_nonneg_ne_top {ι : Type*} (s : Finset ι) (f : ι → EReal) {c : EReal}
    (h0 : 0 ≤ c) (ht : c ≠ ⊤) : (∑ i ∈ s, f i) * c = ∑ i ∈ s, f i * c := by
  classical
  induction s using Finset.induction_on with
  | empty => simp
  | insert a s ha ih =>
    rw [Finset.sum_insert ha, Finset.sum_insert ha, add_mul_of_nonneg_ne_top h0 ht, ih]

/-- A nonnegative scalar other than `⊤` multiplies into a finite sum from the left. -/
theorem mul_sum_of_nonneg_ne_top {ι : Type*} (s : Finset ι) (f : ι → EReal) {c : EReal}
    (h0 : 0 ≤ c) (ht : c ≠ ⊤) : c * (∑ i ∈ s, f i) = ∑ i ∈ s, c * f i := by
  rw [mul_comm, sum_mul_of_nonneg_ne_top s f h0 ht]
  exact Finset.sum_congr rfl (fun i _ => mul_comm _ _)

/-- One message: the pre-scaled row contracted with `W` is the unscaled contraction, scaled. -/
theorem row_prescale {κ : Type*} [Fintype κ] (y : κ → EReal) (W : κ → EReal) {c : EReal}
    (h0 : 0 ≤ c) (ht : c ≠ ⊤) : (∑ k, (y k * c) * W k) = (∑ k, y k * W k) * c := by
  rw [sum_mul_of_nonneg_ne_top Finset.univ (fun k => y k * W k) h0 ht]
  exact Finset.sum_congr rfl (fun k _ => mul_right_comm _ _ _)

/-- Rows pre-scaled by `d`, summed over the edges into node `i`, then post-scaled by `d i`,
equal the per-edge symmetric factor `d (src) * d (dst)` applied to the unscaled messages. -/
theorem gcn_core {ι ε κ : Type*} [Fintype κ] (T : Finset ε) (s t : ε → ι) (i : ι)
    (ht : ∀ e ∈ T, t e = i) (x : ι → κ → EReal) (W : κ → EReal) (d : ι → EReal)
    (hd0 : ∀ n, 0 ≤ d n) (hdt : ∀ n, d n ≠ ⊤) :
    (∑ e ∈ T, ∑ k, (x (s e) k * d (s e)) * W k) * d i
      = ∑ e ∈ T, (∑ k, x (s e) k * W k) * (d (s e) * d (t e)) := by
  rw [sum_mul_of_nonneg_ne_top T _ (hd0 i) (hdt i)]
  refine Finset.sum_congr rfl (fun e he => ?_)
  rw [row_prescale (x (s e)) W (hd0 (s e)) (hdt (s e)), ht e he, mul_assoc]

/-- The reciprocal square root of a positive extended real lies in `[0, ⊤)`.  (At `0` the value
is `⊤` and at negative arguments it is `⊥`, so positivity cannot be dropped.) -/
theorem rsqrt_nonneg_ne_top (x : EReal) (hx : 0 < x) :
    0 ≤ Ideal.rsqrt x ∧ Ideal.rsqrt x ≠ ⊤ := by
  induction x using EReal.rec with
  | bot => exact absurd hx (not_lt_of_ge bot_le)
  | top => exact ⟨le_of_eq Ideal.rsqrt_top.symm, by rw [Ideal.rsqrt_top]; exact EReal.zero_ne_top⟩
  | coe r =>
    have hr : 0 < r := by exact_mod_cast hx
    have h1 : ¬ r < 0 := not_lt.mpr hr.le
    have h2 : ¬ r = 0 := hr.ne'
    have hE : Ideal.rsqrt (r : EReal) = (((Real.sqrt r)⁻¹ : ℝ) : EReal) := by
      rw [Ideal.rsqrt_coe, if_neg h1, if_neg h2]
    rw [hE]
    exact ⟨by exact_mod_cast inv_nonneg.mpr (Real.sqrt_nonneg r), EReal.coe_ne_top _⟩

end Idealize.ShloMosaic.NonnegScale
-- ==== Proof.Law.lean ====
/-
  The algebra under which the two arrangements of the graph convolution agree.

  The reference normalises the adjacency entry by entry, (d i * a i k) * d k, and contracts the result with the
  features; the specification scales the features' row k by d k, contracts with the bare adjacency, and scales the
  result's row i by d i.  On the extended reals multiplication is commutative and associative, and a factor c with
  0 ≤ c and c ≠ ⊤ moves in and out of a finite sum whatever the summands are.  The inverse root degree
  1 / sqrt (s + ε) of a row sum s ≥ 0 is such a factor: s + ε ≥ ε > 0, so the root is a positive real or ⊤, and its
  reciprocal is a nonnegative real (0 when s = ⊤).
-/
import proofs.«103316_j15479062135163_2_alg».proof.Proof.Spec
import proofs.«103316_j15479062135163_2_alg».proof.Proof.LibNonnegScale
import Idealize.ShloMosaic.Lib.IdealHost

noncomputable section

namespace Cert.Law

open Idealize.ShloMosaic
open scoped BigOperators

/-- The word of 1.0 is the extended real one. -/
theorem one_eq : Cert.Spec.one = 1 := Ideal.ofBits_one_f32

/-- The word of 0.0 is the extended real zero. -/
theorem zero_eq : Cert.Spec.zero = 0 := Ideal.ofBits_zero_f32

/-- The word 0x358637BD is the real 8796093 · 2⁻⁴³ (exponent field 107, fraction field 407485). -/
theorem eps_eq : Cert.Spec.eps = (((8796093 : ℝ) * (2 : ℝ) ^ (-43 : ℤ) : ℝ) : EReal) := by
  unfold Cert.Spec.eps
  simp [Ideal.ofBits, Ideal.ieee, -EReal.coe_mul]

/-- ε is a positive real. -/
theorem eps_pos : ∃ e : ℝ, 0 < e ∧ Cert.Spec.eps = (e : EReal) :=
  ⟨_, by positivity, eps_eq⟩

/-- For s ≥ 0 the value 1 / sqrt (s + ε) is nonnegative and is not ⊤. -/
theorem inv_sqrt_nonneg_ne_top (s : EReal) (hs : 0 ≤ s) :
    0 ≤ Ideal.div Cert.Spec.one (Ideal.sqrt (s + Cert.Spec.eps))
      ∧ Ideal.div Cert.Spec.one (Ideal.sqrt (s + Cert.Spec.eps)) ≠ ⊤ := by
  obtain ⟨e, he, hE⟩ := eps_pos
  rw [one_eq, hE]
  induction s using EReal.rec with
  | bot => exact absurd hs (not_le.mpr EReal.bot_lt_zero)
  | top =>
    rw [EReal.top_add_coe, Ideal.sqrt_top, Ideal.div, if_neg EReal.top_ne_zero, EReal.inv_top, mul_zero]
    exact ⟨le_refl _, EReal.zero_ne_top⟩
  | coe r =>
    have hr : 0 ≤ r := by exact_mod_cast hs
    have hpos : 0 < r + e := by linarith
    have hsq : 0 < Real.sqrt (r + e) := Real.sqrt_pos.mpr hpos
    rw [← EReal.coe_add, Ideal.sqrt_coe, if_neg (not_lt.mpr hpos.le), Ideal.div_coe hsq.ne', one_mul]
    exact ⟨by exact_mod_cast (one_div_nonneg.mpr hsq.le), EReal.coe_ne_top _⟩

/-- The inverse root degrees of an adjacency matrix whose row sums are nonnegative lie in [0, ⊤). -/
theorem dinv_nonneg_ne_top {n : ℕ} (a : Fin n → Fin n → EReal) (hrow : ∀ i, 0 ≤ ∑ k, a i k) (i : Fin n) :
    0 ≤ Cert.Spec.dinv a i ∧ Cert.Spec.dinv a i ≠ ⊤ :=
  inv_sqrt_nonneg_ne_top _ (hrow i)

/-- One aggregation: the symmetric factor applied edge by edge is the row scale before and after the sum. -/
theorem agg_sym {n f : ℕ} (a : Fin n → Fin n → EReal) (d : Fin n → EReal) (x : Fin n → Fin f → EReal)
    (hd : ∀ i, 0 ≤ d i ∧ d i ≠ ⊤) (i : Fin n) (j : Fin f) :
    ∑ k, ((d i * a i k) * d k) * x k j = Cert.Spec.agg a d x i j := by
  unfold Cert.Spec.agg
  rw [NonnegScale.sum_mul_of_nonneg_ne_top Finset.univ _ (hd i).1 (hd i).2]
  refine Finset.sum_congr rfl fun k _ => ?_
  rw [mul_assoc (d i * a i k), mul_assoc (d i), mul_comm (d i)]

/-- One layer as the reference arranges it: normalise the adjacency entry by entry, contract with the features,
    then the affine map. -/
def refLin {n f o : ℕ} (a : Fin n → Fin n → EReal) (d : Fin n → EReal) (x : Fin n → Fin f → EReal)
    (w : Fin f → Fin o → EReal) (b : Fin o → EReal) (i : Fin n) (q : Fin o) : EReal :=
  (∑ j, (∑ k, ((d i * a i k) * d k) * x k j) * w j q) + b q

theorem refLin_eq {n f o : ℕ} (a : Fin n → Fin n → EReal) (d : Fin n → EReal) (x : Fin n → Fin f → EReal)
    (w : Fin f → Fin o → EReal) (b : Fin o → EReal) (hd : ∀ i, 0 ≤ d i ∧ d i ≠ ⊤) (i : Fin n) (q : Fin o) :
    refLin a d x w b i q = Cert.Spec.lin (Cert.Spec.agg a d x) w b i q := by
  unfold refLin Cert.Spec.lin
  refine congrArg (· + b q) (Finset.sum_congr rfl fun j _ => ?_)
  rw [agg_sym a d x hd i j]

/-- The two-layer network as the reference arranges it. -/
def refOut {n f g o : ℕ} (a : Fin n → Fin n → EReal) (x : Fin n → Fin f → EReal)
    (w1 : Fin f → Fin g → EReal) (b1 : Fin g → EReal) (w2 : Fin g → Fin o → EReal) (b2 : Fin o → EReal)
    (i : Fin n) (q : Fin o) : EReal :=
  refLin a (Cert.Spec.dinv a) (fun i q => max (refLin a (Cert.Spec.dinv a) x w1 b1 i q) Cert.Spec.zero) w2 b2 i q

/-- THE LAW: when every row sum of the adjacency matrix is nonnegative, the reference's arrangement of the
    network is the specification's. -/
theorem refOut_eq_out {n f g o : ℕ} (a : Fin n → Fin n → EReal) (x : Fin n → Fin f → EReal)
    (w1 : Fin f → Fin g → EReal) (b1 : Fin g → EReal) (w2 : Fin g → Fin o → EReal) (b2 : Fin o → EReal)
    (hrow : ∀ i, 0 ≤ ∑ k, a i k) (i : Fin n) (q : Fin o) :
    refOut a x w1 b1 w2 b2 i q = Cert.Spec.out a x w1 b1 w2 b2 i q := by
  have hd := dinv_nonneg_ne_top a hrow
  unfold refOut Cert.Spec.out
  rw [refLin_eq a _ _ w2 b2 hd i q]
  have hh : (fun i q => max (refLin a (Cert.Spec.dinv a) x w1 b1 i q) Cert.Spec.zero) = Cert.Spec.hidden a x w1 b1 := by
    funext i' q'
    unfold Cert.Spec.hidden
    rw [refLin_eq a _ x w1 b1 hd i' q']
  rw [hh]

end Cert.Law

end
-- ==== Proof.Reference.RefSpec.lean ====
/-
  The reference's result, read index by index, is the specification.

  Each stage of the reference is read at an index built from explicit coordinates: the row sum, the inverse root
  degree d, the adjacency normalised entry by entry (d i * a i k) * d k, its contraction with the features, the
  affine map, the rectifier, and the same again for the second layer.  What comes out is the network in the
  reference's arrangement, which the law identifies with the specification's when every row sum is nonnegative.
-/
import proofs.«103316_j15479062135163_2_alg».proof.Proof.Gen.ReferenceIdeal.Read
import proofs.«103316_j15479062135163_2_alg».proof.Proof.Law

noncomputable section

namespace Cert.ReferenceIdeal.RefValue

open Cert.ReferenceIdeal Cert.ReferenceIdeal.Read Idealize.ShloMosaic Idealize.ShloMosaic.ValueIdx Idealize.SL.Sem
open scoped BigOperators

/-- The argument arrays as families over plain coordinates. -/
abbrev adj (x1 : (⟨S8192x8192, .f32⟩ : BufTy).Contents (Elt Ideal)) : Fin 8192 → Fin 8192 → EReal := fun i k => x1 (ix2 i k)
abbrev feat (x0 : (⟨S8192x128, .f32⟩ : BufTy).Contents (Elt Ideal)) : Fin 8192 → Fin 128 → EReal := fun i j => x0 (ix2 i j)
abbrev wA (x2 : (⟨S128x64, .f32⟩ : BufTy).Contents (Elt Ideal)) : Fin 128 → Fin 64 → EReal := fun j q => x2 (ix2 j q)
abbrev bA (x3 : (⟨S64, .f32⟩ : BufTy).Contents (Elt Ideal)) : Fin 64 → EReal := fun q => x3 (ix1 q)
abbrev wB (x4 : (⟨S64x2, .f32⟩ : BufTy).Contents (Elt Ideal)) : Fin 64 → Fin 2 → EReal := fun j q => x4 (ix2 j q)
abbrev bB (x5 : (⟨S2, .f32⟩ : BufTy).Contents (Elt Ideal)) : Fin 2 → EReal := fun q => x5 (ix1 q)

variable (x0 : (⟨S8192x128, .f32⟩ : BufTy).Contents (Elt Ideal)) (x1 : (⟨S8192x8192, .f32⟩ : BufTy).Contents (Elt Ideal))
  (x2 : (⟨S128x64, .f32⟩ : BufTy).Contents (Elt Ideal)) (x3 : (⟨S64, .f32⟩ : BufTy).Contents (Elt Ideal))
  (x4 : (⟨S64x2, .f32⟩ : BufTy).Contents (Elt Ideal)) (x5 : (⟨S2, .f32⟩ : BufTy).Contents (Elt Ideal))

/-- The row sum at row i: the initial value 0.0 contributes nothing. -/
theorem v0_at (i : Fin 8192) : val_main_v0 (F := Ideal) x1 (ix1 i) = ∑ k : Fin 8192, x1 (ix2 i k) := by
  rw [val_main_v0_apply, val_main_cst_apply, Ideal.ofBits_def, Ideal.ofBits_zero_f32, zero_add]
  exact Finset.sum_congr rfl fun k _ => congrArg x1 (by
    funext a; match a with | ⟨0, _⟩ => rfl | ⟨1, _⟩ => rfl)

/-- The inverse root degree at row i is the specification's. -/
theorem d_at (i : Fin 8192) : val_main_v5 (F := Ideal) x1 (ix1 i) = Cert.Spec.dinv (adj x1) i := by
  rw [val_main_v5_apply, val_main_v4_apply, val_main_cst_1_apply, val_main_v3_apply, val_main_v2_apply, v0_at,
    val_main_v1_apply, val_main_cst_0_apply]
  rfl

/-- The first layer's normalised adjacency at (i, k). -/
theorem v11_at (i k : Fin 8192) :
    val_main_v11 (F := Ideal) x1 (ix2 i k)
      = (Cert.Spec.dinv (adj x1) i * x1 (ix2 i k)) * Cert.Spec.dinv (adj x1) k := by
  have hrow : val_main_v7 (F := Ideal) x1 (ix2 i k) = val_main_v5 (F := Ideal) x1 (ix1 i) := by
    rw [val_main_v7_apply, val_main_v6_apply]
    exact congrArg _ (by funext a; match a with | ⟨0, _⟩ => rfl)
  have hcol : val_main_v10 (F := Ideal) x1 (ix2 i k) = val_main_v5 (F := Ideal) x1 (ix1 k) := by
    rw [val_main_v10_apply, val_main_v9_apply]
    exact congrArg _ (by funext a; match a with | ⟨0, _⟩ => rfl)
  rw [val_main_v11_apply, val_main_v8_apply, hrow, hcol, d_at, d_at]
  rfl

/-- The second layer's normalised adjacency at (i, k): the same value. -/
theorem v23_at (i k : Fin 8192) :
    val_main_v23 (F := Ideal) x1 (ix2 i k)
      = (Cert.Spec.dinv (adj x1) i * x1 (ix2 i k)) * Cert.Spec.dinv (adj x1) k := by
  have hrow : val_main_v19 (F := Ideal) x1 (ix2 i k) = val_main_v5 (F := Ideal) x1 (ix1 i) := by
    rw [val_main_v19_apply, val_main_v18_apply]
    exact congrArg _ (by funext a; match a with | ⟨0, _⟩ => rfl)
  have hcol : val_main_v22 (F := Ideal) x1 (ix2 i k) = val_main_v5 (F := Ideal) x1 (ix1 k) := by
    rw [val_main_v22_apply, val_main_v21_apply]
    exact congrArg _ (by funext a; match a with | ⟨0, _⟩ => rfl)
  rw [val_main_v23_apply, val_main_v20_apply, hrow, hcol, d_at, d_at]
  rfl

/-- The first aggregation at (i, j). -/
theorem v12_at (i : Fin 8192) (j : Fin 128) :
    val_main_v12 (F := Ideal) x0 x1 (ix2 i j)
      = ∑ k, ((Cert.Spec.dinv (adj x1) i * adj x1 i k) * Cert.Spec.dinv (adj x1) k) * feat x0 k j := by
  rw [val_main_v12_apply]
  refine Finset.sum_congr rfl fun k _ => ?_
  have hl : lidx_main_v12 (ix2 i j) k = ix2 i k := by
    funext a; match a with | ⟨0, _⟩ => rfl | ⟨1, _⟩ => rfl
  have hr : ridx_main_v12 (ix2 i j) k = ix2 k j := by
    funext a; match a with | ⟨0, _⟩ => rfl | ⟨1, _⟩ => rfl
  rw [hl, hr, v11_at]

/-- The first layer before the rectifier at (i, q): the reference's arrangement of one layer. -/
theorem v16_at (i : Fin 8192) (q : Fin 64) :
    val_main_v16 (F := Ideal) x0 x1 x2 x3 (ix2 i q)
      = Cert.Law.refLin (adj x1) (Cert.Spec.dinv (adj x1)) (feat x0) (wA x2) (bA x3) i q := by
  rw [val_main_v16_apply, val_main_v13_apply, val_main_v15_apply, val_main_v14_apply, Ideal.addf_def]
  unfold Cert.Law.refLin
  refine congrArg₂ (· + ·) (Finset.sum_congr rfl fun j _ => ?_) (congrArg x3 (by
    funext a; match a with | ⟨0, _⟩ => rfl))
  have hl : lidx_main_v13 (ix2 i q) j = ix2 i j := by
    funext a; match a with | ⟨0, _⟩ => rfl | ⟨1, _⟩ => rfl
  have hr : ridx_main_v13 (ix2 i q) j = ix2 j q := by
    funext a; match a with | ⟨0, _⟩ => rfl | ⟨1, _⟩ => rfl
  rw [hl, hr, v12_at]

/-- The hidden layer at (i, q). -/
theorem v17_at (i : Fin 8192) (q : Fin 64) :
    val_main_v17 (F := Ideal) x0 x1 x2 x3 (ix2 i q)
      = max (Cert.Law.refLin (adj x1) (Cert.Spec.dinv (adj x1)) (feat x0) (wA x2) (bA x3) i q) Cert.Spec.zero := by
  rw [val_main_v17_apply, val_main_call0_v0_apply, val_main_call0_cst_apply, v16_at, Ideal.maximumf_def]
  rfl

/-- The second aggregation at (i, j). -/
theorem v24_at (i : Fin 8192) (j : Fin 64) :
    val_main_v24 (F := Ideal) x0 x1 x2 x3 (ix2 i j)
      = ∑ k, ((Cert.Spec.dinv (adj x1) i * adj x1 i k) * Cert.Spec.dinv (adj x1) k)
          * max (Cert.Law.refLin (adj x1) (Cert.Spec.dinv (adj x1)) (feat x0) (wA x2) (bA x3) k j) Cert.Spec.zero := by
  rw [val_main_v24_apply]
  refine Finset.sum_congr rfl fun k _ => ?_
  have hl : lidx_main_v24 (ix2 i j) k = ix2 i k := by
    funext a; match a with | ⟨0, _⟩ => rfl | ⟨1, _⟩ => rfl
  have hr : ridx_main_v24 (ix2 i j) k = ix2 k j := by
    funext a; match a with | ⟨0, _⟩ => rfl | ⟨1, _⟩ => rfl
  rw [hl, hr, v23_at, v17_at]

/-- The reference's result at (i, q) is the network in the reference's arrangement. -/
theorem v28_at (i : Fin 8192) (q : Fin 2) :
    val_main_v28 (F := Ideal) x0 x1 x2 x3 x4 x5 (ix2 i q)
      = Cert.Law.refOut (adj x1) (feat x0) (wA x2) (bA x3) (wB x4) (bB x5) i q := by
  rw [val_main_v28_apply, val_main_v25_apply, val_main_v27_apply, val_main_v26_apply, Ideal.addf_def]
  unfold Cert.Law.refOut
  rw [Cert.Law.refLin]
  refine congrArg₂ (· + ·) (Finset.sum_congr rfl fun j _ => ?_) (congrArg x5 (by
    funext a; match a with | ⟨0, _⟩ => rfl))
  have hl : lidx_main_v25 (ix2 i q) j = ix2 i j := by
    funext a; match a with | ⟨0, _⟩ => rfl | ⟨1, _⟩ => rfl
  have hr : ridx_main_v25 (ix2 i q) j = ix2 j q := by
    funext a; match a with | ⟨0, _⟩ => rfl | ⟨1, _⟩ => rfl
  rw [hl, hr, v24_at]

/-- THE REFERENCE IS THE SPECIFICATION: under nonnegative row sums of the adjacency matrix, the reference's result at
    (i, q) is the specification's network of the six argument arrays. -/
theorem ref_eq_spec (hrow : ∀ i : Fin 8192, 0 ≤ ∑ k : Fin 8192, x1 (ix2 i k)) (i : Fin 8192) (q : Fin 2) :
    Cert.ReferenceIdeal.Read.val_main_v28 (F := Ideal) x0 x1 x2 x3 x4 x5 (ix2 i q)
      = Cert.Spec.out (fun i k => x1 (ix2 i k)) (fun i j => x0 (ix2 i j)) (fun j q => x2 (ix2 j q))
          (fun q => x3 (ix1 q)) (fun j q => x4 (ix2 j q)) (fun q => x5 (ix1 q)) i q :=
  (v28_at x0 x1 x2 x3 x4 x5 i q).trans
    (Cert.Law.refOut_eq_out (adj x1) (feat x0) (wA x2) (bA x3) (wB x4) (bB x5) hrow i q)

end Cert.ReferenceIdeal.RefValue

end
-- ==== Proof.PreDecode.lean ====
/-
  The precondition, decoded: every row sum of the adjacency matrix is nonnegative.

  The printed predicate is a conjunction of seven "all" reductions; the last one is the comparison, at every row, of
  the row's sum (the initial value 0.0 plus the sum of the row's entries) with 0.0.  A conjunction of bits that is 1
  has both bits 1; an "all" over every axis that is 1 has a 1 at every index; and at the extended reals the
  comparison "greater or equal" is the order's.
-/
import proofs.«103316_j15479062135163_2_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx
open Cert.Pre_finite_inputs
open scoped BigOperators

/-- The scalar shape has one index. -/
instance : Subsingleton S_.Idx := ⟨fun a b => funext fun d => d.elim0⟩

/-- A bit made from a Boolean is 1 exactly when the Boolean is true. -/
theorem ofBool_eq_one (b : Bool) : BitVec.ofBool b = 1#1 ↔ b = true := by cases b <;> decide

/-- Under the precondition the sum of row i of the adjacency matrix is nonnegative. -/
theorem rowsum_nonneg [Cert.Pre_finite_inputs.Facts]
    (x0 : FVec Ideal S8192x128 .f32) (x1 : FVec Ideal S8192x8192 .f32) (x2 : FVec Ideal S128x64 .f32)
    (x3 : FVec Ideal S64 .f32) (x4 : FVec Ideal S64x2 .f32) (x5 : FVec Ideal S2 .f32)
    (h : Cert.Pre_finite_inputs.fn (F := Ideal) x0 x1 x2 x3 x4 x5 = fun _ => 1#1) (i : Fin 8192) :
    0 ≤ ∑ k : Fin 8192, x1 (ix2 i k) := by
  have e := congrFun h ix0
  unfold Cert.Pre_finite_inputs.fn Cert.Pre_finite_inputs.fn_part1 Cert.Pre_finite_inputs.fn_part2 at e
  dsimp only at e
  -- the last conjunct, then its element at row i
  obtain ⟨-, h32⟩ := IntOp.andi_eq_one.1 e
  have hi := Host.reduce_andi_all _ _ _ _ _ h32 (ix1 i)
  have hR : Shape.Reduces S8192x8192 [1] S8192 := by decide
  -- the comparison at row i, over the extended reals
  have hc : BitVec.ofBool (decide (Ideal.ofBits .f32 0x00000000#32
      ≤ Ideal.hostReduceAdd Facts.reducesTo_S8192x8192_S8192_d1 x1 (Ideal.ofBits .f32 0x00000000#32) (ix1 i))) = 1#1 := hi
  rw [Ideal.hostReduceAdd_single Facts.reducesTo_S8192x8192_S8192_d1 hR, Ideal.ofBits_zero_f32, zero_add] at hc
  have hle := of_decide_eq_true ((ofBool_eq_one _).1 hc)
  -- the reduction's inserted index at (i, k) is the matrix index (i, k)
  refine hle.trans (le_of_eq (Finset.sum_congr rfl fun k _ => congrArg x1 (funext fun a => Fin.ext ?_)))
  match a with
  | ⟨0, _⟩ => rfl
  | ⟨1, _⟩ => rfl

end Cert.PreDecode

end
-- ==== Proof.lean ====
/-
  The certificate: the three frames, the idealization (which rewrote nothing) and the algebraic equivalence.

  Both kernel programs run to the end with their argument arrays unchanged: three kernel regions, each accumulating
  over its column blocks in a scratch the kernel keeps between grid points, with two stretches of host operations
  between them.  The reference is a straight line of host operations.  At the exact extended reals the kernel
  program's result is, index by index, the two-layer graph convolution `Cert.Spec.out` of the arguments; so is the
  reference's, once the inverse root degree `d i` of a row may be moved across the sum over that row's neighbours —
  which holds because every row sum of the adjacency matrix is nonnegative under the precondition, so that
  `d i = 1 / sqrt (row sum + ε)` is a nonnegative real.
-/
import proofs.«103316_j15479062135163_2_alg».proof.Defs
import proofs.«103316_j15479062135163_2_alg».proof.Proof.Gen.Kernel
import proofs.«103316_j15479062135163_2_alg».proof.Proof.Gen.KernelIdeal
import proofs.«103316_j15479062135163_2_alg».proof.Proof.Gen.ReferenceIdeal
import proofs.«103316_j15479062135163_2_alg».proof.Proof.Gen.ReferenceIdeal.Run
import proofs.«103316_j15479062135163_2_alg».proof.Proof.Gen.ReferenceIdeal.Read
import proofs.«103316_j15479062135163_2_alg».proof.Proof.Gen.Pre_finite_inputs
import proofs.«103316_j15479062135163_2_alg».proof.Proof.Kernel.Frame
import proofs.«103316_j15479062135163_2_alg».proof.Proof.KernelIdeal.Frame
import proofs.«103316_j15479062135163_2_alg».proof.Proof.KernelIdeal.KernelValue
import proofs.«103316_j15479062135163_2_alg».proof.Proof.Reference.RefSpec
import proofs.«103316_j15479062135163_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

theorem frame_kernel [Cert.Kernel.Facts] [Cert.Pre_finite_inputs.Facts] : Cert.frame_Kernel :=
  fun m ρ _ => Cert.Kernel.Hand.frame m ρ

theorem frame_kernelIdeal [Cert.KernelIdeal.Facts] [Cert.Pre_finite_inputs.Facts] : Cert.frame_KernelIdeal :=
  fun m ρ _ => Cert.KernelIdeal.Hand.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both programs end with the specification's network of the (agreeing) argument arrays. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W5 m ρ c (Proc.devRef .tc Cert.KernelIdeal.main_v10), ?_, ?_⟩
  · exact (θ_run Cert.KernelIdeal.defs _ _).mono (fun r h c =>
      ⟨h c _ (Cert.KernelIdeal.Hand.mem_uc Cert.KernelIdeal.main_v10 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c),
       (h c _ (Cert.KernelIdeal.Hand.mem_uc Cert.KernelIdeal.main_arg5 (by decide))).trans (Cert.KernelIdeal.Hand.W5_main_arg5 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    refine (Cert.ReferenceIdeal.Read.val_main_v28_eq _ _ _ _ _ _).trans ?_
    funext idx
    obtain ⟨i, q, rfl⟩ : ∃ (i : Fin 8192) (q : Fin 2), idx = ix2 i q := ⟨idx 0, idx 1, eq_ix2 idx⟩
    refine (Cert.ReferenceIdeal.RefValue.ref_eq_spec _ _ _ _ _ _
      (fun i => Cert.PreDecode.rowsum_nonneg _ _ _ _ _ _ (hpre c) i) i q).trans ?_
    exact (Cert.KernelIdeal.Hand.result_value m ρ c i q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
